-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x512 : Shape := ⟨3, ![4, 1024, 512]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S_ : Shape := ⟨0, ![]⟩

class Facts : Prop where
  bcast_S_S4x1024x512 : S_.BroadcastsInDim S4x1024x512 (![] : Fin 0 → Fin S4x1024x512.rank)
  reducesTo_S4x1024x512_S_d0_1_2 : S4x1024x512.ReducesTo [0, 1, 2] S_
  h_S_ : 0 < S_.numel
  bcast_S_S1536x512 : S_.BroadcastsInDim S1536x512 (![] : Fin 0 → Fin S1536x512.rank)
  reducesTo_S1536x512_S_d0_1 : S1536x512.ReducesTo [0, 1] S_
  bcast_S_S1536 : S_.BroadcastsInDim S1536 (![] : Fin 0 → Fin S1536.rank)
  reducesTo_S1536_S_d0 : S1536.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x512 .f32) (main_arg5 : FVec F S512 .f32) (main_v13 : IVec S_ 1) (main_v16 : IVec S1536 1) : IVec S_ 1 :=
  let main_c_5 : IVec S_ 1 := constantI S_ 1 1#1
  let main_v17 : IVec S_ 1 := (fun x v => Host.reduce IntOp.andi x v reducesTo_S1536_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S4x1024x512 .f32) (main_arg1 : FVec F S1536x512 .f32) (main_arg2 : FVec F S1536 .f32) (main_arg3 : FVec F S1536 .f32) (main_arg4 : FVec F S512x512 .f32) (main_arg5 : FVec F S512 .f32) : IVec S_ 1 :=
  let main_v0 : FVec F S4x1024x512 .f32 := Host.absf main_arg0
  let main_cst : FVec F S_ .f32 := constant S_ .f32 0x7F800000#32
  let main_v1 : FVec F S4x1024x512 .f32 := broadcastInDim S4x1024x512 ![] bcast_S_S4x1024x512 main_cst
  let main_v2 : IVec S4x1024x512 1 := cmpf .olt main_v0 main_v1
  let main_c : IVec S_ 1 := constantI S_ 1 1#1
  let main_v3 : IVec S_ 1 := (fun x v => Host.reduce IntOp.andi x v reducesTo_S4x1024x512_S_d0_1_2 h_S_) main_v2 main_c
  let main_v4 : FVec F S1536x512 .f32 := Host.absf main_arg1
  let main_cst_0 : FVec F S_ .f32 := constant S_ .f32 0x7F800000#32
  let main_v5 : FVec F S1536x512 .f32 := broadcastInDim S1536x512 ![] bcast_S_S1536x512 main_cst_0
  let main_v6 : IVec S1536x512 1 := cmpf .olt main_v4 main_v5
  let main_c_1 : IVec S_ 1 := constantI S_ 1 1#1
  let main_v7 : IVec S_ 1 := (fun x v => Host.reduce IntOp.andi x v reducesTo_S1536x512_S_d0_1 h_S_) main_v6 main_c_1
  let main_v8 : IVec S_ 1 := andi main_v3 main_v7
  let main_v9 : FVec F S1536 .f32 := Host.absf main_arg2
  let main_cst_2 : FVec F S_ .f32 := constant S_ .f32 0x7F800000#32
  let main_v10 : FVec F S1536 .f32 := broadcastInDim S1536 ![] bcast_S_S1536 main_cst_2
  let main_v11 : IVec S1536 1 := cmpf .olt main_v9 main_v10
  let main_c_3 : IVec S_ 1 := constantI S_ 1 1#1
  let main_v12 : IVec S_ 1 := (fun x v => Host.reduce IntOp.andi x v reducesTo_S1536_S_d0 h_S_) main_v11 main_c_3
  let main_v13 : IVec S_ 1 := andi main_v8 main_v12
  let main_v14 : FVec F S1536 .f32 := Host.absf main_arg3
  let main_cst_4 : FVec F S_ .f32 := constant S_ .f32 0x7F800000#32
  let main_v15 : FVec F S1536 .f32 := broadcastInDim S1536 ![] bcast_S_S1536 main_cst_4
  let main_v16 : IVec S1536 1 := cmpf .olt main_v14 main_v15
  fn_part1 (F := F) main_arg4 main_arg5 main_v13 main_v16
-- ==== Kernel.lean ====
abbrev S4x1024x512 : Shape := ⟨3, ![4, 1024, 512]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S4096x512 : Shape := ⟨2, ![4096, 512]⟩
abbrev S4096x1536 : Shape := ⟨2, ![4096, 1536]⟩
abbrev S8x1536 : Shape := ⟨2, ![8, 1536]⟩
abbrev S512x1536 : Shape := ⟨2, ![512, 1536]⟩
abbrev S1x1536 : Shape := ⟨2, ![1, 1536]⟩
abbrev S_ : Shape := ⟨0, ![]⟩
abbrev S4x1024x1536 : Shape := ⟨3, ![4, 1024, 1536]⟩
abbrev S1x512 : Shape := ⟨2, ![1, 512]⟩
abbrev S1x1024x1536 : Shape := ⟨3, ![1, 1024, 1536]⟩
abbrev S1x1024x512 : Shape := ⟨3, ![1, 1024, 512]⟩
abbrev S1024x1536 : Shape := ⟨2, ![1024, 1536]⟩
abbrev S1024x512 : Shape := ⟨2, ![1024, 512]⟩
abbrev S1024x64 : Shape := ⟨2, ![1024, 64]⟩
abbrev S1024x1024 : Shape := ⟨2, ![1024, 1024]⟩

abbrev nBuf : Space → Nat
  | .hbm => 38
  | .vmem => 15
  | .smem => 0
  | _ => 0

abbrev bufTy : (tb : Table) → Fin (tcTables nBuf tb) → BufTy
  | .hbm, ⟨0, _⟩ => ⟨S4x1024x512, .f32⟩
  | .hbm, ⟨1, _⟩ => ⟨S1536x512, .f32⟩
  | .hbm, ⟨2, _⟩ => ⟨S1536, .f32⟩
  | .hbm, ⟨3, _⟩ => ⟨S1536, .f32⟩
  | .hbm, ⟨4, _⟩ => ⟨S512x512, .f32⟩
  | .hbm, ⟨5, _⟩ => ⟨S512, .f32⟩
  | .hbm, ⟨6, _⟩ => ⟨S4096x512, .f32⟩
  | .hbm, ⟨7, _⟩ => ⟨S4096x1536, .f32⟩
  | .hbm, ⟨8, _⟩ => ⟨S8x1536, .f32⟩
  | .hbm, ⟨9, _⟩ => ⟨S8x1536, .f32⟩
  | .hbm, ⟨10, _⟩ => ⟨S1x1536, .f32⟩
  | .hbm, ⟨11, _⟩ => ⟨S1536, .f32⟩
  | .hbm, ⟨12, _⟩ => ⟨S_, .f32⟩
  | .hbm, ⟨13, _⟩ => ⟨S1536, .f32⟩
  | .hbm, ⟨14, _⟩ => ⟨S1536, .f32⟩
  | .hbm, ⟨15, _⟩ => ⟨S1x1536, .f32⟩
  | .hbm, ⟨16, _⟩ => ⟨S1536, .f32⟩
  | .hbm, ⟨17, _⟩ => ⟨S_, .f32⟩
  | .hbm, ⟨18, _⟩ => ⟨S1536, .f32⟩
  | .hbm, ⟨19, _⟩ => ⟨S1536, .f32⟩
  | .hbm, ⟨20, _⟩ => ⟨S1536, .f32⟩
  | .hbm, ⟨21, _⟩ => ⟨S1536, .f32⟩
  | .hbm, ⟨22, _⟩ => ⟨S_, .f32⟩
  | .hbm, ⟨23, _⟩ => ⟨S1536, .f32⟩
  | .hbm, ⟨24, _⟩ => ⟨S1536, .f32⟩
  | .hbm, ⟨25, _⟩ => ⟨S_, .f32⟩
  | .hbm, ⟨26, _⟩ => ⟨S1536, .f32⟩
  | .hbm, ⟨27, _⟩ => ⟨S1536, .f32⟩
  | .hbm, ⟨28, _⟩ => ⟨S1536, .f32⟩
  | .hbm, ⟨29, _⟩ => ⟨S1536, .f32⟩
  | .hbm, ⟨30, _⟩ => ⟨S1536, .f32⟩
  | .hbm, ⟨31, _⟩ => ⟨S1536, .f32⟩
  | .hbm, ⟨32, _⟩ => ⟨S4x1024x1536, .f32⟩
  | .hbm, ⟨33, _⟩ => ⟨S512x512, .bf16⟩
  | .hbm, ⟨34, _⟩ => ⟨S1x512, .f32⟩
  | .hbm, ⟨35, _⟩ => ⟨S1x1536, .f32⟩
  | .hbm, ⟨36, _⟩ => ⟨S1x1536, .f32⟩
  | .hbm, ⟨37, _⟩ => ⟨S4x1024x512, .f32⟩
  | .local _ .vmem, ⟨0, _⟩ => ⟨S512x512, .f32⟩
  | .local _ .vmem, ⟨1, _⟩ => ⟨S512x512, .f32⟩
  | .local _ .vmem, ⟨2, _⟩ => ⟨S1536x512, .f32⟩
  | .local _ .vmem, ⟨3, _⟩ => ⟨S512x1536, .f32⟩
  | .local _ .vmem, ⟨4, _⟩ => ⟨S512x1536, .f32⟩
  | .local _ .vmem, ⟨5, _⟩ => ⟨S8x1536, .f32⟩
  | .local _ .vmem, ⟨6, _⟩ => ⟨S8x1536, .f32⟩
  | .local _ .vmem, ⟨7, _⟩ => ⟨S1x1024x1536, .f32⟩
  | .local _ .vmem, ⟨8, _⟩ => ⟨S1x1024x1536, .f32⟩
  | .local _ .vmem, ⟨9, _⟩ => ⟨S1x1536, .f32⟩
  | .local _ .vmem, ⟨10, _⟩ => ⟨S1x1536, .f32⟩
  | .local _ .vmem, ⟨11, _⟩ => ⟨S512x512, .bf16⟩
  | .local _ .vmem, ⟨12, _⟩ => ⟨S1x512, .f32⟩
  | .local _ .vmem, ⟨13, _⟩ => ⟨S1x1024x512, .f32⟩
  | .local _ .vmem, ⟨14, _⟩ => ⟨S1x1024x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x1536 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1536 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1536 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x1024x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S4x1024x512_S4096x512 : S4x1024x512.ShapeCasts S4096x512
  inb_S8x1536_S8x1536_0_0 : ∀ a, (![0, 0] : Fin 2 → Nat) a + S8x1536.size a ≤ S8x1536.size a
  h_S8x1536 : 0 < S8x1536.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1536x512_S1536x512_0_0 : ∀ a, (![0, 0] : Fin 2 → Nat) a + S1536x512.size a ≤ S1536x512.size a
  h_S1536x512 : 0 < S1536x512.numel
  inb_S512x1536_S512x1536_0_0 : ∀ a, (![0, 0] : Fin 2 → Nat) a + S512x1536.size a ≤ S512x1536.size a
  h_S512x1536 : 0 < S512x1536.numel
  reduces_S512x1536_S1536 : S512x1536.Reduces [0] S1536
  shapeCasts_S8x1536_S8x1536 : S8x1536.ShapeCasts S8x1536
  shapeCasts_S1536_S1x1536 : S1536.ShapeCasts S1x1536
  shapeCasts_S1x1536_S1x1536 : S1x1536.ShapeCasts S1x1536
  broadcasts_S1x1536_S8x1536 : S1x1536.Broadcasts S8x1536
  slices_S8x1536_S1x1536_0_0 : S8x1536.Slices ![0, 0] S1x1536
  shapeCasts_S1x1536_S1536 : S1x1536.ShapeCasts S1536
  bcast_S_S1536 : S_.BroadcastsInDim S1536 (![] : Fin 0 → Fin S1536.rank)
  shapeCasts_S4096x1536_S4x1024x1536 : S4096x1536.ShapeCasts S4x1024x1536
  bitsLt_bf16_f32 : FTy.bits .bf16 < FTy.bits .f32
  shapeCasts_S512_S1x512 : S512.ShapeCasts S1x512
  inb_S1x1024x1536_S1x1024x1536_0_0_0 : ∀ a, (![0, 0, 0] : Fin 3 → Nat) a + S1x1024x1536.size a ≤ S1x1024x1536.size a
  h_S1x1024x1536 : 0 < S1x1024x1536.numel
  shapeCasts_S1x1024x1536_S1024x1536 : S1x1024x1536.ShapeCasts S1024x1536
  inb_S1x1536_S1x1536_0_0 : ∀ a, (![0, 0] : Fin 2 → Nat) a + S1x1536.size a ≤ S1x1536.size a
  h_S1x1536 : 0 < S1x1536.numel
  slices_S1024x1536_o0_0_S1024x512 : S1024x1536.Slices ![0, 0] S1024x512
  slices_S1x1536_o0_0_S1x512 : S1x1536.Slices ![0, 0] S1x512
  broadcasts_S1x512_S1024x512 : S1x512.Broadcasts S1024x512
  slices_S1024x1536_o0_512_S1024x512 : S1024x1536.Slices ![0, 512] S1024x512
  slices_S1x1536_o0_512_S1x512 : S1x1536.Slices ![0, 512] S1x512
  slices_S1024x1536_o0_1024_S1024x512 : S1024x1536.Slices ![0, 1024] S1024x512
  slices_S1x1536_o0_1024_S1x512 : S1x1536.Slices ![0, 1024] S1x512
  slices_S1024x512_o0_0_S1024x64 : S1024x512.Slices ![0, 0] S1024x64
  slices_S1024x512_o0_64_S1024x64 : S1024x512.Slices ![0, 64] S1024x64
  slices_S1024x512_o0_128_S1024x64 : S1024x512.Slices ![0, 128] S1024x64
  slices_S1024x512_o0_192_S1024x64 : S1024x512.Slices ![0, 192] S1024x64
  slices_S1024x512_o0_256_S1024x64 : S1024x512.Slices ![0, 256] S1024x64
  slices_S1024x512_o0_320_S1024x64 : S1024x512.Slices ![0, 320] S1024x64
  slices_S1024x512_o0_384_S1024x64 : S1024x512.Slices ![0, 384] S1024x64
  slices_S1024x512_o0_448_S1024x64 : S1024x512.Slices ![0, 448] S1024x64
  concatenates_S1024x64_S1024x64_S1024x64_S1024x64_S1024x64_S1024x64_S1024x64_S1024x64_S1024x512_d1 : Shape.Concatenates [S1024x64, S1024x64, S1024x64, S1024x64, S1024x64, S1024x64, S1024x64, S1024x64] S1024x512 1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  dot_S512x512_S1536x512_S512x1536_1_1_0_0_n_n_wf : DotDims.WF S512x512 S1536x512 S512x1536 [1] [1] [0] [0] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1536x512.size a ≤ S1536x512.size a
  hwx0_1 : ∀ i : grid0.Coords, EltTy.bits .f32 = 32 ∨ (Rect.block (s := S1536x512) S1536x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1536.size a ≤ S4096x1536.size a
  hwx0_2 : ∀ i : grid0.Coords, EltTy.bits .f32 = 32 ∨ (Rect.block (s := S4096x1536) S512x1536.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x1536.size a ≤ S8x1536.size a
  hwx0_3 : ∀ i : grid0.Coords, EltTy.bits .f32 = 32 ∨ (Rect.block (s := S8x1536) S8x1536.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x1536.size a ≤ S8x1536.size a
  hwx0_4 : ∀ i : grid0.Coords, EltTy.bits .f32 = 32 ∨ (Rect.block (s := S8x1536) S8x1536.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1536.size a ≤ S4x1024x1536.size a
  hwx1_0 : ∀ i : grid1.Coords, EltTy.bits .f32 = 32 ∨ (Rect.block (s := S4x1024x1536) S1x1024x1536.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1536.size a ≤ S1x1536.size a
  hwx1_1 : ∀ i : grid1.Coords, EltTy.bits .f32 = 32 ∨ (Rect.block (s := S1x1536) S1x1536.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1536.size a ≤ S1x1536.size a
  hwx1_2 : ∀ i : grid1.Coords, EltTy.bits .f32 = 32 ∨ (Rect.block (s := S1x1536) S1x1536.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .bf16 = 32 ∨ (Rect.block (s := S512x512) S512x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024x512.size a ≤ S4x1024x512.size a
  hwx1_5 : ∀ i : grid1.Coords, EltTy.bits .f32 = 32 ∨ (Rect.block (s := S4x1024x512) S1x1024x512.size (cc1_transform_5 i) (hinb1_5 i)).WholeWords (EltTy.packing .f32)

variable [Facts₀]

def dot_S512x512_S1536x512_S512x1536_1_1_0_0_n_n : DotDims S512x512 S1536x512 S512x1536 where
  lhsContracting := [1]
  rhsContracting := [1]
  lhsNonContracting := [0]
  rhsNonContracting := [0]
  lhsBatch := []
  rhsBatch := []
  wf := dot_S512x512_S1536x512_S512x1536_1_1_0_0_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1536x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S512x1536.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S8x1536.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S8x1536.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v20) S1x1024x1536.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S1x1536.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x1536.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S1x1024x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x1024x512 : Shape := ⟨3, ![4, 1024, 512]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S_ : Shape := ⟨0, ![]⟩
abbrev S4x1024x1536 : Shape := ⟨3, ![4, 1024, 1536]⟩
abbrev S1x1x1536 : Shape := ⟨3, ![1, 1, 1536]⟩
abbrev S4x1024x3x8x64 : Shape := ⟨5, ![4, 1024, 3, 8, 64]⟩
abbrev S3x4x8x1024x64 : Shape := ⟨5, ![3, 4, 8, 1024, 64]⟩
abbrev S1x4x8x1024x64 : Shape := ⟨5, ![1, 4, 8, 1024, 64]⟩
abbrev S4x8x1024x64 : Shape := ⟨4, ![4, 8, 1024, 64]⟩
abbrev S4x8x1024x1024 : Shape := ⟨4, ![4, 8, 1024, 1024]⟩
abbrev S4x1024x8x64 : Shape := ⟨4, ![4, 1024, 8, 64]⟩
abbrev S1x1x512 : Shape := ⟨3, ![1, 1, 512]⟩

abbrev nBuf : Space → Nat
  | .hbm => 142
  | .vmem => 0
  | .smem => 0
  | _ => 0

abbrev hbmTy0_0 (i : Nat) : BufTy := match i % 128 with
  | 0 => ⟨S4x1024x512, .f32⟩
  | 1 => ⟨S1536x512, .f32⟩
  | 2 => ⟨S1536, .f32⟩
  | 3 => ⟨S1536, .f32⟩
  | 4 => ⟨S512x512, .f32⟩
  | 5 => ⟨S512, .f32⟩
  | 6 => ⟨S_, .f32⟩
  | 7 => ⟨S_, .f32⟩
  | 8 => ⟨S_, .f32⟩
  | 9 => ⟨S4x1024x512, .f32⟩
  | 10 => ⟨S4x1024x512, .f32⟩
  | 11 => ⟨S_, .f32⟩
  | 12 => ⟨S4x1024x512, .f32⟩
  | 13 => ⟨S4x1024x512, .f32⟩
  | 14 => ⟨S_, .f32⟩
  | 15 => ⟨S4x1024x512, .f32⟩
  | 16 => ⟨S4x1024x512, .f32⟩
  | 17 => ⟨S4x1024x512, .f32⟩
  | 18 => ⟨S4x1024x1536, .f32⟩
  | 19 => ⟨S_, .f32⟩
  | 20 => ⟨S1536, .f32⟩
  | 21 => ⟨S_, .f32⟩
  | 22 => ⟨S1536, .f32⟩
  | 23 => ⟨S1536, .f32⟩
  | 24 => ⟨S_, .i32⟩
  | 25 => ⟨S_, .f32⟩
  | 26 => ⟨S1536, .f32⟩
  | 27 => ⟨S1x1x1536, .f32⟩
  | 28 => ⟨S_, .f32⟩
  | 29 => ⟨S1x1x1536, .f32⟩
  | 30 => ⟨S1x1x1536, .f32⟩
  | 31 => ⟨S4x1024x1536, .f32⟩
  | 32 => ⟨S4x1024x1536, .f32⟩
  | 33 => ⟨S4x1024x1536, .f32⟩
  | 34 => ⟨S_, .f32⟩
  | 35 => ⟨S_, .f32⟩
  | 36 => ⟨S_, .f32⟩
  | 37 => ⟨S_, .f32⟩
  | 38 => ⟨S1536, .f32⟩
  | 39 => ⟨S1536, .f32⟩
  | 40 => ⟨S1536, .f32⟩
  | 41 => ⟨S_, .f32⟩
  | 42 => ⟨S_, .i1⟩
  | 43 => ⟨S_, .f32⟩
  | 44 => ⟨S_, .f32⟩
  | 45 => ⟨S1536, .f32⟩
  | 46 => ⟨S1536, .f32⟩
  | 47 => ⟨S1x1x1536, .f32⟩
  | 48 => ⟨S4x1024x1536, .f32⟩
  | 49 => ⟨S4x1024x1536, .f32⟩
  | 50 => ⟨S_, .f32⟩
  | 51 => ⟨S1536, .f32⟩
  | 52 => ⟨S1536, .f32⟩
  | 53 => ⟨S1536, .f32⟩
  | 54 => ⟨S1x1x1536, .f32⟩
  | 55 => ⟨S4x1024x1536, .f32⟩
  | 56 => ⟨S4x1024x1536, .f32⟩
  | 57 => ⟨S1x1x1536, .f32⟩
  | 58 => ⟨S4x1024x1536, .f32⟩
  | 59 => ⟨S4x1024x1536, .f32⟩
  | 60 => ⟨S1x1x1536, .f32⟩
  | 61 => ⟨S4x1024x1536, .f32⟩
  | 62 => ⟨S4x1024x1536, .f32⟩
  | 63 => ⟨S4x1024x3x8x64, .f32⟩
  | 64 => ⟨S3x4x8x1024x64, .f32⟩
  | 65 => ⟨S1x4x8x1024x64, .f32⟩
  | 66 => ⟨S4x8x1024x64, .f32⟩
  | 67 => ⟨S_, .f32⟩
  | 68 => ⟨S_, .f32⟩
  | 69 => ⟨S_, .f32⟩
  | 70 => ⟨S4x8x1024x64, .f32⟩
  | 71 => ⟨S4x8x1024x64, .f32⟩
  | 72 => ⟨S_, .f32⟩
  | 73 => ⟨S4x8x1024x64, .f32⟩
  | 74 => ⟨S4x8x1024x64, .f32⟩
  | 75 => ⟨S_, .f32⟩
  | 76 => ⟨S4x8x1024x64, .f32⟩
  | 77 => ⟨S4x8x1024x64, .f32⟩
  | 78 => ⟨S4x8x1024x64, .f32⟩
  | 79 => ⟨S1x4x8x1024x64, .f32⟩
  | 80 => ⟨S4x8x1024x64, .f32⟩
  | 81 => ⟨S_, .f32⟩
  | 82 => ⟨S_, .f32⟩
  | 83 => ⟨S_, .f32⟩
  | 84 => ⟨S4x8x1024x64, .f32⟩
  | 85 => ⟨S4x8x1024x64, .f32⟩
  | 86 => ⟨S_, .f32⟩
  | 87 => ⟨S4x8x1024x64, .f32⟩
  | 88 => ⟨S4x8x1024x64, .f32⟩
  | 89 => ⟨S_, .f32⟩
  | 90 => ⟨S4x8x1024x64, .f32⟩
  | 91 => ⟨S4x8x1024x64, .f32⟩
  | 92 => ⟨S4x8x1024x64, .f32⟩
  | 93 => ⟨S1x4x8x1024x64, .f32⟩
  | 94 => ⟨S4x8x1024x64, .f32⟩
  | 95 => ⟨S_, .f32⟩
  | 96 => ⟨S_, .f32⟩
  | 97 => ⟨S_, .f32⟩
  | 98 => ⟨S4x8x1024x64, .f32⟩
  | 99 => ⟨S4x8x1024x64, .f32⟩
  | 100 => ⟨S_, .f32⟩
  | 101 => ⟨S4x8x1024x64, .f32⟩
  | 102 => ⟨S4x8x1024x64, .f32⟩
  | 103 => ⟨S_, .f32⟩
  | 104 => ⟨S4x8x1024x64, .f32⟩
  | 105 => ⟨S4x8x1024x64, .f32⟩
  | 106 => ⟨S4x8x1024x64, .f32⟩
  | 107 => ⟨S4x8x1024x1024, .f32⟩
  | 108 => ⟨S_, .f32⟩
  | 109 => ⟨S_, .f32⟩
  | 110 => ⟨S_, .f32⟩
  | 111 => ⟨S4x8x1024x1024, .f32⟩
  | 112 => ⟨S4x8x1024x1024, .f32⟩
  | 113 => ⟨S_, .f32⟩
  | 114 => ⟨S4x8x1024x1024, .f32⟩
  | 115 => ⟨S4x8x1024x1024, .f32⟩
  | 116 => ⟨S_, .f32⟩
  | 117 => ⟨S4x8x1024x1024, .f32⟩
  | 118 => ⟨S4x8x1024x1024, .f32⟩
  | 119 => ⟨S4x8x1024x1024, .f32⟩
  | 120 => ⟨S4x8x1024x64, .f32⟩
  | 121 => ⟨S_, .f32⟩
  | 122 => ⟨S4x8x1024x64, .f32⟩
  | 123 => ⟨S4x8x1024x64, .f32⟩
  | 124 => ⟨S4x1024x8x64, .f32⟩
  | 125 => ⟨S4x1024x512, .f32⟩
  | 126 => ⟨S_, .f32⟩
  | 127 => ⟨S_, .f32⟩
  | _ => ⟨S4x1024x512, .f32⟩

abbrev hbmTy0_1 (i : Nat) : BufTy := match i % 128 with
  | 0 => ⟨S_, .f32⟩
  | 1 => ⟨S4x1024x512, .f32⟩
  | 2 => ⟨S4x1024x512, .f32⟩
  | 3 => ⟨S_, .f32⟩
  | 4 => ⟨S4x1024x512, .f32⟩
  | 5 => ⟨S4x1024x512, .f32⟩
  | 6 => ⟨S_, .f32⟩
  | 7 => ⟨S4x1024x512, .f32⟩
  | 8 => ⟨S4x1024x512, .f32⟩
  | 9 => ⟨S4x1024x512, .f32⟩
  | 10 => ⟨S4x1024x512, .f32⟩
  | 11 => ⟨S1x1x512, .f32⟩
  | 12 => ⟨S4x1024x512, .f32⟩
  | 13 => ⟨S4x1024x512, .f32⟩
  | _ => ⟨S4x1024x512, .f32⟩

abbrev hbmTy (i : Nat) : BufTy := match i / 128 with
  | 0 => hbmTy0_0 i
  | 1 => hbmTy0_1 i
  | _ => ⟨S4x1024x512, .f32⟩

abbrev bufTy : (tb : Table) → Fin (tcTables nBuf tb) → BufTy
  | .hbm, ⟨i, _⟩ => hbmTy i
  | _, _ => ⟨S4x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_cst_1 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_cst_3 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_call1_cst : Ref sig .tc := ⟨.hbm, 25, rfl⟩
abbrev main_call1_v0 : Ref sig .tc := ⟨.hbm, 26, rfl⟩
abbrev main_call1_v1 : Ref sig .tc := ⟨.hbm, 27, rfl⟩
abbrev main_call1_cst_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_cst_1 : Ref sig .tc := ⟨.hbm, 35, rfl⟩
abbrev main_call1_v8 : Ref sig .tc := ⟨.hbm, 36, rfl⟩
abbrev main_call1_cst_2 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_cst_3 : Ref sig .tc := ⟨.hbm, 41, rfl⟩
abbrev main_call1_v12 : Ref sig .tc := ⟨.hbm, 42, rfl⟩
abbrev main_call1_cst_4 : Ref sig .tc := ⟨.hbm, 43, rfl⟩
abbrev main_call1_call0_v0 : Ref sig .tc := ⟨.hbm, 44, rfl⟩
abbrev main_call1_call0_v1 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_cst_4 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_cst_5 : Ref sig .tc := ⟨.hbm, 67, rfl⟩
abbrev main_cst_6 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_v28 : Ref sig .tc := ⟨.hbm, 74, rfl⟩
abbrev main_cst_7 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_cst_8 : Ref sig .tc := ⟨.hbm, 81, rfl⟩
abbrev main_cst_9 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_v34 : Ref sig .tc := ⟨.hbm, 88, rfl⟩
abbrev main_cst_10 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_cst_11 : Ref sig .tc := ⟨.hbm, 95, rfl⟩
abbrev main_cst_12 : Ref sig .tc := ⟨.hbm, 96, rfl⟩
abbrev main_call4_v0 : Ref sig .tc := ⟨.hbm, 97, rfl⟩
abbrev main_call4_v1 : Ref sig .tc := ⟨.hbm, 98, rfl⟩
abbrev main_call4_v2 : Ref sig .tc := ⟨.hbm, 99, rfl⟩
abbrev main_call4_v3 : Ref sig .tc := ⟨.hbm, 100, rfl⟩
abbrev main_call4_v4 : Ref sig .tc := ⟨.hbm, 101, rfl⟩
abbrev main_v40 : Ref sig .tc := ⟨.hbm, 102, rfl⟩
abbrev main_cst_13 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_cst_14 : Ref sig .tc := ⟨.hbm, 108, rfl⟩
abbrev main_cst_15 : Ref sig .tc := ⟨.hbm, 109, rfl⟩
abbrev main_call5_v0 : Ref sig .tc := ⟨.hbm, 110, rfl⟩
abbrev main_call5_v1 : Ref sig .tc := ⟨.hbm, 111, rfl⟩
abbrev main_call5_v2 : Ref sig .tc := ⟨.hbm, 112, rfl⟩
abbrev main_call5_v3 : Ref sig .tc := ⟨.hbm, 113, rfl⟩
abbrev main_call5_v4 : Ref sig .tc := ⟨.hbm, 114, rfl⟩
abbrev main_v45 : Ref sig .tc := ⟨.hbm, 115, rfl⟩
abbrev main_cst_16 : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_cst_17 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_cst_18 : Ref sig .tc := ⟨.hbm, 126, rfl⟩
abbrev main_cst_19 : Ref sig .tc := ⟨.hbm, 127, rfl⟩
abbrev main_call6_v0 : Ref sig .tc := ⟨.hbm, 128, rfl⟩
abbrev main_call6_v1 : Ref sig .tc := ⟨.hbm, 129, rfl⟩
abbrev main_call6_v2 : Ref sig .tc := ⟨.hbm, 130, rfl⟩
abbrev main_call6_v3 : Ref sig .tc := ⟨.hbm, 131, rfl⟩
abbrev main_call6_v4 : Ref sig .tc := ⟨.hbm, 132, rfl⟩
abbrev main_v54 : Ref sig .tc := ⟨.hbm, 133, rfl⟩
abbrev main_cst_20 : Ref sig .tc := ⟨.hbm, 134, rfl⟩
abbrev main_v55 : Ref sig .tc := ⟨.hbm, 135, rfl⟩
abbrev main_v56 : Ref sig .tc := ⟨.hbm, 136, rfl⟩
abbrev main_v57 : Ref sig .tc := ⟨.hbm, 137, rfl⟩
abbrev main_v58 : Ref sig .tc := ⟨.hbm, 138, rfl⟩
abbrev main_v59 : Ref sig .tc := ⟨.hbm, 139, rfl⟩
abbrev main_v60 : Ref sig .tc := ⟨.hbm, 140, rfl⟩
abbrev main_v61 : Ref sig .tc := ⟨.hbm, 141, rfl⟩

abbrev nD : Nat := 1
abbrev τ : Topo := Topo.v7x

variable {F : FTy → Type} [FloatOps F]

class Facts₀ : Prop where
  bcast_S_S4x1024x512 : S_.BroadcastsInDim S4x1024x512 (![] : Fin 0 → Fin S4x1024x512.rank)
  reducesTo_S4x1024x1536_S1536_d0_1 : S4x1024x1536.ReducesTo [0, 1] S1536
  h_S_ : 0 < S_.numel
  bcast_S_S1536 : S_.BroadcastsInDim S1536 (![] : Fin 0 → Fin S1536.rank)
  bcast_S1536_S1x1x1536_2 : S1536.BroadcastsInDim S1x1x1536 (![2] : Fin 1 → Fin S1x1x1536.rank)
  bcast_S_S1x1x1536 : S_.BroadcastsInDim S1x1x1536 (![] : Fin 0 → Fin S1x1x1536.rank)
  bcast_S1x1x1536_S4x1024x1536_0_1_2 : S1x1x1536.BroadcastsInDim S4x1024x1536 (![0, 1, 2] : Fin 3 → Fin S4x1024x1536.rank)
  shapeCasts_S4x1024x1536_S4x1024x3x8x64 : S4x1024x1536.ShapeCasts S4x1024x3x8x64
  transposes_S4x1024x3x8x64_S3x4x8x1024x64_2_0_3_1_4 : S4x1024x3x8x64.Transposes [2, 0, 3, 1, 4] S3x4x8x1024x64
  slices_S3x4x8x1024x64_S1x4x8x1024x64_0_0_0_0_0 : S3x4x8x1024x64.Slices ![0, 0, 0, 0, 0] S1x4x8x1024x64
  shapeCasts_S1x4x8x1024x64_S4x8x1024x64 : S1x4x8x1024x64.ShapeCasts S4x8x1024x64
  bcast_S_S4x8x1024x64 : S_.BroadcastsInDim S4x8x1024x64 (![] : Fin 0 → Fin S4x8x1024x64.rank)
  slices_S3x4x8x1024x64_S1x4x8x1024x64_1_0_0_0_0 : S3x4x8x1024x64.Slices ![1, 0, 0, 0, 0] S1x4x8x1024x64
  slices_S3x4x8x1024x64_S1x4x8x1024x64_2_0_0_0_0 : S3x4x8x1024x64.Slices ![2, 0, 0, 0, 0] S1x4x8x1024x64
  bcast_S_S4x8x1024x1024 : S_.BroadcastsInDim S4x8x1024x1024 (![] : Fin 0 → Fin S4x8x1024x1024.rank)
  transposes_S4x8x1024x64_S4x1024x8x64_0_2_1_3 : S4x8x1024x64.Transposes [0, 2, 1, 3] S4x1024x8x64
  shapeCasts_S4x1024x8x64_S4x1024x512 : S4x1024x8x64.ShapeCasts S4x1024x512
  bcast_S512_S1x1x512_2 : S512.BroadcastsInDim S1x1x512 (![2] : Fin 1 → Fin S1x1x512.rank)
  bcast_S1x1x512_S4x1024x512_0_1_2 : S1x1x512.BroadcastsInDim S4x1024x512 (![0, 1, 2] : Fin 3 → Fin S4x1024x512.rank)
  dot_S4x1024x512_S1536x512_S4x1024x1536_2_1_01_0_n_n_wf : DotDims.WF S4x1024x512 S1536x512 S4x1024x1536 [2] [1] [0, 1] [0] [] []
  dot_S4x8x1024x64_S4x8x1024x64_S4x8x1024x1024_3_3_2_2_01_01_wf : DotDims.WF S4x8x1024x64 S4x8x1024x64 S4x8x1024x1024 [3] [3] [2] [2] [0, 1] [0, 1]
  dot_S4x8x1024x1024_S4x8x1024x64_S4x8x1024x64_3_2_2_3_01_01_wf : DotDims.WF S4x8x1024x1024 S4x8x1024x64 S4x8x1024x64 [3] [2] [2] [3] [0, 1] [0, 1]
  dot_S4x1024x512_S512x512_S4x1024x512_2_1_01_0_n_n_wf : DotDims.WF S4x1024x512 S512x512 S4x1024x512 [2] [1] [0, 1] [0] [] []

variable [Facts₀]

def dot_S4x1024x512_S1536x512_S4x1024x1536_2_1_01_0_n_n : DotDims S4x1024x512 S1536x512 S4x1024x1536 where
  lhsContracting := [2]
  rhsContracting := [1]
  lhsNonContracting := [0, 1]
  rhsNonContracting := [0]
  lhsBatch := []
  rhsBatch := []
  wf := dot_S4x1024x512_S1536x512_S4x1024x1536_2_1_01_0_n_n_wf
def dot_S4x8x1024x64_S4x8x1024x64_S4x8x1024x1024_3_3_2_2_01_01 : DotDims S4x8x1024x64 S4x8x1024x64 S4x8x1024x1024 where
  lhsContracting := [3]
  rhsContracting := [3]
  lhsNonContracting := [2]
  rhsNonContracting := [2]
  lhsBatch := [0, 1]
  rhsBatch := [0, 1]
  wf := dot_S4x8x1024x64_S4x8x1024x64_S4x8x1024x1024_3_3_2_2_01_01_wf
def dot_S4x8x1024x1024_S4x8x1024x64_S4x8x1024x64_3_2_2_3_01_01 : DotDims S4x8x1024x1024 S4x8x1024x64 S4x8x1024x64 where
  lhsContracting := [3]
  rhsContracting := [2]
  lhsNonContracting := [2]
  rhsNonContracting := [3]
  lhsBatch := [0, 1]
  rhsBatch := [0, 1]
  wf := dot_S4x8x1024x1024_S4x8x1024x64_S4x8x1024x64_3_2_2_3_01_01_wf
def dot_S4x1024x512_S512x512_S4x1024x512_2_1_01_0_n_n : DotDims S4x1024x512 S512x512 S4x1024x512 where
  lhsContracting := [2]
  rhsContracting := [1]
  lhsNonContracting := [0, 1]
  rhsNonContracting := [0]
  lhsBatch := []
  rhsBatch := []
  wf := dot_S4x1024x512_S512x512_S4x1024x512_2_1_01_0_n_n_wf

class Facts : Prop extends Facts₀ where

variable [Facts]
-- ==== Proof.KRun.lean ====
/-
  The idealized kernel's run with its result named: every weakly fair execution of the program terminates without a
  fault, the argument arrays end as launched, and the result array ends at the contents the second region's
  write-backs leave (the fold of the buffer contents through the four segments, read at the result's buffer).
-/
import proofs.«103527_j53025666236638_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array at the last boundary's contents and the arguments as launched. -/
theorem run_named : θ_run defs (onTc (τ := τ) (main (F := F))) ⟨m, fun _ => 0, ρ⟩ (fun r => ∀ c : Dev nD,
      r.2.mem ((c.tc : Thread nD τ).loc main_v25) = W4 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v25 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.KRun

end
-- ==== Proof.R0Out.lean ====
/-
  The first region, one grid point at a time: what the body leaves in its three output blocks.
  At every point the product block is the tile's matmul; at the first point the two statistics blocks are the zero
  block plus the tile's column sums (of the product, of its squares), at every later point what the block held
  plus them.
-/
import proofs.«103527_j53025666236638_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.R0

open Cert.KernelIdeal Cert.KernelIdeal.Gen

variable {F : FTy → Type} [FloatOps F]

theorem hz : (![0, 0] : Fin 2 → Nat) = fun _ => 0 := funext fun a => by fin_cases a <;> rfl

/-- Not the first point: the product block is the tile's matmul. -/
theorem out_B_2 (c : Dev nD) (i : grid0.Coords) (a1 : Memref sig .tc .vmem S512x512 .f32) (h1 : a1.IsWhole)
    (a2 : Memref sig .tc .vmem S1536x512 .f32) (h2 : a2.IsWhole) (a3 : Memref sig .tc .vmem S512x1536 .f32) (h3 : a3.IsWhole)
    (a4 : Memref sig .tc .vmem S8x1536 .f32) (h4 : a4.IsWhole) (a5 : Memref sig .tc .vmem S8x1536 .f32) (h5 : a5.IsWhole)
    (hc : ¬cond0_0 i) (x0 : Vec F S512x512 .f32) (x1 : Vec F S1536x512 .f32) (xo3 xo4 : Vec F S8x1536 .f32) :
    out0_B_2 c i a1 h1 a2 h2 a3 h3 a4 h4 a5 h5 hc x0 x1 xo3 xo4 = k0_pay3 x0 x1 := by
  unfold out0_B_2
  rw [View.read_writes_eq_canon _ _ _ (cover0_B_2 c i a1 h1 a2 h2 a3 h3 a4 h4 a5 h5 hc x0 x1 xo3 xo4)]
  unfold kernelRun0_B
  dsimp only
  rw [View.canon_unit_zero hz]
  simp only [View.readAt_eq_ld, h1.read_unread, h2.read_unread, h4.read_unread, h5.read_unread, View.ld_unit_zero (S := S512x512) hz, View.ld_unit_zero (S := S1536x512) hz, View.ld_unit_zero (S := S8x1536) hz]

/-- Not the first point: the sums block is what it held plus the tile's column sums. -/
theorem out_B_3 (c : Dev nD) (i : grid0.Coords) (a1 : Memref sig .tc .vmem S512x512 .f32) (h1 : a1.IsWhole)
    (a2 : Memref sig .tc .vmem S1536x512 .f32) (h2 : a2.IsWhole) (a3 : Memref sig .tc .vmem S512x1536 .f32) (h3 : a3.IsWhole)
    (a4 : Memref sig .tc .vmem S8x1536 .f32) (h4 : a4.IsWhole) (a5 : Memref sig .tc .vmem S8x1536 .f32) (h5 : a5.IsWhole)
    (hc : ¬cond0_0 i) (x0 : Vec F S512x512 .f32) (x1 : Vec F S1536x512 .f32) (xo3 xo4 : Vec F S8x1536 .f32) :
    out0_B_3 c i a1 h1 a2 h2 a3 h3 a4 h4 a5 h5 hc x0 x1 xo3 xo4 = k0_pay4 x0 x1 xo3 := by
  unfold out0_B_3
  rw [View.read_writes_eq_canon _ _ _ (cover0_B_3 c i a1 h1 a2 h2 a3 h3 a4 h4 a5 h5 hc x0 x1 xo3 xo4)]
  unfold kernelRun0_B
  dsimp only
  rw [View.canon_unit_zero hz]
  simp only [View.readAt_eq_ld, h1.read_unread, h2.read_unread, h4.read_unread, h5.read_unread, View.ld_unit_zero (S := S512x512) hz, View.ld_unit_zero (S := S1536x512) hz, View.ld_unit_zero (S := S8x1536) hz]

/-- Not the first point: the squares block is what it held plus the tile's column sums of squares. -/
theorem out_B_4 (c : Dev nD) (i : grid0.Coords) (a1 : Memref sig .tc .vmem S512x512 .f32) (h1 : a1.IsWhole)
    (a2 : Memref sig .tc .vmem S1536x512 .f32) (h2 : a2.IsWhole) (a3 : Memref sig .tc .vmem S512x1536 .f32) (h3 : a3.IsWhole)
    (a4 : Memref sig .tc .vmem S8x1536 .f32) (h4 : a4.IsWhole) (a5 : Memref sig .tc .vmem S8x1536 .f32) (h5 : a5.IsWhole)
    (hc : ¬cond0_0 i) (x0 : Vec F S512x512 .f32) (x1 : Vec F S1536x512 .f32) (xo3 xo4 : Vec F S8x1536 .f32) :
    out0_B_4 c i a1 h1 a2 h2 a3 h3 a4 h4 a5 h5 hc x0 x1 xo3 xo4 = k0_pay5 x0 x1 xo4 := by
  unfold out0_B_4
  rw [View.read_writes_eq_canon _ _ _ (cover0_B_4 c i a1 h1 a2 h2 a3 h3 a4 h4 a5 h5 hc x0 x1 xo3 xo4)]
  unfold kernelRun0_B
  dsimp only
  rw [View.canon_unit_zero hz]
  simp only [View.readAt_eq_ld, h1.read_unread, h2.read_unread, h4.read_unread, h5.read_unread, View.ld_unit_zero (S := S512x512) hz, View.ld_unit_zero (S := S1536x512) hz, View.ld_unit_zero (S := S8x1536) hz]

/-- The first point: the product block is the tile's matmul. -/
theorem out_A_2 (c : Dev nD) (i : grid0.Coords) (a1 : Memref sig .tc .vmem S512x512 .f32) (h1 : a1.IsWhole)
    (a2 : Memref sig .tc .vmem S1536x512 .f32) (h2 : a2.IsWhole) (a3 : Memref sig .tc .vmem S512x1536 .f32) (h3 : a3.IsWhole)
    (a4 : Memref sig .tc .vmem S8x1536 .f32) (h4 : a4.IsWhole) (a5 : Memref sig .tc .vmem S8x1536 .f32) (h5 : a5.IsWhole)
    (hc : cond0_0 i) (x0 : Vec F S512x512 .f32) (x1 : Vec F S1536x512 .f32) :
    out0_A_2 c i a1 h1 a2 h2 a3 h3 a4 h4 a5 h5 hc x0 x1 = k0_pay3 x0 x1 := by
  unfold out0_A_2
  rw [View.read_writes_eq_canon _ _ _ (cover0_A_2 c i a1 h1 a2 h2 a3 h3 a4 h4 a5 h5 hc x0 x1)]
  unfold kernelRun0_A
  dsimp only
  sl_unfold_words
  rw [View.canon_unit_zero hz]
  simp only [View.readAt_eq_ld, h1.read_unread, h2.read_unread, h4.read_unread, h5.read_unread, View.ld_unit_zero (S := S512x512) hz, View.ld_unit_zero (S := S1536x512) hz, View.ld_unit_zero (S := S8x1536) hz]

/-- The first point: the sums block is the zero block plus the tile's column sums. -/
theorem out_A_3 (c : Dev nD) (i : grid0.Coords) (a1 : Memref sig .tc .vmem S512x512 .f32) (h1 : a1.IsWhole)
    (a2 : Memref sig .tc .vmem S1536x512 .f32) (h2 : a2.IsWhole) (a3 : Memref sig .tc .vmem S512x1536 .f32) (h3 : a3.IsWhole)
    (a4 : Memref sig .tc .vmem S8x1536 .f32) (h4 : a4.IsWhole) (a5 : Memref sig .tc .vmem S8x1536 .f32) (h5 : a5.IsWhole)
    (hc : cond0_0 i) (x0 : Vec F S512x512 .f32) (x1 : Vec F S1536x512 .f32) :
    out0_A_3 c i a1 h1 a2 h2 a3 h3 a4 h4 a5 h5 hc x0 x1 = k0_pay4 x0 x1 k0_pay1 := by
  unfold out0_A_3
  rw [View.read_writes_eq_canon _ _ _ (cover0_A_3 c i a1 h1 a2 h2 a3 h3 a4 h4 a5 h5 hc x0 x1)]
  unfold kernelRun0_A
  dsimp only
  sl_unfold_words
  rw [View.canon_cons_unit_zero (S := S8x1536) hz, View.readCov_unit_zero (S := S8x1536) _ hz]
  simp only [View.readAt_eq_ld, h1.read_unread, h2.read_unread, h4.read_unread, h5.read_unread, View.ld_unit_zero (S := S512x512) hz, View.ld_unit_zero (S := S1536x512) hz, View.ld_unit_zero (S := S8x1536) hz]

/-- The first point: the squares block is the zero block plus the tile's column sums of squares. -/
theorem out_A_4 (c : Dev nD) (i : grid0.Coords) (a1 : Memref sig .tc .vmem S512x512 .f32) (h1 : a1.IsWhole)
    (a2 : Memref sig .tc .vmem S1536x512 .f32) (h2 : a2.IsWhole) (a3 : Memref sig .tc .vmem S512x1536 .f32) (h3 : a3.IsWhole)
    (a4 : Memref sig .tc .vmem S8x1536 .f32) (h4 : a4.IsWhole) (a5 : Memref sig .tc .vmem S8x1536 .f32) (h5 : a5.IsWhole)
    (hc : cond0_0 i) (x0 : Vec F S512x512 .f32) (x1 : Vec F S1536x512 .f32) :
    out0_A_4 c i a1 h1 a2 h2 a3 h3 a4 h4 a5 h5 hc x0 x1 = k0_pay5 x0 x1 k0_pay2 := by
  unfold out0_A_4
  rw [View.read_writes_eq_canon _ _ _ (cover0_A_4 c i a1 h1 a2 h2 a3 h3 a4 h4 a5 h5 hc x0 x1)]
  unfold kernelRun0_A
  dsimp only
  sl_unfold_words
  rw [View.canon_cons_unit_zero (S := S8x1536) hz, View.readCov_unit_zero (S := S8x1536) _ hz]
  simp only [View.readAt_eq_ld, h1.read_unread, h2.read_unread, h4.read_unread, h5.read_unread, View.ld_unit_zero (S := S512x512) hz, View.ld_unit_zero (S := S1536x512) hz, View.ld_unit_zero (S := S8x1536) hz]

end Cert.KernelIdeal.R0

end
-- ==== Proof.Spec.lean ====
/-
  The mathematics both programs compute, as functions of coordinates on the extended reals.

  x : [4, 1024, 512] tokens, W : [1536, 512], γ β : [1536], P : [512, 512], bp : [512].
  spk v = ⌊min 4 (max 0 v) + 1/2⌋ (the multi-level spike).
  Y b n d = Σ_k spk (x b n k) · W d k (the q/k/v projection of the spiked tokens).
  Per channel d the batch statistics over the 4·1024 rows: S1 = Σ Y, S2 = Σ Y², mean μ = S1 / 4096.
  The kernel normalises with the variance S2/4096 − μ² (clamped at 0) folded into a scale and a shift,
  the reference with the centred variance Σ (Y − μ)² / 4096 applied to Y − μ; `linK` and `linR` are the two
  affine forms, `zK` / `zR` their spikes.
  `attnRow` is one batch element's attention without softmax over 8 heads of width 64 — channel 64h+e of the
  first, second and third 512-block of z is q, k and v of head h —: scores Σ_e q·k, spiked; weighted sums
  Σ_m A·v, scaled by 1/8 and spiked; the heads side by side projected by P with bias bp.
-/
import Idealize.ShloMosaic.PureOps.Ideal
import Idealize.ShloMosaic.Lib.ValueIdx

noncomputable section

namespace Cert.Spec

open Idealize.ShloMosaic
open scoped BigOperators

abbrev c0 : EReal := Ideal.ofBits .f32 0x00000000#32
abbrev c4 : EReal := Ideal.ofBits .f32 0x40800000#32
abbrev chalf : EReal := Ideal.ofBits .f32 0x3F000000#32
abbrev c4096 : EReal := Ideal.ofBits .f32 0x45800000#32
abbrev ceps : EReal := Ideal.ofBits .f32 0x3727C5AC#32
abbrev ceighth : EReal := Ideal.ofBits .f32 0x3E000000#32

/-- The multi-level spike ⌊min 4 (max 0 v) + 1/2⌋. -/
def spk (v : EReal) : EReal := Ideal.liftRound Int.floor (min c4 (max c0 v) + chalf)

/-- The projection of the spiked tokens: Y b n d = Σ_k spk (x b n k) · W d k. -/
def Y (x : Fin 4 → Fin 1024 → Fin 512 → EReal) (W : Fin 1536 → Fin 512 → EReal)
    (b : Fin 4) (n : Fin 1024) (d : Fin 1536) : EReal :=
  ∑ k : Fin 512, spk (x b n k) * W d k

/-- Sum of a channel over all 4·1024 rows. -/
def S1 (y : Fin 4 → Fin 1024 → Fin 1536 → EReal) (d : Fin 1536) : EReal :=
  ∑ b : Fin 4, ∑ n : Fin 1024, y b n d

/-- Sum of squares of a channel over all rows. -/
def S2 (y : Fin 4 → Fin 1024 → Fin 1536 → EReal) (d : Fin 1536) : EReal :=
  ∑ b : Fin 4, ∑ n : Fin 1024, y b n d * y b n d

/-- The channel mean S1 / 4096. -/
def mu (y : Fin 4 → Fin 1024 → Fin 1536 → EReal) (d : Fin 1536) : EReal := Ideal.div (S1 y d) c4096

/-- The kernel's variance: max (S2/4096 − μ·μ) 0. -/
def varK (y : Fin 4 → Fin 1024 → Fin 1536 → EReal) (d : Fin 1536) : EReal :=
  max (Ideal.div (S2 y d) c4096 - mu y d * mu y d) c0

/-- The kernel's scale γ · rsqrt (var + ε). -/
def scaleK (y : Fin 4 → Fin 1024 → Fin 1536 → EReal) (γ : Fin 1536 → EReal) (d : Fin 1536) : EReal :=
  γ d * Ideal.rsqrt (varK y d + ceps)

/-- The kernel's shift β − μ · scale. -/
def shiftK (y : Fin 4 → Fin 1024 → Fin 1536 → EReal) (γ β : Fin 1536 → EReal) (d : Fin 1536) : EReal :=
  β d - mu y d * scaleK y γ d

/-- The kernel's normalised activations y · scale + shift. -/
def linK (y : Fin 4 → Fin 1024 → Fin 1536 → EReal) (γ β : Fin 1536 → EReal)
    (b : Fin 4) (n : Fin 1024) (d : Fin 1536) : EReal :=
  y b n d * scaleK y γ d + shiftK y γ β d

/-- The reference's variance: Σ (y − μ)·(y − μ) / 4096. -/
def varR (y : Fin 4 → Fin 1024 → Fin 1536 → EReal) (d : Fin 1536) : EReal :=
  Ideal.div (∑ b : Fin 4, ∑ n : Fin 1024, (y b n d - mu y d) * (y b n d - mu y d)) c4096

/-- The reference's normalised activations ((y − μ) · rsqrt (var + ε)) · γ + β. -/
def linR (y : Fin 4 → Fin 1024 → Fin 1536 → EReal) (γ β : Fin 1536 → EReal)
    (b : Fin 4) (n : Fin 1024) (d : Fin 1536) : EReal :=
  ((y b n d - mu y d) * Ideal.rsqrt (varR y d + ceps)) * γ d + β d

/-- Channel 64h+e of the first 512-block (q of head h). -/
def chQ (h : Fin 8) (e : Fin 64) : Fin 1536 := ⟨64 * h.val + e.val, by omega⟩
/-- Channel 64h+e of the second 512-block (k of head h). -/
def chK (h : Fin 8) (e : Fin 64) : Fin 1536 := ⟨512 + (64 * h.val + e.val), by omega⟩
/-- Channel 64h+e of the third 512-block (v of head h). -/
def chV (h : Fin 8) (e : Fin 64) : Fin 1536 := ⟨1024 + (64 * h.val + e.val), by omega⟩

/-- Spiked scores of head h: spk (Σ_e q n e · k m e). -/
def scoreRow (z : Fin 1024 → Fin 1536 → EReal) (h : Fin 8) (n m : Fin 1024) : EReal :=
  spk (∑ e : Fin 64, z n (chQ h e) * z m (chK h e))

/-- Spiked head output: spk ((Σ_m A n m · v m d) · 1/8). -/
def headRow (z : Fin 1024 → Fin 1536 → EReal) (h : Fin 8) (n : Fin 1024) (d : Fin 64) : EReal :=
  spk ((∑ m : Fin 1024, scoreRow z h n m * z m (chV h d)) * ceighth)

/-- The head and the lane of channel j of the concatenated heads. -/
def hOf (j : Fin 512) : Fin 8 := ⟨j.val / 64, by omega⟩
def eOf (j : Fin 512) : Fin 64 := ⟨j.val % 64, by omega⟩

/-- One batch element: the heads side by side, projected by P with bias bp. -/
def attnRow (z : Fin 1024 → Fin 1536 → EReal) (P : Fin 512 → Fin 512 → EReal) (bp : Fin 512 → EReal)
    (n : Fin 1024) (c : Fin 512) : EReal :=
  (∑ j : Fin 512, headRow z (hOf j) n (eOf j) * P c j) + bp c

/-- All batch elements. -/
def attn (z : Fin 4 → Fin 1024 → Fin 1536 → EReal) (P : Fin 512 → Fin 512 → EReal) (bp : Fin 512 → EReal)
    (b : Fin 4) (n : Fin 1024) (c : Fin 512) : EReal :=
  attnRow (z b) P bp n c

/-- The kernel's spiked activations. -/
def zK (x : Fin 4 → Fin 1024 → Fin 512 → EReal) (W : Fin 1536 → Fin 512 → EReal) (γ β : Fin 1536 → EReal)
    (b : Fin 4) (n : Fin 1024) (d : Fin 1536) : EReal :=
  spk (linK (Y x W) γ β b n d)

/-- The reference's spiked activations. -/
def zR (x : Fin 4 → Fin 1024 → Fin 512 → EReal) (W : Fin 1536 → Fin 512 → EReal) (γ β : Fin 1536 → EReal)
    (b : Fin 4) (n : Fin 1024) (d : Fin 1536) : EReal :=
  spk (linR (Y x W) γ β b n d)

end Cert.Spec

end
-- ==== Proof.R0Pay.lean ====
/-
  The first region's arithmetic at an index, on the extended reals: a tile's product entry (i, d) is
  Σ_k spk (x i k) · w d k; a statistics block after a point is what it held plus the tile's column sum.
-/
import proofs.«103527_j53025666236638_2_alg».proof.Proof.Gen.KernelIdeal.Frame
import Idealize.ShloMosaic.Lib.Pipeline.Value
import Idealize.ShloMosaic.Lib.Tactic
import proofs.«103527_j53025666236638_2_alg».proof.Proof.Spec
import Idealize.ShloMosaic.Lib.ValueIdx
import Idealize.ShloMosaic.Lib.ValueLayout
import Idealize.ShloMosaic.PureOps.Ideal.Laws
set_option maxRecDepth 16384

noncomputable section

open Idealize.ShloMosaic Idealize.ShloMosaic.TcCoe Idealize.SL.Sem
open Idealize.ShloMosaic.Pipeline (Dat)

namespace Cert.KernelIdeal.R0

open Cert.KernelIdeal Cert.KernelIdeal.Gen

open Idealize.ShloMosaic.ValueIdx
open scoped BigOperators

/-- Entry (i, d) of a tile's product: Σ_k spk (x i k) · w d k. -/
theorem pay3_apply (x0 : Vec Ideal S512x512 .f32) (x1 : Vec Ideal S1536x512 .f32) (i : Fin 512) (d : Fin 1536) :
    k0_pay3 (F := Ideal) x0 x1 (ix2 i d) = ∑ k : Fin 512, Cert.Spec.spk (x0 (ix2 i k)) * x1 (ix2 d k) := by
  unfold k0_pay3
  refine (Ideal.matmul_constant_zero_apply _ _ _ _ _).trans ?_
  rw [← Equiv.sum_comp (contrEquiv1 dot_S512x512_S1536x512_S512x1536_1_1_0_0_n_n 512 rfl rfl).symm]
  refine Finset.sum_congr rfl fun k _ => ?_
  have c2 := contrEquiv1_symm_val dot_S512x512_S1536x512_S512x1536_1_1_0_0_n_n 512 rfl rfl k
  have l2 : dot_S512x512_S1536x512_S512x1536_1_1_0_0_n_n.lhsIdx (ix2 i d)
      ((contrEquiv1 dot_S512x512_S1536x512_S512x1536_1_1_0_0_n_n 512 rfl rfl).symm k) = ix2 i k := by
    funext ax; apply Fin.ext
    match ax with
    | ⟨0, _⟩ => simp [DotDims.lhsIdx, dot_S512x512_S1536x512_S512x1536_1_1_0_0_n_n]; rfl
    | ⟨1, _⟩ => simp [DotDims.lhsIdx, dot_S512x512_S1536x512_S512x1536_1_1_0_0_n_n]; exact c2
  have r2 : dot_S512x512_S1536x512_S512x1536_1_1_0_0_n_n.rhsIdx (ix2 i d)
      ((contrEquiv1 dot_S512x512_S1536x512_S512x1536_1_1_0_0_n_n 512 rfl rfl).symm k) = ix2 d k := by
    funext ax; apply Fin.ext
    match ax with
    | ⟨0, _⟩ => simp [DotDims.rhsIdx, dot_S512x512_S1536x512_S512x1536_1_1_0_0_n_n]; rfl
    | ⟨1, _⟩ => simp [DotDims.rhsIdx, dot_S512x512_S1536x512_S512x1536_1_1_0_0_n_n]; exact c2
  rw [l2, r2, shapeCast_self]
  rfl

/-- A column sum of a [512, 1536] block. -/
theorem colsum_apply (v : FVec Ideal S512x1536 .f32) (d : Fin 1536) :
    multiReduction .add [0] S1536 v 0x00000000#32 reduces_S512x1536_S1536 (.inl rfl) rfl (ix1 d)
      = ∑ i : Fin 512, v (ix2 i d) := by
  refine (Ideal.multiReduction_add_single v _ reduces_S512x1536_S1536 (.inl rfl) rfl (ix1 d)).trans ?_
  refine Finset.sum_congr rfl fun i _ => congrArg v ?_
  funext ax
  match ax with
  | ⟨0, _⟩ => rfl
  | ⟨1, _⟩ => rfl

end Cert.KernelIdeal.R0

end
-- ==== Proof.R0Value.lean ====
/-
  The first region's three output arrays after its eight grid points, on the extended reals, as functions of the
  arrays the region finds: the product array row r, channel d is Σ_k spk (x r k) · w d k; the two statistics
  blocks, written back once after the last point, hold in every row the running sums over the eight tiles of the
  tiles' column sums of the product and of its squares.
-/
import proofs.«103527_j53025666236638_2_alg».proof.Proof.Gen.KernelIdeal.Frame
import Idealize.ShloMosaic.Lib.Pipeline.Value
import Idealize.ShloMosaic.Lib.Tactic
import proofs.«103527_j53025666236638_2_alg».proof.Proof.R0Out
import proofs.«103527_j53025666236638_2_alg».proof.Proof.R0Pay
set_option maxRecDepth 16384

noncomputable section

open Idealize.ShloMosaic Idealize.ShloMosaic.TcCoe Idealize.SL.Sem
open Idealize.ShloMosaic.Pipeline (Dat)

namespace Cert.KernelIdeal.R0

open Cert.KernelIdeal Cert.KernelIdeal.Gen

open Idealize.ShloMosaic.ValueIdx
open scoped BigOperators

variable (V : (c : Dev nD) → (b : Ref sig .tc) → Buf (Elt Ideal) ((c : Thread nD τ).loc b))

/-- The block index maps over the grid: tile t of the rows for the tokens and the product, the whole weight. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row i of the token tile at point t is row 512 t + i of the token array. -/
theorem iblk0_0_apply (c : Dev nD) (t : Fin cfg0.N) (i k : Fin 512) (r : Fin 4096) (hr : r.val = 512 * t.val + i.val) :
    (iblk0 V c 0 t : Vec Ideal S512x512 .f32) (ix2 i k) = V c main_v0 (ix2 r k) := by
  unfold iblk0
  rw [View.read_apply]
  show V c main_v0 _ = V c main_v0 _
  congr 1
  funext a
  apply Fin.ext
  obtain ⟨e0, e1, -⟩ := idx_facts0 t
  match a with
  | ⟨0, _⟩ => show win0_0.index t (0 : Fin 2) * 512 + 1 * i.val = r.val; rw [e0]; omega
  | ⟨1, _⟩ => show win0_0.index t (1 : Fin 2) * 512 + 1 * k.val = k.val; rw [e1]; omega

/-- The weight block at every point is the weight array. -/
theorem iblk0_1_apply (c : Dev nD) (t : Fin cfg0.N) (d : Fin 1536) (k : Fin 512) :
    (iblk0 V c 1 t : Vec Ideal S1536x512 .f32) (ix2 d k) = V c main_arg1 (ix2 d k) := by
  unfold iblk0
  rw [View.read_apply]
  show V c main_arg1 _ = V c main_arg1 _
  congr 1
  funext a
  apply Fin.ext
  obtain ⟨-, -, e2, e3, -⟩ := idx_facts0 t
  match a with
  | ⟨0, _⟩ => show win0_1.index t (0 : Fin 2) * 1536 + 1 * d.val = d.val; rw [e2]; omega
  | ⟨1, _⟩ => show win0_1.index t (1 : Fin 2) * 512 + 1 * k.val = k.val; rw [e3]; omega

/-- Row r, channel d of the projection of the spiked tokens, from the arrays the region finds. -/
def yflat (c : Dev nD) (r : Fin 4096) (d : Fin 1536) : EReal :=
  ∑ k : Fin 512, Cert.Spec.spk (V c main_v0 (ix2 r k)) * V c main_arg1 (ix2 d k)

/-- The tile's product at point t, entry (i, d), is the projection's row 512 t + i. -/
theorem tile_apply (c : Dev nD) (t : Fin cfg0.N) (i : Fin 512) (d : Fin 1536) (r : Fin 4096) (hr : r.val = 512 * t.val + i.val) :
    k0_pay3 (F := Ideal) (iblk0 V c 0 t) (iblk0 V c 1 t) (ix2 i d) = yflat V c r d := by
  refine (pay3_apply (iblk0 V c 0 t) (iblk0 V c 1 t) i d).trans ?_
  unfold yflat
  refine Finset.sum_congr rfl fun k _ => ?_
  rw [iblk0_0_apply V c t i k r hr, iblk0_1_apply V c t d k]

/-- A statistics block after a point: what it held plus the tile's column sums of the product. -/
theorem pay4_apply (x0 : Vec Ideal S512x512 .f32) (x1 : Vec Ideal S1536x512 .f32) (acc : Vec Ideal S8x1536 .f32)
    (r : Fin 8) (d : Fin 1536) :
    k0_pay4 (F := Ideal) x0 x1 acc (ix2 r d) = acc (ix2 r d) + ∑ i : Fin 512, k0_pay3 (F := Ideal) x0 x1 (ix2 i d) := by
  unfold k0_pay4
  simp only [shapeCast_self]
  refine (addf_apply _ _ _).trans ?_
  rw [broadcastTo_1b_ab_apply, shapeCast_a_1a_apply, colsum_apply]

/-- The other statistics block: what it held plus the tile's column sums of the squares. -/
theorem pay5_apply (x0 : Vec Ideal S512x512 .f32) (x1 : Vec Ideal S1536x512 .f32) (acc : Vec Ideal S8x1536 .f32)
    (r : Fin 8) (d : Fin 1536) :
    k0_pay5 (F := Ideal) x0 x1 acc (ix2 r d)
      = acc (ix2 r d) + ∑ i : Fin 512, k0_pay3 (F := Ideal) x0 x1 (ix2 i d) * k0_pay3 (F := Ideal) x0 x1 (ix2 i d) := by
  unfold k0_pay5
  simp only [shapeCast_self]
  refine (addf_apply _ _ _).trans ?_
  rw [broadcastTo_1b_ab_apply, shapeCast_a_1a_apply, colsum_apply]
  rfl

/-- Tile s's column sum of the product (zero past the grid). -/
def colM1 (c : Dev nD) (s : ℕ) (d : Fin 1536) : EReal :=
  if hs : s < cfg0.N then ∑ i : Fin 512, k0_pay3 (F := Ideal) (iblk0 V c 0 ⟨s, hs⟩) (iblk0 V c 1 ⟨s, hs⟩) (ix2 i d) else 0

/-- Tile s's column sum of the squares (zero past the grid). -/
def colM2 (c : Dev nD) (s : ℕ) (d : Fin 1536) : EReal :=
  if hs : s < cfg0.N then ∑ i : Fin 512, k0_pay3 (F := Ideal) (iblk0 V c 0 ⟨s, hs⟩) (iblk0 V c 1 ⟨s, hs⟩) (ix2 i d)
    * k0_pay3 (F := Ideal) (iblk0 V c 0 ⟨s, hs⟩) (iblk0 V c 1 ⟨s, hs⟩) (ix2 i d) else 0

/-- After point n the two statistics blocks hold, in every row, zero plus the column sums of tiles 0 … n. -/
theorem stats_eq (c : Dev nD) : ∀ (n : ℕ) (h : n < cfg0.N) (r : Fin 8) (d : Fin 1536),
    (outsAt0 V c n h).2.1 (ix2 r d) = Cert.Spec.c0 + ∑ s ∈ Finset.range (n + 1), colM1 V c s d
    ∧ (outsAt0 V c n h).2.2 (ix2 r d) = Cert.Spec.c0 + ∑ s ∈ Finset.range (n + 1), colM2 V c s d
  | 0, h, r, d => by
    rw [outsAt0_A V c ⟨0, h⟩ rfl]
    dsimp only
    rw [out_A_3, out_A_4, pay4_apply, pay5_apply, Finset.sum_range_one, Finset.sum_range_one]
    unfold colM1 colM2
    rw [dif_pos h, dif_pos h]
    exact ⟨rfl, rfl⟩
  | n + 1, h, r, d => by
    have hN : cfg0.N = 8 := N_0
    have hB : ¬(⟨n + 1, h⟩ : Fin cfg0.N).val % 8 = 0 := by dsimp only; omega
    obtain ⟨i1, i2⟩ := stats_eq c n (Nat.lt_of_succ_lt h) r d
    rw [outsAt0_B V c ⟨n + 1, h⟩ hB]
    dsimp only
    rw [out_B_3, out_B_4, pay4_apply, pay5_apply, Finset.sum_range_succ _ (n + 1), Finset.sum_range_succ _ (n + 1)]
    constructor
    · show (outsAt0 V c n _).2.1 (ix2 r d) + _ = _
      rw [i1, add_assoc]
      congr 2
      unfold colM1
      rw [dif_pos h]
    · show (outsAt0 V c n _).2.2 (ix2 r d) + _ = _
      rw [i2, add_assoc]
      congr 2
      unfold colM2
      rw [dif_pos h]

/-! ## The three arrays after the region -/

/-- The product array: row r, channel d is the projection. -/
def G2 (c : Dev nD) : S4096x1536.Idx → EReal :=
  fun j => yflat V c ⟨(j 0).val, idx2_lt0 j⟩ ⟨(j 1).val, idx2_lt1 j⟩

/-- The product block a point writes back is its block of the projection. -/
theorem flushed2_eq (c : Dev nD) (t : Fin cfg0.N) :
    (dat0 V c).flushed 2 t = ((cfg0.win 2).blk t).view.read (Elt Ideal) (G2 V c) := by
  show (cfg0.win 2).cut (grid0.coords t) ((dat0 V c).after 2 t) = _
  rw [after0_2]
  have hp : (outsAt0 V c t.val t.isLt).1 = k0_pay3 (F := Ideal) (iblk0 V c 0 t) (iblk0 V c 1 t) := by
    by_cases h0 : t.val % 8 = 0
    · rw [outsAt0_A V c t h0]; dsimp only; rw [out_A_2]
    · rw [outsAt0_B V c t h0]; dsimp only; rw [out_B_2]
  rw [hp]
  funext j
  show k0_pay3 (F := Ideal) (iblk0 V c 0 t) (iblk0 V c 1 t) j = G2 V c (((cfg0.win 2).blk t).view.emb j)
  obtain ⟨i, d, rfl⟩ : ∃ (i : Fin 512) (d : Fin 1536), j = ix2 i d := ⟨j 0, j 1, eq_ix2 j⟩
  have hN : cfg0.N = 8 := N_0
  have ht : t.val < 8 := lt_of_lt_of_eq t.isLt hN
  obtain ⟨-, -, -, -, e4, e5⟩ := idx_facts0 t
  rw [tile_apply V c t i d ⟨512 * t.val + i.val, by omega⟩ rfl]
  unfold G2
  congr 1
  · apply Fin.ext
    show 512 * t.val + i.val = win0_2.index t (0 : Fin 2) * 512 + 1 * i.val
    rw [e4]; omega
  · apply Fin.ext
    show d.val = win0_2.index t (1 : Fin 2) * 1536 + 1 * d.val
    rw [e5]; omega

/-- An index of the product array is in point t's block iff its row is in tile t. -/
theorem mem_blk2 (t : Fin cfg0.N) (i : S4096x1536.Idx) :
    i ∈ ((cfg0.win 2).blk t).view.set ↔ ∀ a : Fin 2, win0_2.index t a * S512x1536.size a ≤ (i a).val
      ∧ (i a).val < win0_2.index t a * S512x1536.size a + S512x1536.size a := by
  show i ∈ ((View.whole main_v1_0).slice (win0_2.rect t)).set ↔ _
  rw [View.set_slice_whole, Rect.mem_set_unit]
  exact Iff.rfl

/-- The product array after the region. -/
theorem arr2 (c : Dev nD) : (dat0 V c).arrAt 2 cfg0.N = G2 V c :=
  (dat0 V c).arrAt_eq_of_cover 2 (G2 V c) (fun t _ => flushed2_eq V c t) fun i => by
    have hN : cfg0.N = 8 := N_0
    have hi0 : (i 0).val < 4096 := (i 0).isLt
    have hi1 : (i 1).val < 1536 := (i 1).isLt
    refine ⟨⟨(i 0).val / 512, by rw [hN]; omega⟩, flush0_2 _, ?_⟩
    rw [mem_blk2]
    obtain ⟨-, -, -, -, e4, e5⟩ := idx_facts0 ⟨(i 0).val / 512, by rw [hN]; omega⟩
    intro a
    match a with
    | ⟨0, _⟩ =>
      show win0_2.index _ (0 : Fin 2) * 512 ≤ (i 0).val ∧ (i 0).val < win0_2.index _ (0 : Fin 2) * 512 + 512
      rw [e4]; dsimp only; omega
    | ⟨1, _⟩ =>
      show win0_2.index _ (1 : Fin 2) * 1536 ≤ (i 1).val ∧ (i 1).val < win0_2.index _ (1 : Fin 2) * 1536 + 1536
      rw [e5]; omega

/-- The last grid point. -/
theorem h7 : 7 < cfg0.N := by rw [show cfg0.N = 8 from N_0]; decide

/-- The sums array after the region: the block after the last point. -/
theorem arr3 (c : Dev nD) : (dat0 V c).arrAt 3 cfg0.N = (outsAt0 V c 7 h7).2.1 :=
  (dat0 V c).arrAt_eq_of_cover 3 ((outsAt0 V c 7 h7).2.1)
    (fun t hf => by
      have hN : cfg0.N = 8 := N_0
      have h3 : t.val = 7 := by have := (flush0_3 t).mp hf; have := t.isLt; omega
      obtain rfl : t = t0_7 := Fin.ext h3
      show (cfg0.win 3).cut (grid0.coords t0_7) ((dat0 V c).after 3 t0_7) = _
      rw [after0_3]
      have hz' : (fun a => win0_3.index t0_7 a * main_v1_1.ty.shape.size a) = fun _ => 0 :=
        funext fun a => by fin_cases a <;> decide
      exact (Memref.read_access_unit_zero (Elt Ideal) main_v1_1 hz' (fun a => by rw [congrFun hz' a]; simp)
        ((outsAt0 V c 7 h7).2.1)).symm)
    fun i => ⟨t0_7, (flush0_3 t0_7).mpr rfl, by
      show i ∈ ((View.whole main_v1_1).slice (win0_3.rect t0_7)).set
      rw [View.set_slice_whole, Rect.mem_set_unit]
      intro a
      have h0 : (i 0 : Nat) < 8 := (i 0).isLt
      have h1 : (i 1 : Nat) < 1536 := (i 1).isLt
      match a with
      | ⟨0, _⟩ =>
        show win0_3.index t0_7 0 * win0_3.size 0 ≤ (i 0 : Nat) ∧ (i 0 : Nat) < win0_3.index t0_7 0 * win0_3.size 0 + win0_3.xsize (grid0.coords t0_7) 0
        rw [show win0_3.index t0_7 0 * win0_3.size 0 = 0 from by decide +kernel, show win0_3.xsize (grid0.coords t0_7) 0 = 8 from by decide +kernel]; omega
      | ⟨1, _⟩ =>
        show win0_3.index t0_7 1 * win0_3.size 1 ≤ (i 1 : Nat) ∧ (i 1 : Nat) < win0_3.index t0_7 1 * win0_3.size 1 + win0_3.xsize (grid0.coords t0_7) 1
        rw [show win0_3.index t0_7 1 * win0_3.size 1 = 0 from by decide +kernel, show win0_3.xsize (grid0.coords t0_7) 1 = 1536 from by decide +kernel]; omega⟩

/-- The squares array after the region: the block after the last point. -/
theorem arr4 (c : Dev nD) : (dat0 V c).arrAt 4 cfg0.N = (outsAt0 V c 7 h7).2.2 :=
  (dat0 V c).arrAt_eq_of_cover 4 ((outsAt0 V c 7 h7).2.2)
    (fun t hf => by
      have hN : cfg0.N = 8 := N_0
      have h3 : t.val = 7 := by have := (flush0_4 t).mp hf; have := t.isLt; omega
      obtain rfl : t = t0_7 := Fin.ext h3
      show (cfg0.win 4).cut (grid0.coords t0_7) ((dat0 V c).after 4 t0_7) = _
      rw [after0_4]
      have hz' : (fun a => win0_4.index t0_7 a * main_v1_2.ty.shape.size a) = fun _ => 0 :=
        funext fun a => by fin_cases a <;> decide
      exact (Memref.read_access_unit_zero (Elt Ideal) main_v1_2 hz' (fun a => by rw [congrFun hz' a]; simp)
        ((outsAt0 V c 7 h7).2.2)).symm)
    fun i => ⟨t0_7, (flush0_4 t0_7).mpr rfl, by
      show i ∈ ((View.whole main_v1_2).slice (win0_4.rect t0_7)).set
      rw [View.set_slice_whole, Rect.mem_set_unit]
      intro a
      have h0 : (i 0 : Nat) < 8 := (i 0).isLt
      have h1 : (i 1 : Nat) < 1536 := (i 1).isLt
      match a with
      | ⟨0, _⟩ =>
        show win0_4.index t0_7 0 * win0_4.size 0 ≤ (i 0 : Nat) ∧ (i 0 : Nat) < win0_4.index t0_7 0 * win0_4.size 0 + win0_4.xsize (grid0.coords t0_7) 0
        rw [show win0_4.index t0_7 0 * win0_4.size 0 = 0 from by decide +kernel, show win0_4.xsize (grid0.coords t0_7) 0 = 8 from by decide +kernel]; omega
      | ⟨1, _⟩ =>
        show win0_4.index t0_7 1 * win0_4.size 1 ≤ (i 1 : Nat) ∧ (i 1 : Nat) < win0_4.index t0_7 1 * win0_4.size 1 + win0_4.xsize (grid0.coords t0_7) 1
        rw [show win0_4.index t0_7 1 * win0_4.size 1 = 0 from by decide +kernel, show win0_4.xsize (grid0.coords t0_7) 1 = 1536 from by decide +kernel]; omega⟩

end Cert.KernelIdeal.R0

end
-- ==== Proof.KHost.lean ====
/-
  The host lines between the two regions, on the extended reals: from the first region's two statistics blocks
  (row 0 of each) the channel mean S1/4096, the variance max (S2/4096 − μ²) 0, the scale γ · rsqrt (var + ε) and
  the shift β − μ · scale, laid out as [1, 1536] rows; the product array viewed as [4, 1024, 1536]; the projection
  weight and the bias row as the second region finds them.
-/
import proofs.«103527_j53025666236638_2_alg».proof.Proof.Gen.KernelIdeal.Frame
import Idealize.ShloMosaic.Lib.Pipeline.Value
import Idealize.ShloMosaic.Lib.Tactic
import proofs.«103527_j53025666236638_2_alg».proof.Proof.Spec
import Idealize.ShloMosaic.Lib.StableHlo.Run
import Idealize.ShloMosaic.Lib.ValueIdx
import Idealize.ShloMosaic.Lib.ValueLayout
set_option maxRecDepth 16384

noncomputable section

open Idealize.ShloMosaic Idealize.ShloMosaic.TcCoe Idealize.SL.Sem
open Idealize.ShloMosaic.Pipeline (Dat)

namespace Cert.KernelIdeal.KHost

open Cert.KernelIdeal Cert.KernelIdeal.Gen

open Idealize.ShloMosaic.ValueIdx

/-- Row 0 of a statistics block as a vector of channels. -/
def row0 (s : FVec Ideal S8x1536 .f32) : FVec Ideal S1536 .f32 :=
  shapeCast S1536 (extractStridedSlice S1x1536 ![0, 0] s slices_S8x1536_S1x1536_0_0) shapeCasts_S1x1536_S1536

/-- The channel means. -/
def muT (s1 : FVec Ideal S8x1536 .f32) : FVec Ideal S1536 .f32 :=
  Host.divf (F := Ideal) (row0 s1) (broadcastInDim S1536 ![] bcast_S_S1536 (constant (F := Ideal) S_ .f32 0x45800000#32))

/-- The channel scales γ · rsqrt (max (S2/4096 − μ²) 0 + ε). -/
def scaleT (g : FVec Ideal S1536 .f32) (s1 s2 : FVec Ideal S8x1536 .f32) : FVec Ideal S1536 .f32 :=
  mulf g (Host.rsqrt (F := Ideal) (addf (maximumf (subf
    (Host.divf (F := Ideal) (row0 s2) (broadcastInDim S1536 ![] bcast_S_S1536 (constant (F := Ideal) S_ .f32 0x45800000#32)))
    (mulf (muT s1) (muT s1)))
    (broadcastInDim S1536 ![] bcast_S_S1536 (constant (F := Ideal) S_ .f32 0x00000000#32)))
    (broadcastInDim S1536 ![] bcast_S_S1536 (constant (F := Ideal) S_ .f32 0x3727C5AC#32))))

/-- The channel shifts β − μ · scale. -/
def shiftT (g b : FVec Ideal S1536 .f32) (s1 s2 : FVec Ideal S8x1536 .f32) : FVec Ideal S1536 .f32 :=
  subf b (mulf (muT s1) (scaleT g s1 s2))

variable (m : (ℓ : Loc nD τ sig) → Buf (Elt Ideal) ℓ) (ρ : Dev nD → PrngReg)

/-- The first region finds the tokens flattened to [4096, 512]. -/
theorem v1_v0 (c : Dev nD) : (V1 m ρ c main_v0 : S4096x512.Idx → EReal)
    = shapeCast S4096x512 (m ((c : Thread nD τ).loc main_arg0)) shapeCasts_S4x1024x512_S4096x512 := by
  dsimp only [V1, W1, hostOps0]
  after_results
  rfl

/-- The first region finds the weight as launched. -/
theorem v1_arg1 (c : Dev nD) : (V1 m ρ c main_arg1 : S1536x512.Idx → EReal) = m ((c : Thread nD τ).loc main_arg1) := by
  dsimp only [V1, W1, hostOps0]
  after_results

/-- The arrays the first region leaves, read at the boundary. -/
theorem w2_v1_0 (c : Dev nD) : W2 m ρ c (Proc.devRef .tc main_v1_0) = (dat0 (V1 m ρ) c).arrAt 2 cfg0.N := W2_arr m ρ c 2
theorem w2_v1_1 (c : Dev nD) : W2 m ρ c (Proc.devRef .tc main_v1_1) = (dat0 (V1 m ρ) c).arrAt 3 cfg0.N := W2_arr m ρ c 3
theorem w2_v1_2 (c : Dev nD) : W2 m ρ c (Proc.devRef .tc main_v1_2) = (dat0 (V1 m ρ) c).arrAt 4 cfg0.N := W2_arr m ρ c 4

/-- The other arguments pass the first region untouched. -/
theorem w2_arg2 (c : Dev nD) : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  after_results
theorem w2_arg3 (c : Dev nD) : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  after_results
theorem w2_arg4 (c : Dev nD) : W2 m ρ c (Proc.devRef .tc main_arg4) = m ((c : Thread nD τ).loc main_arg4) := by
  rw [W2_of_ne m ρ c main_arg4 (by decide)]
  show StableHlo.after hostOps0 (W0 m ρ c) (Proc.devRef .tc main_arg4) = _
  after_results
theorem w2_arg5 (c : Dev nD) : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  after_results

/-- What the second region finds: the product array as [4, 1024, 1536]. -/
theorem v3_v20 (c : Dev nD) : (V3 m ρ c main_v20 : S4x1024x1536.Idx → EReal)
    = shapeCast S4x1024x1536 (W2 m ρ c (Proc.devRef .tc main_v1_0)) shapeCasts_S4096x1536_S4x1024x1536 := by
  dsimp only [V3, W3, hostOps1]
  after_results
  rfl

/-- The scale row. -/
theorem v3_v23 (c : Dev nD) : (V3 m ρ c main_v23 : S1x1536.Idx → EReal)
    = shapeCast S1x1536 (scaleT (W2 m ρ c (Proc.devRef .tc main_arg2)) (W2 m ρ c (Proc.devRef .tc main_v1_1))
        (W2 m ρ c (Proc.devRef .tc main_v1_2))) shapeCasts_S1536_S1x1536 := by
  dsimp only [V3, W3, hostOps1]
  after_results
  rfl

set_option maxHeartbeats 2000000 in
/-- The shift row. -/
theorem v3_v24 (c : Dev nD) : (V3 m ρ c main_v24 : S1x1536.Idx → EReal)
    = shapeCast S1x1536 (shiftT (W2 m ρ c (Proc.devRef .tc main_arg2)) (W2 m ρ c (Proc.devRef .tc main_arg3))
        (W2 m ρ c (Proc.devRef .tc main_v1_1)) (W2 m ρ c (Proc.devRef .tc main_v1_2))) shapeCasts_S1536_S1x1536 := by
  dsimp only [V3, W3, hostOps1]
  after_results
  rfl

/-- The projection weight (its change of format is the identity here). -/
theorem v3_v21 (c : Dev nD) : (V3 m ρ c main_v21 : S512x512.Idx → EReal)
    = (W2 m ρ c (Proc.devRef .tc main_arg4) : S512x512.Idx → EReal) := by
  dsimp only [V3, W3, hostOps1]
  after_results
  rfl

/-- The bias row. -/
theorem v3_v22 (c : Dev nD) : (V3 m ρ c main_v22 : S1x512.Idx → EReal)
    = shapeCast S1x512 (W2 m ρ c (Proc.devRef .tc main_arg5)) shapeCasts_S512_S1x512 := by
  dsimp only [V3, W3, hostOps1]
  after_results
  rfl

end Cert.KernelIdeal.KHost

end
-- ==== Proof.SpecLaws.lean ====
/-
  Laws of the specification on the extended reals.

  The constants are real numbers: 0, 4, 1/2, 4096, 1/8 and a positive ε.  The spike
  ⌊min 4 (max 0 v) + 1/2⌋ is a real for every extended real v, because the clamp lies in [0, 4].
  A finite sum of products of reals is a real, so the projection Y is real-valued when W is.
  On real-valued data the two normalisations agree: with N = 4096 and μ = S1/N,
      S2/N − μ² = Σ (y − μ)² / N ≥ 0,
  so the clamp at 0 is the identity and the two variances are one number v ≥ 0; v + ε > 0, so the
  reciprocal square root s of v + ε is a real, and  y·(γ·s) + (β − μ·(γ·s)) = ((y − μ)·s)·γ + β.
-/
import proofs.«103527_j53025666236638_2_alg».proof.Proof.Spec

noncomputable section

namespace Cert.Spec

open Idealize.ShloMosaic
open scoped BigOperators

/-! ### The constants -/

theorem c0_eq : c0 = ((0 : ℝ) : EReal) := by
  simp [Ideal.ofBits, Ideal.ieee]

theorem c4_eq : c4 = ((4 : ℝ) : EReal) := by
  simp [Ideal.ofBits, Ideal.ieee, -EReal.coe_mul]; norm_num

theorem chalf_eq : chalf = ((1 / 2 : ℝ) : EReal) := by
  simp [Ideal.ofBits, Ideal.ieee, -EReal.coe_mul]; norm_num

theorem c4096_eq : c4096 = ((4096 : ℝ) : EReal) := by
  simp [Ideal.ofBits, Ideal.ieee, -EReal.coe_mul]; norm_num

theorem ceighth_eq : ceighth = ((1 / 8 : ℝ) : EReal) := by
  simp [Ideal.ofBits, Ideal.ieee, -EReal.coe_mul]; norm_num

theorem ceps_eq : ∃ e : ℝ, 0 < e ∧ ceps = (e : EReal) := by
  refine ⟨(10995116 : ℝ) * (2 : ℝ) ^ (-40 : ℤ), by positivity, ?_⟩
  simp [Ideal.ofBits, Ideal.ieee, -EReal.coe_mul]

/-! ### The spike is real-valued -/

/-- The clamp min 4 (max 0 v) lies between the reals 0 and 4, hence is a real. -/
theorem clamp_real (v : EReal) : ∃ r : ℝ, min c4 (max c0 v) = (r : EReal) := by
  rw [c0_eq, c4_eq]
  have h1 : ((0 : ℝ) : EReal) ≤ min ((4 : ℝ) : EReal) (max ((0 : ℝ) : EReal) v) :=
    le_min (by exact_mod_cast (by norm_num : (0 : ℝ) ≤ 4)) (le_max_left _ _)
  have h2 : min ((4 : ℝ) : EReal) (max ((0 : ℝ) : EReal) v) ≤ ((4 : ℝ) : EReal) := min_le_left _ _
  refine ⟨(min ((4 : ℝ) : EReal) (max ((0 : ℝ) : EReal) v)).toReal, (EReal.coe_toReal ?_ ?_).symm⟩
  · exact ne_top_of_le_ne_top (EReal.coe_ne_top 4) h2
  · exact ne_bot_of_le_ne_bot (EReal.coe_ne_bot 0) h1

theorem spk_real (v : EReal) : ∃ r : ℝ, spk v = (r : EReal) := by
  obtain ⟨r, hr⟩ := clamp_real v
  refine ⟨((⌊r + 1 / 2⌋ : ℤ) : ℝ), ?_⟩
  unfold spk
  rw [hr, chalf_eq, ← EReal.coe_add, Ideal.liftRound_coe]

/-! ### Finite sums of reals -/

/-- The coercion of the reals into the extended reals commutes with finite sums. -/
theorem sum_coe {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem Y_real (x : Fin 4 → Fin 1024 → Fin 512 → EReal) (W : Fin 1536 → Fin 512 → EReal)
    (hW : ∀ d k, ∃ r : ℝ, W d k = (r : EReal)) :
    ∀ b n d, ∃ r : ℝ, Y x W b n d = (r : EReal) := by
  choose wr hwr using hW
  choose sr hsr using spk_real
  intro b n d
  refine ⟨∑ k : Fin 512, sr (x b n k) * wr d k, ?_⟩
  unfold Y
  rw [← sum_coe]
  refine Finset.sum_congr rfl (fun k _ => ?_)
  rw [hsr, hwr, EReal.coe_mul]

/-! ### The variance identity on the reals -/

/-- With N = 4096 rows and μ = S1/N:  S2/N − μ² = Σ (f − μ)² / N. -/
theorem var_identity (f : Fin 4 → Fin 1024 → ℝ) (m : ℝ)
    (hm : m = (∑ b : Fin 4, ∑ n : Fin 1024, f b n) * (1 / 4096)) :
    (∑ b : Fin 4, ∑ n : Fin 1024, f b n * f b n) * (1 / 4096) - m * m
      = (∑ b : Fin 4, ∑ n : Fin 1024, (f b n - m) * (f b n - m)) * (1 / 4096) := by
  have h : ∀ b n, (f b n - m) * (f b n - m) = f b n * f b n - 2 * m * f b n + m * m := fun b n => by ring
  simp only [h, Finset.sum_add_distrib, Finset.sum_sub_distrib, ← Finset.mul_sum, Finset.sum_const,
    Finset.card_univ, Fintype.card_fin, nsmul_eq_mul]
  have hs : (∑ b : Fin 4, ∑ n : Fin 1024, f b n) = 4096 * m := by rw [hm]; ring
  rw [hs]
  push_cast
  ring

/-- The centred variance is nonnegative. -/
theorem var_nonneg (f : Fin 4 → Fin 1024 → ℝ) (m : ℝ) :
    0 ≤ (∑ b : Fin 4, ∑ n : Fin 1024, (f b n - m) * (f b n - m)) * (1 / 4096) :=
  mul_nonneg (Finset.sum_nonneg fun b _ => Finset.sum_nonneg fun n _ => mul_self_nonneg _) (by norm_num)

/-! ### The two normalisations on real-valued data -/

/-- Real-valued data read as extended reals. -/
def up (yr : Fin 4 → Fin 1024 → Fin 1536 → ℝ) : Fin 4 → Fin 1024 → Fin 1536 → EReal :=
  fun b n d => ((yr b n d : ℝ) : EReal)

/-- The real channel mean S1 / 4096. -/
def muR (yr : Fin 4 → Fin 1024 → Fin 1536 → ℝ) (d : Fin 1536) : ℝ :=
  (∑ b : Fin 4, ∑ n : Fin 1024, yr b n d) * (1 / 4096)

/-- The real centred variance Σ (y − μ)² / 4096. -/
def varRe (yr : Fin 4 → Fin 1024 → Fin 1536 → ℝ) (d : Fin 1536) : ℝ :=
  (∑ b : Fin 4, ∑ n : Fin 1024, (yr b n d - muR yr d) * (yr b n d - muR yr d)) * (1 / 4096)

theorem S1_up (yr : Fin 4 → Fin 1024 → Fin 1536 → ℝ) (d : Fin 1536) :
    S1 (up yr) d = ((∑ b : Fin 4, ∑ n : Fin 1024, yr b n d : ℝ) : EReal) := by
  unfold S1 up
  rw [← sum_coe]
  exact Finset.sum_congr rfl (fun b _ => sum_coe _ _)

theorem S2_up (yr : Fin 4 → Fin 1024 → Fin 1536 → ℝ) (d : Fin 1536) :
    S2 (up yr) d = ((∑ b : Fin 4, ∑ n : Fin 1024, yr b n d * yr b n d : ℝ) : EReal) := by
  unfold S2 up
  rw [← sum_coe]
  refine Finset.sum_congr rfl (fun b _ => ?_)
  rw [← sum_coe]
  exact Finset.sum_congr rfl (fun n _ => (EReal.coe_mul _ _).symm)

theorem mu_up (yr : Fin 4 → Fin 1024 → Fin 1536 → ℝ) (d : Fin 1536) :
    mu (up yr) d = ((muR yr d : ℝ) : EReal) := by
  unfold mu muR
  rw [S1_up, c4096_eq, Ideal.div_coe (by norm_num : (4096 : ℝ) ≠ 0), ← EReal.coe_mul]

theorem varR_up (yr : Fin 4 → Fin 1024 → Fin 1536 → ℝ) (d : Fin 1536) :
    varR (up yr) d = ((varRe yr d : ℝ) : EReal) := by
  have hs : (∑ b : Fin 4, ∑ n : Fin 1024,
        (up yr b n d - ((muR yr d : ℝ) : EReal)) * (up yr b n d - ((muR yr d : ℝ) : EReal)))
      = ((∑ b : Fin 4, ∑ n : Fin 1024, (yr b n d - muR yr d) * (yr b n d - muR yr d) : ℝ) : EReal) := by
    rw [← sum_coe]
    refine Finset.sum_congr rfl (fun b _ => ?_)
    rw [← sum_coe]
    refine Finset.sum_congr rfl (fun n _ => ?_)
    rw [EReal.coe_mul, EReal.coe_sub]; rfl
  unfold varR varRe
  rw [mu_up, hs, c4096_eq, Ideal.div_coe (by norm_num : (4096 : ℝ) ≠ 0), ← EReal.coe_mul]

/-- The uncentred variance, clamped at 0, is the centred one. -/
theorem varK_up (yr : Fin 4 → Fin 1024 → Fin 1536 → ℝ) (d : Fin 1536) :
    varK (up yr) d = ((varRe yr d : ℝ) : EReal) := by
  unfold varK varRe
  rw [S2_up, mu_up, c4096_eq, c0_eq, Ideal.div_coe (by norm_num : (4096 : ℝ) ≠ 0),
    ← EReal.coe_mul, ← EReal.coe_mul, ← EReal.coe_sub,
    var_identity (fun b n => yr b n d) (muR yr d) rfl, max_eq_left]
  exact_mod_cast var_nonneg (fun b n => yr b n d) (muR yr d)

/-- The reciprocal square root of a positive real is a real. -/
theorem rsqrt_pos (r : ℝ) (h : 0 < r) :
    Ideal.rsqrt ((r : ℝ) : EReal) = (((Real.sqrt r)⁻¹ : ℝ) : EReal) := by
  rw [Ideal.rsqrt_coe, if_neg (not_lt.mpr h.le), if_neg h.ne']

theorem lin_eq_up (yr : Fin 4 → Fin 1024 → Fin 1536 → ℝ) (γr βr : Fin 1536 → ℝ) :
    linK (up yr) (fun d => ((γr d : ℝ) : EReal)) (fun d => ((βr d : ℝ) : EReal))
      = linR (up yr) (fun d => ((γr d : ℝ) : EReal)) (fun d => ((βr d : ℝ) : EReal)) := by
  funext b n d
  obtain ⟨e, he, hce⟩ := ceps_eq
  have hv0 : 0 ≤ varRe yr d := var_nonneg (fun b n => yr b n d) (muR yr d)
  have hrs : Ideal.rsqrt (((varRe yr d : ℝ) : EReal) + ceps)
      = (((Real.sqrt (varRe yr d + e))⁻¹ : ℝ) : EReal) := by
    rw [hce, ← EReal.coe_add]; exact rsqrt_pos _ (by linarith)
  unfold linK linR shiftK scaleK
  rw [varK_up, varR_up, mu_up, hrs]
  simp only [up]
  norm_cast
  ring

theorem lin_eq (y : Fin 4 → Fin 1024 → Fin 1536 → EReal) (γ β : Fin 1536 → EReal)
    (hy : ∀ b n d, ∃ r : ℝ, y b n d = (r : EReal)) (hγ : ∀ d, ∃ r : ℝ, γ d = (r : EReal))
    (hβ : ∀ d, ∃ r : ℝ, β d = (r : EReal)) : linK y γ β = linR y γ β := by
  choose yr hyr using hy
  choose γr hγr using hγ
  choose βr hβr using hβ
  obtain rfl : y = up yr := by funext b n d; exact hyr b n d
  obtain rfl : γ = fun d => ((γr d : ℝ) : EReal) := funext hγr
  obtain rfl : β = fun d => ((βr d : ℝ) : EReal) := funext hβr
  exact lin_eq_up yr γr βr

/-- The kernel's and the reference's spiked activations agree when W, γ, β hold real numbers. -/
theorem zK_eq_zR (x : Fin 4 → Fin 1024 → Fin 512 → EReal) (W : Fin 1536 → Fin 512 → EReal)
    (γ β : Fin 1536 → EReal) (hW : ∀ d k, ∃ r : ℝ, W d k = (r : EReal))
    (hγ : ∀ d, ∃ r : ℝ, γ d = (r : EReal)) (hβ : ∀ d, ∃ r : ℝ, β d = (r : EReal)) :
    zK x W γ β = zR x W γ β := by
  funext b n d
  unfold zK zR
  rw [lin_eq (Y x W) γ β (Y_real x W hW) hγ hβ]

end Cert.Spec

end
-- ==== Proof.LibIdxSums.lean ====
/-
  Sums over the index set of a rank-3 or rank-4 array, taken coordinate by coordinate, and the host's add-reductions
  read through them at the exact values: a reduction of a [n0, n1, n2, n3] array over the axes 0, 2, 3 at class `k`
  is the initial value plus the threefold sum over the other coordinates of the entries (a, k, c, d); a reduction of
  a [n0, n1, n2] array over all its axes is the initial value plus the threefold sum over all coordinates.
-/
import Idealize.ShloMosaic.Lib.ValueIdx
import Idealize.ShloMosaic.PureOps.Ideal.Laws

noncomputable section

open scoped BigOperators

namespace Cert.Lib.IdxSums

open Idealize.ShloMosaic Idealize.ShloMosaic.ValueIdx

/-- A rank-3 index is its three coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the threefold sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f]
  simp only [Fintype.sum_prod_type]
  rfl

/-- A rank-4 index is its four coordinates. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-- The sum over the rank-4 indices whose second coordinate is `k`: the threefold sum over the other coordinates. -/
theorem sum_filter_axis1 {M : Type*} [AddCommMonoid M] {n0 n1 n2 n3 : Nat} (x : (⟨4, ![n0, n1, n2, n3]⟩ : Shape).Idx → M)
    (k : Fin n1) (p : (⟨4, ![n0, n1, n2, n3]⟩ : Shape).Idx → Prop) [DecidablePred p] (hp : ∀ i, p i ↔ i 1 = k) :
    ∑ i ∈ Finset.univ.filter p, x i = ∑ a : Fin n0, ∑ c : Fin n2, ∑ d : Fin n3, x (ix4 a k c d) := by
  rw [Finset.sum_filter, sum_idx4]
  refine Finset.sum_congr rfl fun a _ => ?_
  rw [Finset.sum_eq_single k]
  · refine Finset.sum_congr rfl fun c _ => Finset.sum_congr rfl fun d _ => ?_
    rw [if_pos ((hp _).mpr rfl)]
  · intro b _ hb
    refine Finset.sum_eq_zero fun c _ => Finset.sum_eq_zero fun d _ => ?_
    rw [if_neg (fun h => hb ((hp _).mp h))]
  · intro h
    exact absurd (Finset.mem_univ k) h

/-- Dropping the axes 0, 2, 3 of a rank-4 index leaves its second coordinate. -/
theorem drop_023_iff {n0 n1 n2 n3 : Nat} (h : (⟨4, ![n0, n1, n2, n3]⟩ : Shape).ReducesTo [0, 2, 3] ⟨1, ![n1]⟩)
    (i : (⟨4, ![n0, n1, n2, n3]⟩ : Shape).Idx) (k : Fin n1) : h.drop i = ix1 k ↔ i 1 = k := by
  constructor
  · intro e
    have := congrArg (fun j : (⟨1, ![n1]⟩ : Shape).Idx => (j 0).val) e
    exact Fin.ext this
  · intro e
    funext b
    match b with
    | ⟨0, _⟩ => exact Fin.ext (congrArg Fin.val e)

/-- The host's sum over the axes 0, 2, 3 of a rank-4 array, at class `k`. -/
theorem hostSum_023 {n0 n1 n2 n3 : Nat} (h : (⟨4, ![n0, n1, n2, n3]⟩ : Shape).ReducesTo [0, 2, 3] ⟨1, ![n1]⟩)
    (x : (⟨4, ![n0, n1, n2, n3]⟩ : Shape).Idx → EReal) (init : EReal) (k : Fin n1) :
    Ideal.hostReduceAdd h x init (ix1 k) = init + ∑ a : Fin n0, ∑ c : Fin n2, ∑ d : Fin n3, x (ix4 a k c d) := by
  unfold Ideal.hostReduceAdd
  rw [sum_filter_axis1 x k _ (fun i => drop_023_iff h i k)]

/-- The host's sum over every axis of a rank-3 array. -/
theorem hostSum_all3 {n0 n1 n2 : Nat} (h : (⟨3, ![n0, n1, n2]⟩ : Shape).ReducesTo [0, 1, 2] ⟨0, ![]⟩)
    (x : (⟨3, ![n0, n1, n2]⟩ : Shape).Idx → EReal) (init : EReal) (j : (⟨0, ![]⟩ : Shape).Idx) :
    Ideal.hostReduceAdd h x init j = init + ∑ a : Fin n0, ∑ b : Fin n1, ∑ c : Fin n2, x (ix3 a b c) := by
  rw [Ideal.hostReduceAdd_total h (fun b => b.elim0) x init j, sum_idx3]

end Cert.Lib.IdxSums

end
-- ==== Proof.LibTiles.lean ====
/-
  Sums taken tile by tile, and the host's sum over the outer and the inner axis of a three-axis array.

  * `sum_tiles`: a row of length `S = J · L` cut into `J` tiles of `L` entries. Summing, over the `A · J` pairs
    (row, tile) counted as one index `t` (row `t / J`, tile `t % J`), the sums of the tiles' entries gives the sum
    over all rows and all entries. Addition in a commutative monoid is all it uses, so on the extended reals it holds
    with infinite entries too.
  * `hostSum_02`: at the exact values, the host's add-reduction of a `[n0, n1, n2]` array over the axes 0 and 2, at
    class `k`, is the initial value plus the twofold sum over the other coordinates of the entries `(a, k, c)`
    (over the threefold sum of LibIdxSums.lean, in the manner of its reduction over three axes of a rank-4 array).
-/
import Idealize.ShloMosaic.Lib.ValueIdx
import Idealize.ShloMosaic.PureOps.Ideal.Laws
import proofs.«103527_j53025666236638_2_alg».proof.Proof.LibIdxSums

noncomputable section

open scoped BigOperators

namespace Cert.LibTiles

open Idealize.ShloMosaic Idealize.ShloMosaic.ValueIdx Cert.Lib.IdxSums

/-- Position `l` of tile `j`, among `J` tiles of `L` entries laid end to end in a row of length `S = J · L`. -/
def tilePos {J L S : ℕ} (hS : J * L = S) (j : Fin J) (l : Fin L) : Fin S := Fin.cast hS (finProdFinEquiv (j, l))

theorem tilePos_val {J L S : ℕ} (hS : J * L = S) (j : Fin J) (l : Fin L) : (tilePos hS j l).val = l.val + L * j.val := rfl

/-- A sum over a row of length `J · L` is the sum over the tiles of the sums over each tile's entries. -/
theorem sum_row_tiles {M : Type*} [AddCommMonoid M] {J L S : ℕ} (hS : J * L = S) (f : Fin S → M) :
    ∑ s : Fin S, f s = ∑ j : Fin J, ∑ l : Fin L, f (tilePos hS j l) := by
  rw [← Equiv.sum_comp (finCongr hS) f, ← Equiv.sum_comp finProdFinEquiv (fun s => f (finCongr hS s)),
    Fintype.sum_prod_type]
  rfl

/-- Summing tile sums over all (row, tile) pairs, the pair counted as `t = row · J + tile`, sums every entry once. -/
theorem sum_tiles {M : Type*} [AddCommMonoid M] {A J L S : ℕ} (hS : J * L = S) (g : Fin A → Fin S → M) :
    ∑ t : Fin (A * J), ∑ l : Fin L, g t.divNat (tilePos hS t.modNat l) = ∑ n : Fin A, ∑ s : Fin S, g n s := by
  rw [← Equiv.sum_comp finProdFinEquiv (fun t : Fin (A * J) => ∑ l : Fin L, g t.divNat (tilePos hS t.modNat l)),
    Fintype.sum_prod_type]
  refine Finset.sum_congr rfl fun n _ => ?_
  rw [sum_row_tiles hS (g n)]
  refine Finset.sum_congr rfl fun j _ => ?_
  have e : (finProdFinEquiv (n, j) : Fin (A * J)).divNat = n ∧ (finProdFinEquiv (n, j) : Fin (A * J)).modNat = j := by
    have := finProdFinEquiv.symm_apply_apply (n, j)
    exact ⟨congrArg Prod.fst this, congrArg Prod.snd this⟩
  rw [e.1, e.2]

/-- The sum over the rank-3 indices whose middle coordinate is `k`: the twofold sum over the other coordinates. -/
theorem sum_filter_mid {M : Type*} [AddCommMonoid M] {n0 n1 n2 : Nat} (x : (⟨3, ![n0, n1, n2]⟩ : Shape).Idx → M)
    (k : Fin n1) (p : (⟨3, ![n0, n1, n2]⟩ : Shape).Idx → Prop) [DecidablePred p] (hp : ∀ i, p i ↔ i 1 = k) :
    ∑ i ∈ Finset.univ.filter p, x i = ∑ a : Fin n0, ∑ c : Fin n2, x (ix3 a k c) := by
  rw [Finset.sum_filter, sum_idx3]
  refine Finset.sum_congr rfl fun a _ => ?_
  rw [Finset.sum_eq_single k]
  · refine Finset.sum_congr rfl fun c _ => ?_
    rw [if_pos ((hp _).mpr rfl)]
  · intro b _ hb
    refine Finset.sum_eq_zero fun c _ => ?_
    rw [if_neg (fun h => hb ((hp _).mp h))]
  · intro h
    exact absurd (Finset.mem_univ k) h

/-- Dropping the axes 0 and 2 of a rank-3 index leaves its middle coordinate. -/
theorem drop_02_iff {n0 n1 n2 : Nat} (h : (⟨3, ![n0, n1, n2]⟩ : Shape).ReducesTo [0, 2] ⟨1, ![n1]⟩)
    (i : (⟨3, ![n0, n1, n2]⟩ : Shape).Idx) (k : Fin n1) : h.drop i = ix1 k ↔ i 1 = k := by
  constructor
  · intro e
    have := congrArg (fun j : (⟨1, ![n1]⟩ : Shape).Idx => (j 0).val) e
    exact Fin.ext this
  · intro e
    funext b
    match b with
    | ⟨0, _⟩ => exact Fin.ext (congrArg Fin.val e)

/-- The host's sum over the axes 0 and 2 of a rank-3 array, at class `k`. -/
theorem hostSum_02 {n0 n1 n2 : Nat} (h : (⟨3, ![n0, n1, n2]⟩ : Shape).ReducesTo [0, 2] ⟨1, ![n1]⟩)
    (x : (⟨3, ![n0, n1, n2]⟩ : Shape).Idx → EReal) (init : EReal) (k : Fin n1) :
    Ideal.hostReduceAdd h x init (ix1 k) = init + ∑ a : Fin n0, ∑ c : Fin n2, x (ix3 a k c) := by
  unfold Ideal.hostReduceAdd
  rw [sum_filter_mid x k _ (fun i => drop_02_iff h i k)]

end Cert.LibTiles

end
-- ==== Proof.TileSums.lean ====
/-
  The 4096 rows cut two ways.

  The eight tiles of 512 rows and the four batches of 1024 rows are two ways of cutting the same 4096 rows into
  consecutive blocks, so a sum over the tiles of per-tile sums and a sum over the batches of per-batch sums are both
  the sum over all 4096 rows.  Only commutativity and associativity of addition are used, so on the extended reals
  nothing needs to be finite.
-/
import proofs.«103527_j53025666236638_2_alg».proof.Proof.SpecLaws
import proofs.«103527_j53025666236638_2_alg».proof.Proof.LibTiles

noncomputable section

namespace Cert.Spec

open Idealize.ShloMosaic Cert.LibTiles
open scoped BigOperators

/-- The sum over 4096 rows, tile by tile: 8 tiles of 512 rows, row 512·j + i. -/
theorem sum_rows_tiles8 {M : Type*} [AddCommMonoid M] (F : Fin 4096 → M) :
    ∑ s : Fin 4096, F s
      = ∑ j : Fin 8, ∑ i : Fin 512, F ⟨512 * j.val + i.val, by have := i.isLt; have := j.isLt; omega⟩ := by
  rw [sum_row_tiles (J := 8) (L := 512) (by norm_num) F]
  refine Finset.sum_congr rfl fun j _ => Finset.sum_congr rfl fun i _ => congrArg F (Fin.ext ?_)
  rw [tilePos_val]; exact Nat.add_comm _ _

/-- The sum over 4096 rows, batch by batch: 4 batches of 1024 rows, row 1024·b + n. -/
theorem sum_rows_batches4 {M : Type*} [AddCommMonoid M] (F : Fin 4096 → M) :
    ∑ s : Fin 4096, F s
      = ∑ b : Fin 4, ∑ n : Fin 1024, F ⟨1024 * b.val + n.val, by have := n.isLt; have := b.isLt; omega⟩ := by
  rw [sum_row_tiles (J := 4) (L := 1024) (by norm_num) F]
  refine Finset.sum_congr rfl fun b _ => Finset.sum_congr rfl fun n _ => congrArg F (Fin.ext ?_)
  rw [tilePos_val]; exact Nat.add_comm _ _

/-- Zero plus the eight per-tile sums is the sum over the four batches. -/
theorem tiles_S1 (f : Fin 4096 → Fin 1536 → EReal) (g : ℕ → Fin 1536 → EReal)
    (hg : ∀ (s : ℕ) (hs : s < 8) (d : Fin 1536),
      g s d = ∑ i : Fin 512, f ⟨512 * s + i.val, by have := i.isLt; omega⟩ d) (d : Fin 1536) :
    c0 + ∑ s ∈ Finset.range 8, g s d
      = S1 (fun b n d => f ⟨1024 * b.val + n.val, by have := n.isLt; have := b.isLt; omega⟩ d) d := by
  rw [c0_eq, EReal.coe_zero, zero_add, Finset.sum_range]
  unfold S1
  rw [← sum_rows_batches4 (fun s => f s d), sum_rows_tiles8 (fun s => f s d)]
  exact Finset.sum_congr rfl fun j _ => hg j.val j.isLt d

/-- Zero plus the eight per-tile sums of squares is the sum of squares over the four batches. -/
theorem tiles_S2 (f : Fin 4096 → Fin 1536 → EReal) (g : ℕ → Fin 1536 → EReal)
    (hg : ∀ (s : ℕ) (hs : s < 8) (d : Fin 1536),
      g s d = ∑ i : Fin 512, f ⟨512 * s + i.val, by have := i.isLt; omega⟩ d
                * f ⟨512 * s + i.val, by have := i.isLt; omega⟩ d) (d : Fin 1536) :
    c0 + ∑ s ∈ Finset.range 8, g s d
      = S2 (fun b n d => f ⟨1024 * b.val + n.val, by have := n.isLt; have := b.isLt; omega⟩ d) d := by
  rw [c0_eq, EReal.coe_zero, zero_add, Finset.sum_range]
  unfold S2
  rw [← sum_rows_batches4 (fun s => f s d * f s d), sum_rows_tiles8 (fun s => f s d * f s d)]
  exact Finset.sum_congr rfl fun j _ => hg j.val j.isLt d

end Cert.Spec

end
-- ==== Proof.KHostRead.lean ====
/-
  The host lines between the kernel's two regions, read at one index, on the extended reals: row 0 of a statistics
  block, the channel mean S1/4096, the scale γ · rsqrt (max (S2/4096 − μ²) 0 + ε) and the shift β − μ · scale as the
  shared specification's quantities once the two blocks' rows 0 hold the column sums S1 and S2; and the two reshapes
  between [4, 1024, ·] and [4096, ·]: row r of the flat array is row r mod 1024 of batch element r / 1024.
-/
import proofs.«103527_j53025666236638_2_alg».proof.Proof.KHost
import proofs.«103527_j53025666236638_2_alg».proof.Proof.Spec

noncomputable section

open scoped BigOperators

namespace Cert.KernelIdeal.KHost

open Idealize.ShloMosaic Idealize.ShloMosaic.ValueIdx
open Cert.KernelIdeal Cert.KernelIdeal.Gen

/-- Row 0 of a statistics block at channel d. -/
theorem row0_apply (s : FVec Ideal S8x1536 .f32) (d : Fin 1536) : row0 s (ix1 d) = s (ix2 (0 : Fin 8) d) := by
  unfold row0
  refine (shapeCast_1a_a_apply _ _ d).trans ?_
  exact slice2_axis0_apply 0 s _ (0 : Fin 1) d (0 : Fin 8) rfl

/-- The channel mean: row 0 of the first block over 4096. -/
theorem muT_apply (s1 : FVec Ideal S8x1536 .f32) (d : Fin 1536) :
    muT s1 (ix1 d) = Ideal.div (s1 (ix2 (0 : Fin 8) d)) Cert.Spec.c4096 := by
  unfold muT
  show Ideal.div (row0 s1 (ix1 d)) (Ideal.ofBits .f32 0x45800000#32) = _
  rw [row0_apply]

/-- The channel scale is the specification's, once the blocks' rows 0 hold the sums S1 and S2. -/
theorem scaleT_spec (y : Fin 4 → Fin 1024 → Fin 1536 → EReal) (g : FVec Ideal S1536 .f32) (s1 s2 : FVec Ideal S8x1536 .f32)
    (d : Fin 1536) (h1 : s1 (ix2 (0 : Fin 8) d) = Cert.Spec.S1 y d) (h2 : s2 (ix2 (0 : Fin 8) d) = Cert.Spec.S2 y d) :
    scaleT g s1 s2 (ix1 d) = Cert.Spec.scaleK y (fun d => g (ix1 d)) d := by
  unfold scaleT
  show g (ix1 d) * Ideal.rsqrt (max (Ideal.div (row0 s2 (ix1 d)) (Ideal.ofBits .f32 0x45800000#32)
      - muT s1 (ix1 d) * muT s1 (ix1 d)) (Ideal.ofBits .f32 0x00000000#32) + Ideal.ofBits .f32 0x3727C5AC#32) = _
  rw [row0_apply, muT_apply, h1, h2]
  rfl

/-- The channel shift is the specification's, under the same two hypotheses. -/
theorem shiftT_spec (y : Fin 4 → Fin 1024 → Fin 1536 → EReal) (g b : FVec Ideal S1536 .f32) (s1 s2 : FVec Ideal S8x1536 .f32)
    (d : Fin 1536) (h1 : s1 (ix2 (0 : Fin 8) d) = Cert.Spec.S1 y d) (h2 : s2 (ix2 (0 : Fin 8) d) = Cert.Spec.S2 y d) :
    shiftT g b s1 s2 (ix1 d) = Cert.Spec.shiftK y (fun d => g (ix1 d)) (fun d => b (ix1 d)) d := by
  unfold shiftT
  show b (ix1 d) - muT s1 (ix1 d) * scaleT g s1 s2 (ix1 d) = _
  rw [scaleT_spec y g s1 s2 d h1 h2, muT_apply, h1]
  rfl

section Reshape
variable {α : Type}

/-- [4,1024,512] → [4096,512]: row r is row r mod 1024 of batch element r / 1024. -/
theorem flat_rows_apply (x : S4x1024x512.Idx → α) (r : Fin 4096) (k : Fin 512) :
    shapeCast S4096x512 x shapeCasts_S4x1024x512_S4096x512 (ix2 r k)
      = x (ix3 (⟨r.val / 1024, by omega⟩ : Fin 4) (⟨r.val % 1024, by omega⟩ : Fin 1024) k) := by
  refine shapeCast_apply x _ _ (ix3 (⟨r.val / 1024, by omega⟩ : Fin 4) (⟨r.val % 1024, by omega⟩ : Fin 1024) k) ?_
  rw [Shape.rowMajor_val_three, Shape.rowMajor_val_two]
  show (r.val / 1024 * 1024 + r.val % 1024) * 512 + k.val = r.val * 512 + k.val
  omega

/-- [4096,1536] → [4,1024,1536]: entry (b, n, d) is row 1024·b + n of the flat array. -/
theorem unflat_rows_apply (x : S4096x1536.Idx → α) (b : Fin 4) (n : Fin 1024) (d : Fin 1536) :
    shapeCast S4x1024x1536 x shapeCasts_S4096x1536_S4x1024x1536 (ix3 b n d)
      = x (ix2 (⟨1024 * b.val + n.val, by omega⟩ : Fin 4096) d) := by
  refine shapeCast_apply x _ _ (ix2 (⟨1024 * b.val + n.val, by omega⟩ : Fin 4096) d) ?_
  rw [Shape.rowMajor_val_two, Shape.rowMajor_val_three]
  show (1024 * b.val + n.val) * 1536 + d.val = (b.val * 1024 + n.val) * 1536 + d.val
  omega

end Reshape

end Cert.KernelIdeal.KHost

end
-- ==== Proof.K1Lib.lean ====
/-
  Generic facts for reading the second kernel's body at an index, at the ideal values:
  the pointwise spike of a vector, the three matrix products as finite sums over the contracted
  coordinate, and the side-by-side concatenation of eight 64-column pieces.
-/
import proofs.«103527_j53025666236638_2_alg».proof.Proof.Gen.KernelIdeal.Frame
import proofs.«103527_j53025666236638_2_alg».proof.Proof.Spec
import Idealize.ShloMosaic.Lib.ValueLayout
import Idealize.ShloMosaic.PureOps.Ideal.Laws

noncomputable section

namespace Cert.KernelIdeal.K1Value

open Cert.KernelIdeal Cert.KernelIdeal.Gen Idealize.ShloMosaic Idealize.ShloMosaic.ValueIdx
open scoped BigOperators

/-! ## The spike of a vector, read at an index -/

/-- ⌊min 4 (max 0 v) + 1/2⌋ computed pointwise on a vector (the narrowing to bf16 is the identity on the
    extended reals) is the scalar spike of each entry. -/
theorem spike_apply {s : Shape} (v : FVec Ideal s .f32) (h : FTy.bits .bf16 < FTy.bits .f32) (i : s.Idx) :
    (truncf .bf16 (floor (addf (minimumf (broadcast s (Scalar.ofBits .f32 0x40800000#32))
        (maximumf (broadcast s (Scalar.ofBits .f32 0x00000000#32)) v))
        (broadcast s (Scalar.ofBits .f32 0x3F000000#32)))) h : FVec Ideal s .bf16) i
      = Cert.Spec.spk (v i) := rfl

/-! ## The three matrix products as sums -/

/-- q · kᵀ : [1024,64] × [1024,64] → [1024,1024], contracting the 64 lanes of both. -/
theorem matmul_qk_apply (a b : FVec Ideal S1024x64 .bf16) (n m : Fin 1024) :
    matmul dot_S1024x64_S1024x64_S1024x1024_1_1_0_0_n_n none a b (constant S1024x1024 .f32 0x00000000#32) (ix2 n m)
      = ∑ e : Fin 64, a (ix2 n e) * b (ix2 m e) := by
  show FloatOps.matmul _ none a b _ (ix2 n m) = _
  rw [Ideal.matmul_constant_zero_apply,
    ← Equiv.sum_comp (contrEquiv1 dot_S1024x64_S1024x64_S1024x1024_1_1_0_0_n_n 64 rfl rfl).symm]
  refine Finset.sum_congr rfl fun c _ => ?_
  have c2 := contrEquiv1_symm_val dot_S1024x64_S1024x64_S1024x1024_1_1_0_0_n_n 64 rfl rfl c
  have l2 : dot_S1024x64_S1024x64_S1024x1024_1_1_0_0_n_n.lhsIdx (ix2 n m) ((contrEquiv1 _ 64 rfl rfl).symm c) = ix2 n c := by
    funext ax; apply Fin.ext
    match ax with
    | ⟨0, _⟩ => simp [DotDims.lhsIdx, dot_S1024x64_S1024x64_S1024x1024_1_1_0_0_n_n]; rfl
    | ⟨1, _⟩ => simp [DotDims.lhsIdx, dot_S1024x64_S1024x64_S1024x1024_1_1_0_0_n_n]; exact c2
  have r2 : dot_S1024x64_S1024x64_S1024x1024_1_1_0_0_n_n.rhsIdx (ix2 n m) ((contrEquiv1 _ 64 rfl rfl).symm c) = ix2 m c := by
    funext ax; apply Fin.ext
    match ax with
    | ⟨0, _⟩ => simp [DotDims.rhsIdx, dot_S1024x64_S1024x64_S1024x1024_1_1_0_0_n_n]; rfl
    | ⟨1, _⟩ => simp [DotDims.rhsIdx, dot_S1024x64_S1024x64_S1024x1024_1_1_0_0_n_n]; exact c2
  rw [l2, r2]

/-- A · v : [1024,1024] × [1024,64] → [1024,64], contracting the columns of A with the rows of v. -/
theorem matmul_av_apply (a : FVec Ideal S1024x1024 .bf16) (b : FVec Ideal S1024x64 .bf16) (n : Fin 1024) (d : Fin 64) :
    matmul dot_S1024x1024_S1024x64_S1024x64_1_0_0_1_n_n none a b (constant S1024x64 .f32 0x00000000#32) (ix2 n d)
      = ∑ m : Fin 1024, a (ix2 n m) * b (ix2 m d) := by
  show FloatOps.matmul _ none a b _ (ix2 n d) = _
  rw [Ideal.matmul_constant_zero_apply,
    ← Equiv.sum_comp (contrEquiv1 dot_S1024x1024_S1024x64_S1024x64_1_0_0_1_n_n 1024 rfl rfl).symm]
  refine Finset.sum_congr rfl fun c _ => ?_
  have c2 := contrEquiv1_symm_val dot_S1024x1024_S1024x64_S1024x64_1_0_0_1_n_n 1024 rfl rfl c
  have l2 : dot_S1024x1024_S1024x64_S1024x64_1_0_0_1_n_n.lhsIdx (ix2 n d) ((contrEquiv1 _ 1024 rfl rfl).symm c) = ix2 n c := by
    funext ax; apply Fin.ext
    match ax with
    | ⟨0, _⟩ => simp [DotDims.lhsIdx, dot_S1024x1024_S1024x64_S1024x64_1_0_0_1_n_n]; rfl
    | ⟨1, _⟩ => simp [DotDims.lhsIdx, dot_S1024x1024_S1024x64_S1024x64_1_0_0_1_n_n]; exact c2
  have r2 : dot_S1024x1024_S1024x64_S1024x64_1_0_0_1_n_n.rhsIdx (ix2 n d) ((contrEquiv1 _ 1024 rfl rfl).symm c) = ix2 c d := by
    funext ax; apply Fin.ext
    match ax with
    | ⟨0, _⟩ => simp [DotDims.rhsIdx, dot_S1024x1024_S1024x64_S1024x64_1_0_0_1_n_n]; exact c2
    | ⟨1, _⟩ => simp [DotDims.rhsIdx, dot_S1024x1024_S1024x64_S1024x64_1_0_0_1_n_n]; rfl
  rw [l2, r2]

/-- heads · Pᵀ : [1024,512] × [512,512] → [1024,512], contracting the columns of both. -/
theorem matmul_proj_apply (a : FVec Ideal S1024x512 .bf16) (w : FVec Ideal S512x512 .bf16) (n : Fin 1024) (c : Fin 512) :
    matmul dot_S1024x512_S512x512_S1024x512_1_1_0_0_n_n none a w (constant S1024x512 .f32 0x00000000#32) (ix2 n c)
      = ∑ j : Fin 512, a (ix2 n j) * w (ix2 c j) := by
  show FloatOps.matmul _ none a w _ (ix2 n c) = _
  rw [Ideal.matmul_constant_zero_apply,
    ← Equiv.sum_comp (contrEquiv1 dot_S1024x512_S512x512_S1024x512_1_1_0_0_n_n 512 rfl rfl).symm]
  refine Finset.sum_congr rfl fun k _ => ?_
  have c2 := contrEquiv1_symm_val dot_S1024x512_S512x512_S1024x512_1_1_0_0_n_n 512 rfl rfl k
  have l2 : dot_S1024x512_S512x512_S1024x512_1_1_0_0_n_n.lhsIdx (ix2 n c) ((contrEquiv1 _ 512 rfl rfl).symm k) = ix2 n k := by
    funext ax; apply Fin.ext
    match ax with
    | ⟨0, _⟩ => simp [DotDims.lhsIdx, dot_S1024x512_S512x512_S1024x512_1_1_0_0_n_n]; rfl
    | ⟨1, _⟩ => simp [DotDims.lhsIdx, dot_S1024x512_S512x512_S1024x512_1_1_0_0_n_n]; exact c2
  have r2 : dot_S1024x512_S512x512_S1024x512_1_1_0_0_n_n.rhsIdx (ix2 n c) ((contrEquiv1 _ 512 rfl rfl).symm k) = ix2 c k := by
    funext ax; apply Fin.ext
    match ax with
    | ⟨0, _⟩ => simp [DotDims.rhsIdx, dot_S1024x512_S512x512_S1024x512_1_1_0_0_n_n]; rfl
    | ⟨1, _⟩ => simp [DotDims.rhsIdx, dot_S1024x512_S512x512_S1024x512_1_1_0_0_n_n]; exact c2
  rw [l2, r2]

/-! ## Eight 64-column pieces side by side -/

/-- The concatenation along the columns of eight [1024,64] pieces reads, at column j, piece j / 64 at
    lane j % 64. Stated against a family g of the pieces' entries. -/
theorem concat8_apply {α : Type} (p0 p1 p2 p3 p4 p5 p6 p7 : S1024x64.Idx → α)
    (h : Shape.Concatenates (([⟨S1024x64, p0⟩, ⟨S1024x64, p1⟩, ⟨S1024x64, p2⟩, ⟨S1024x64, p3⟩, ⟨S1024x64, p4⟩,
      ⟨S1024x64, p5⟩, ⟨S1024x64, p6⟩, ⟨S1024x64, p7⟩] : List ((s : Shape) × (s.Idx → α))).map (·.1)) S1024x512 1)
    (g : Fin 8 → Fin 1024 → Fin 64 → α)
    (h0 : ∀ n e, p0 (ix2 n e) = g 0 n e) (h1 : ∀ n e, p1 (ix2 n e) = g 1 n e)
    (h2 : ∀ n e, p2 (ix2 n e) = g 2 n e) (h3 : ∀ n e, p3 (ix2 n e) = g 3 n e)
    (h4 : ∀ n e, p4 (ix2 n e) = g 4 n e) (h5 : ∀ n e, p5 (ix2 n e) = g 5 n e)
    (h6 : ∀ n e, p6 (ix2 n e) = g 6 n e) (h7 : ∀ n e, p7 (ix2 n e) = g 7 n e)
    (n : Fin 1024) (j : Fin 512) :
    concatenate S1024x512 1 [⟨S1024x64, p0⟩, ⟨S1024x64, p1⟩, ⟨S1024x64, p2⟩, ⟨S1024x64, p3⟩, ⟨S1024x64, p4⟩,
      ⟨S1024x64, p5⟩, ⟨S1024x64, p6⟩, ⟨S1024x64, p7⟩] h (ix2 n j)
      = g (Cert.Spec.hOf j) n (Cert.Spec.eOf j) := by
  have key := concatenate_ofFn_apply (t := S1024x512) (s₁ := S1024x64) (1 : Fin 2) (N := 8)
    (![p0, p1, p2, p3, p4, p5, p6, p7] : Fin 8 → (S1024x64.Idx → α)) h rfl 64 rfl (ix2 n j) (Cert.Spec.hOf j) rfl
    (ix2 n (Cert.Spec.eOf j)) rfl (fun b hb => by
      match b with
      | ⟨0, _⟩ => rfl
      | ⟨1, _⟩ => exact absurd rfl hb)
  refine key.trans ?_
  have hj : (Cert.Spec.hOf j).val < 8 := (Cert.Spec.hOf j).isLt
  generalize Cert.Spec.hOf j = hh at hj ⊢
  match hh with
  | ⟨0, _⟩ => exact h0 n _
  | ⟨1, _⟩ => exact h1 n _
  | ⟨2, _⟩ => exact h2 n _
  | ⟨3, _⟩ => exact h3 n _
  | ⟨4, _⟩ => exact h4 n _
  | ⟨5, _⟩ => exact h5 n _
  | ⟨6, _⟩ => exact h6 n _
  | ⟨7, _⟩ => exact h7 n _

end Cert.KernelIdeal.K1Value

end
-- ==== Proof.K1Head.lean ====
/-
  One batch element's attention, piece by piece: the three spiked 512-wide sections of the normalised
  block, one head's chain (scores, spike, weighted sum, scale by 1/8, spike) read at an index for any
  column offset, and the tail (heads side by side, projection, bias, the leading unit axis put back).
-/
import proofs.«103527_j53025666236638_2_alg».proof.Proof.K1Lib

noncomputable section

namespace Cert.KernelIdeal.K1Value

open Cert.KernelIdeal Cert.KernelIdeal.Gen Idealize.ShloMosaic Idealize.ShloMosaic.ValueIdx
open scoped BigOperators

/-! ## The spiked activations of one batch element -/

/-- z n d = spk (x n d · scale d + shift d), by coordinates. -/
def zf (x0 : Vec Ideal S1x1024x1536 .f32) (x1 x2 : Vec Ideal S1x1536 .f32) (n : Fin 1024) (d : Fin 1536) : EReal :=
  Cert.Spec.spk (x0 (ix3 (0 : Fin 1) n d) * x1 (ix2 (0 : Fin 1) d) + x2 (ix2 (0 : Fin 1) d))

/-- The pointwise spike of a vector (the narrowing to bf16 kept, as the body has it). -/
def spikeV {s : Shape} (v : FVec Ideal s .f32) : FVec Ideal s .bf16 :=
  truncf .bf16 (floor (addf (minimumf (broadcast s (Scalar.ofBits .f32 0x40800000#32))
    (maximumf (broadcast s (Scalar.ofBits .f32 0x00000000#32)) v))
    (broadcast s (Scalar.ofBits .f32 0x3F000000#32)))) bitsLt_bf16_f32

theorem spikeV_apply {s : Shape} (v : FVec Ideal s .f32) (i : s.Idx) : spikeV v i = Cert.Spec.spk (v i) := rfl

/-- The 512 columns from offset o of x · scale + shift (the scale and shift rows broadcast down the rows). -/
def linV (x0 : Vec Ideal S1x1024x1536 .f32) (x1 x2 : Vec Ideal S1x1536 .f32) (o : ℕ)
    (h1 : S1024x1536.Slices ![0, o] S1024x512) (h2 : S1x1536.Slices ![0, o] S1x512) : FVec Ideal S1024x512 .f32 :=
  addf (mulf (extractStridedSlice S1024x512 ![0, o] (k1_pay2 x0) h1)
      (broadcastTo S1024x512 (extractStridedSlice S1x512 ![0, o] (k1_pay3 x1) h2) broadcasts_S1x512_S1024x512))
    (broadcastTo S1024x512 (extractStridedSlice S1x512 ![0, o] (k1_pay4 x2) h2) broadcasts_S1x512_S1024x512)

theorem linV_apply (x0 : Vec Ideal S1x1024x1536 .f32) (x1 x2 : Vec Ideal S1x1536 .f32) (o : ℕ)
    (h1 : S1024x1536.Slices ![0, o] S1024x512) (h2 : S1x1536.Slices ![0, o] S1x512) (n : Fin 1024) (e : Fin 512) :
    linV x0 x1 x2 o h1 h2 (ix2 n e)
      = x0 (ix3 (0 : Fin 1) n ⟨o + e.val, Nat.lt_of_lt_of_le (Nat.add_lt_add_left e.isLt o) (h1.2 1)⟩)
          * x1 (ix2 (0 : Fin 1) ⟨o + e.val, Nat.lt_of_lt_of_le (Nat.add_lt_add_left e.isLt o) (h1.2 1)⟩)
        + x2 (ix2 (0 : Fin 1) ⟨o + e.val, Nat.lt_of_lt_of_le (Nat.add_lt_add_left e.isLt o) (h1.2 1)⟩) := by
  unfold linV k1_pay2 k1_pay3 k1_pay4
  show extractStridedSlice S1024x512 ![0, o] (shapeCast S1024x1536 x0 _) h1 (ix2 n e)
      * broadcastTo S1024x512 (extractStridedSlice S1x512 ![0, o] (shapeCast S1x1536 x1 _) h2) _ (ix2 n e)
    + broadcastTo S1024x512 (extractStridedSlice S1x512 ![0, o] (shapeCast S1x1536 x2 _) h2) _ (ix2 n e) = _
  rw [slice2_axis1_eq, shapeCast_1ab_ab_apply, broadcastTo_1b_ab_apply, broadcastTo_1b_ab_apply,
    slice2_axis1_eq, slice2_axis1_eq, shapeCast_self, shapeCast_self]

/-- A spiked section: the 512 columns from offset o of z. -/
def secV (x0 : Vec Ideal S1x1024x1536 .f32) (x1 x2 : Vec Ideal S1x1536 .f32) (o : ℕ)
    (h1 : S1024x1536.Slices ![0, o] S1024x512) (h2 : S1x1536.Slices ![0, o] S1x512) : FVec Ideal S1024x512 .bf16 :=
  spikeV (linV x0 x1 x2 o h1 h2)

theorem secV_apply (x0 : Vec Ideal S1x1024x1536 .f32) (x1 x2 : Vec Ideal S1x1536 .f32) (o : ℕ)
    (h1 : S1024x1536.Slices ![0, o] S1024x512) (h2 : S1x1536.Slices ![0, o] S1x512) (n : Fin 1024) (e : Fin 512) :
    secV x0 x1 x2 o h1 h2 (ix2 n e)
      = zf x0 x1 x2 n ⟨o + e.val, Nat.lt_of_lt_of_le (Nat.add_lt_add_left e.isLt o) (h1.2 1)⟩ := by
  unfold secV zf
  rw [spikeV_apply, linV_apply]

theorem pay5_eq (x0 : Vec Ideal S1x1024x1536 .f32) (x1 x2 : Vec Ideal S1x1536 .f32) :
    k1_pay5 x0 x1 x2 = secV x0 x1 x2 0 slices_S1024x1536_o0_0_S1024x512 slices_S1x1536_o0_0_S1x512 := rfl

theorem pay6_eq (x0 : Vec Ideal S1x1024x1536 .f32) (x1 x2 : Vec Ideal S1x1536 .f32) :
    k1_pay6 x0 x1 x2 = secV x0 x1 x2 512 slices_S1024x1536_o0_512_S1024x512 slices_S1x1536_o0_512_S1x512 := rfl

theorem pay9_eq (x0 : Vec Ideal S1x1024x1536 .f32) (x1 x2 : Vec Ideal S1x1536 .f32) :
    k1_pay9 (k1_pay7 x0 x1 x2) (Scalar.ofBits .f32 0x40800000#32) (k1_pay8 (F := Ideal))
      = secV x0 x1 x2 1024 slices_S1024x1536_o0_1024_S1024x512 slices_S1x1536_o0_1024_S1x512 := rfl

/-! ## One head, for any column offset -/

/-- The scores of the head whose 64 columns start at offset o: q_h · k_hᵀ, before the spike. -/
def scoreV (Q K : FVec Ideal S1024x512 .bf16) (o : ℕ) (hs : S1024x512.Slices ![0, o] S1024x64) :
    FVec Ideal S1024x1024 .f32 :=
  matmul dot_S1024x64_S1024x64_S1024x1024_1_1_0_0_n_n none (extractStridedSlice S1024x64 ![0, o] Q hs)
    (extractStridedSlice S1024x64 ![0, o] K hs) (constant S1024x1024 .f32 0x00000000#32)

theorem scoreV_apply (Q K : FVec Ideal S1024x512 .bf16) (o : ℕ) (hs : S1024x512.Slices ![0, o] S1024x64)
    (n m : Fin 1024) :
    scoreV Q K o hs (ix2 n m)
      = ∑ e : Fin 64, Q (ix2 n ⟨o + e.val, Nat.lt_of_lt_of_le (Nat.add_lt_add_left e.isLt o) (hs.2 1)⟩)
          * K (ix2 m ⟨o + e.val, Nat.lt_of_lt_of_le (Nat.add_lt_add_left e.isLt o) (hs.2 1)⟩) := by
  unfold scoreV
  refine (matmul_qk_apply _ _ n m).trans ?_
  refine Finset.sum_congr rfl fun e _ => ?_
  rw [slice2_axis1_eq, slice2_axis1_eq]

/-- The weighted sum of the head: spiked scores times v_h, before the scale by 1/8. -/
def wsumV (A : FVec Ideal S1024x1024 .f32) (V : FVec Ideal S1024x512 .bf16) (o : ℕ)
    (hs : S1024x512.Slices ![0, o] S1024x64) : FVec Ideal S1024x64 .f32 :=
  matmul dot_S1024x1024_S1024x64_S1024x64_1_0_0_1_n_n none (spikeV A)
    (extractStridedSlice S1024x64 ![0, o] V hs) (constant S1024x64 .f32 0x00000000#32)

theorem wsumV_apply (A : FVec Ideal S1024x1024 .f32) (V : FVec Ideal S1024x512 .bf16) (o : ℕ)
    (hs : S1024x512.Slices ![0, o] S1024x64) (n : Fin 1024) (d : Fin 64) :
    wsumV A V o hs (ix2 n d)
      = ∑ m : Fin 1024, Cert.Spec.spk (A (ix2 n m))
          * V (ix2 m ⟨o + d.val, Nat.lt_of_lt_of_le (Nat.add_lt_add_left d.isLt o) (hs.2 1)⟩) := by
  unfold wsumV
  refine (matmul_av_apply _ _ n d).trans ?_
  refine Finset.sum_congr rfl fun m _ => ?_
  rw [slice2_axis1_eq, spikeV_apply]

/-- The head's output: the weighted sum times 1/8, spiked. -/
def headV (Q K V : FVec Ideal S1024x512 .bf16) (o : ℕ) (hs : S1024x512.Slices ![0, o] S1024x64) :
    FVec Ideal S1024x64 .bf16 :=
  spikeV (mulf (wsumV (scoreV Q K o hs) V o hs) (broadcast S1024x64 (Scalar.ofBits .f32 0x3E000000#32)))

theorem headV_apply (Q K V : FVec Ideal S1024x512 .bf16) (o : ℕ) (hs : S1024x512.Slices ![0, o] S1024x64)
    (n : Fin 1024) (d : Fin 64) :
    headV Q K V o hs (ix2 n d)
      = Cert.Spec.spk ((∑ m : Fin 1024,
          Cert.Spec.spk (∑ e : Fin 64,
              Q (ix2 n ⟨o + e.val, Nat.lt_of_lt_of_le (Nat.add_lt_add_left e.isLt o) (hs.2 1)⟩)
                * K (ix2 m ⟨o + e.val, Nat.lt_of_lt_of_le (Nat.add_lt_add_left e.isLt o) (hs.2 1)⟩))
            * V (ix2 m ⟨o + d.val, Nat.lt_of_lt_of_le (Nat.add_lt_add_left d.isLt o) (hs.2 1)⟩))
          * Cert.Spec.ceighth) := by
  unfold headV
  rw [spikeV_apply]
  show Cert.Spec.spk (wsumV (scoreV Q K o hs) V o hs (ix2 n d) * Cert.Spec.ceighth) = _
  rw [wsumV_apply]
  refine congrArg (fun t => Cert.Spec.spk (t * Cert.Spec.ceighth)) ?_
  refine Finset.sum_congr rfl fun m _ => ?_
  rw [scoreV_apply]

/-- The head at offset 64·h of the three spiked sections is the specification's head h. -/
theorem headV_sec (x0 : Vec Ideal S1x1024x1536 .f32) (x1 x2 : Vec Ideal S1x1536 .f32)
    (hh : Fin 8) (o : ℕ) (ho : o = 64 * hh.val) (hs : S1024x512.Slices ![0, o] S1024x64) (n : Fin 1024) (d : Fin 64) :
    headV (secV x0 x1 x2 0 slices_S1024x1536_o0_0_S1024x512 slices_S1x1536_o0_0_S1x512)
        (secV x0 x1 x2 512 slices_S1024x1536_o0_512_S1024x512 slices_S1x1536_o0_512_S1x512)
        (secV x0 x1 x2 1024 slices_S1024x1536_o0_1024_S1024x512 slices_S1x1536_o0_1024_S1x512) o hs (ix2 n d)
      = Cert.Spec.headRow (zf x0 x1 x2) hh n d := by
  subst ho
  rw [headV_apply]
  unfold Cert.Spec.headRow Cert.Spec.scoreRow
  refine congrArg (fun t => Cert.Spec.spk (t * Cert.Spec.ceighth)) ?_
  refine Finset.sum_congr rfl fun m _ => ?_
  rw [secV_apply]
  refine congrArg₂ (fun a b => Cert.Spec.spk a * b) ?_ ?_
  · refine Finset.sum_congr rfl fun e _ => ?_
    rw [secV_apply, secV_apply]
    refine congrArg₂ (fun a b => a * b) (congrArg (zf x0 x1 x2 n) (Fin.ext ?_)) (congrArg (zf x0 x1 x2 m) (Fin.ext ?_))
    · show 0 + (64 * hh.val + e.val) = 64 * hh.val + e.val
      omega
    · show 512 + (64 * hh.val + e.val) = 512 + (64 * hh.val + e.val)
      rfl
  · refine congrArg (zf x0 x1 x2 m) (Fin.ext ?_)
    show 1024 + (64 * hh.val + d.val) = 1024 + (64 * hh.val + d.val)
    rfl

end Cert.KernelIdeal.K1Value

end
-- ==== Proof.K1Value.lean ====
/-
  The second kernel's body read at an index: what it leaves in the output block at (0, n, c) is one batch
  element's attention, Spec.attnRow, of the spiked normalised activations z n d = spk (x n d · scale d + shift d),
  the projection weights and the bias row.
-/
import proofs.«103527_j53025666236638_2_alg».proof.Proof.K1Head

noncomputable section

namespace Cert.KernelIdeal.K1Value

open Cert.KernelIdeal Cert.KernelIdeal.Gen Idealize.ShloMosaic Idealize.ShloMosaic.ValueIdx
open scoped BigOperators

/-! ## The tail: heads side by side, projection, bias, the unit axis put back -/

def tailV (p0 p1 p2 p3 p4 p5 p6 p7 : FVec Ideal S1024x64 .bf16) (w : Vec Ideal S512x512 .bf16) (b : Vec Ideal S1x512 .f32) :
    FVec Ideal S1x1024x512 .f32 :=
  shapeCast S1x1024x512
    (addf (matmul dot_S1024x512_S512x512_S1024x512_1_1_0_0_n_n none
        (concatenate S1024x512 1 [⟨S1024x64, p0⟩, ⟨S1024x64, p1⟩, ⟨S1024x64, p2⟩, ⟨S1024x64, p3⟩, ⟨S1024x64, p4⟩,
          ⟨S1024x64, p5⟩, ⟨S1024x64, p6⟩, ⟨S1024x64, p7⟩]
          concatenates_S1024x64_S1024x64_S1024x64_S1024x64_S1024x64_S1024x64_S1024x64_S1024x64_S1024x512_d1)
        (shapeCast S512x512 w shapeCasts_S512x512_S512x512 : FVec Ideal S512x512 .bf16) (constant S1024x512 .f32 0x00000000#32))
      (broadcastTo S1024x512 (shapeCast S1x512 b shapeCasts_S1x512_S1x512 : FVec Ideal S1x512 .f32) broadcasts_S1x512_S1024x512))
    shapeCasts_S1024x512_S1x1024x512

/-- With the eight pieces known entry by entry as g h n e, the tail at (0, n, c) is
    Σ_j g (j / 64) n (j % 64) · w c j + b c. -/
theorem tailV_apply (p0 p1 p2 p3 p4 p5 p6 p7 : FVec Ideal S1024x64 .bf16) (w : Vec Ideal S512x512 .bf16) (b : Vec Ideal S1x512 .f32)
    (g : Fin 8 → Fin 1024 → Fin 64 → EReal)
    (h0 : ∀ n e, p0 (ix2 n e) = g 0 n e) (h1 : ∀ n e, p1 (ix2 n e) = g 1 n e)
    (h2 : ∀ n e, p2 (ix2 n e) = g 2 n e) (h3 : ∀ n e, p3 (ix2 n e) = g 3 n e)
    (h4 : ∀ n e, p4 (ix2 n e) = g 4 n e) (h5 : ∀ n e, p5 (ix2 n e) = g 5 n e)
    (h6 : ∀ n e, p6 (ix2 n e) = g 6 n e) (h7 : ∀ n e, p7 (ix2 n e) = g 7 n e)
    (n : Fin 1024) (c : Fin 512) :
    tailV p0 p1 p2 p3 p4 p5 p6 p7 w b (ix3 (0 : Fin 1) n c)
      = (∑ j : Fin 512, g (Cert.Spec.hOf j) n (Cert.Spec.eOf j) * w (ix2 c j)) + b (ix2 (0 : Fin 1) c) := by
  unfold tailV
  rw [shapeCast_ab_1ab_apply]
  show matmul dot_S1024x512_S512x512_S1024x512_1_1_0_0_n_n none _ _ _ (ix2 n c) + broadcastTo S1024x512 _ _ (ix2 n c) = _
  rw [matmul_proj_apply, broadcastTo_1b_ab_apply, shapeCast_self, shapeCast_self]
  refine congrArg (· + b (ix2 (0 : Fin 1) c)) (Finset.sum_congr rfl fun j _ => ?_)
  rw [concat8_apply p0 p1 p2 p3 p4 p5 p6 p7 _ g h0 h1 h2 h3 h4 h5 h6 h7 n j]

/-! ## Each head's payloads are the one head chain at its offset -/

section
variable (Q K V : FVec Ideal S1024x512 .bf16) (C : FVec Ideal S1024x512 .f32)

theorem pay10_eq : k1_pay10 Q K C (Scalar.ofBits .f32 0x40800000#32) (k1_pay8 (F := Ideal))
    = headV Q K (k1_pay9 C (Scalar.ofBits .f32 0x40800000#32) (k1_pay8 (F := Ideal))) 0 slices_S1024x512_o0_0_S1024x64 := rfl

theorem pay13_eq : k1_pay13 (k1_pay11 Q K C (Scalar.ofBits .f32 0x40800000#32) (k1_pay8 (F := Ideal))) (k1_pay12 (F := Ideal))
    = headV Q K (k1_pay9 C (Scalar.ofBits .f32 0x40800000#32) (k1_pay8 (F := Ideal))) 64 slices_S1024x512_o0_64_S1024x64 := rfl

theorem pay14_eq : k1_pay14 Q K V = headV Q K V 128 slices_S1024x512_o0_128_S1024x64 := rfl

theorem pay17_eq : k1_pay17 (k1_pay15 V) (k1_pay16 Q K) = headV Q K V 192 slices_S1024x512_o0_192_S1024x64 := rfl

theorem pay18_eq : k1_pay18 Q K V = headV Q K V 256 slices_S1024x512_o0_256_S1024x64 := rfl

theorem pay21_eq : k1_pay21 (k1_pay19 V) (k1_pay20 Q K) (Scalar.ofBits .f32 0x3F000000#32)
    = headV Q K V 320 slices_S1024x512_o0_320_S1024x64 := rfl

theorem pay22_eq : k1_pay22 Q K V = headV Q K V 384 slices_S1024x512_o0_384_S1024x64 := rfl

theorem pay1_eq (p0 p1 p2 p3 p4 p5 p6 : FVec Ideal S1024x64 .bf16) (w : Vec Ideal S512x512 .bf16) (b : Vec Ideal S1x512 .f32) :
    k1_pay1 p0 p1 p2 p3 p4 p5 p6 (k1_pay23 V) (k1_pay24 Q K) (Scalar.ofBits .f32 0x40800000#32) (k1_pay25 (F := Ideal)) w b
      = tailV p0 p1 p2 p3 p4 p5 p6 (headV Q K V 448 slices_S1024x512_o0_448_S1024x64) w b := rfl
end

/-! ## The output block -/

theorem hz3 : (![0, 0, 0] : Fin 3 → Nat) = fun _ => 0 := funext fun a => by fin_cases a <;> rfl
theorem hz2 : (![0, 0] : Fin 2 → Nat) = fun _ => 0 := funext fun a => by fin_cases a <;> rfl

/-- What the body leaves in the output block: the tail of the eight heads of the three spiked sections. -/
theorem out1_5_eq (x0 : Vec Ideal S1x1024x1536 .f32) (x1 x2 : Vec Ideal S1x1536 .f32) (x3 : Vec Ideal S512x512 .bf16)
    (x4 : Vec Ideal S1x512 .f32) :
    Gen.out1_5 (F := Ideal) x0 x1 x2 x3 x4
      = tailV
          (headV (secV x0 x1 x2 0 slices_S1024x1536_o0_0_S1024x512 slices_S1x1536_o0_0_S1x512)
            (secV x0 x1 x2 512 slices_S1024x1536_o0_512_S1024x512 slices_S1x1536_o0_512_S1x512)
            (secV x0 x1 x2 1024 slices_S1024x1536_o0_1024_S1024x512 slices_S1x1536_o0_1024_S1x512) 0 slices_S1024x512_o0_0_S1024x64)
          (headV (secV x0 x1 x2 0 slices_S1024x1536_o0_0_S1024x512 slices_S1x1536_o0_0_S1x512)
            (secV x0 x1 x2 512 slices_S1024x1536_o0_512_S1024x512 slices_S1x1536_o0_512_S1x512)
            (secV x0 x1 x2 1024 slices_S1024x1536_o0_1024_S1024x512 slices_S1x1536_o0_1024_S1x512) 64 slices_S1024x512_o0_64_S1024x64)
          (headV (secV x0 x1 x2 0 slices_S1024x1536_o0_0_S1024x512 slices_S1x1536_o0_0_S1x512)
            (secV x0 x1 x2 512 slices_S1024x1536_o0_512_S1024x512 slices_S1x1536_o0_512_S1x512)
            (secV x0 x1 x2 1024 slices_S1024x1536_o0_1024_S1024x512 slices_S1x1536_o0_1024_S1x512) 128 slices_S1024x512_o0_128_S1024x64)
          (headV (secV x0 x1 x2 0 slices_S1024x1536_o0_0_S1024x512 slices_S1x1536_o0_0_S1x512)
            (secV x0 x1 x2 512 slices_S1024x1536_o0_512_S1024x512 slices_S1x1536_o0_512_S1x512)
            (secV x0 x1 x2 1024 slices_S1024x1536_o0_1024_S1024x512 slices_S1x1536_o0_1024_S1x512) 192 slices_S1024x512_o0_192_S1024x64)
          (headV (secV x0 x1 x2 0 slices_S1024x1536_o0_0_S1024x512 slices_S1x1536_o0_0_S1x512)
            (secV x0 x1 x2 512 slices_S1024x1536_o0_512_S1024x512 slices_S1x1536_o0_512_S1x512)
            (secV x0 x1 x2 1024 slices_S1024x1536_o0_1024_S1024x512 slices_S1x1536_o0_1024_S1x512) 256 slices_S1024x512_o0_256_S1024x64)
          (headV (secV x0 x1 x2 0 slices_S1024x1536_o0_0_S1024x512 slices_S1x1536_o0_0_S1x512)
            (secV x0 x1 x2 512 slices_S1024x1536_o0_512_S1024x512 slices_S1x1536_o0_512_S1x512)
            (secV x0 x1 x2 1024 slices_S1024x1536_o0_1024_S1024x512 slices_S1x1536_o0_1024_S1x512) 320 slices_S1024x512_o0_320_S1024x64)
          (headV (secV x0 x1 x2 0 slices_S1024x1536_o0_0_S1024x512 slices_S1x1536_o0_0_S1x512)
            (secV x0 x1 x2 512 slices_S1024x1536_o0_512_S1024x512 slices_S1x1536_o0_512_S1x512)
            (secV x0 x1 x2 1024 slices_S1024x1536_o0_1024_S1024x512 slices_S1x1536_o0_1024_S1x512) 384 slices_S1024x512_o0_384_S1024x64)
          (headV (secV x0 x1 x2 0 slices_S1024x1536_o0_0_S1024x512 slices_S1x1536_o0_0_S1x512)
            (secV x0 x1 x2 512 slices_S1024x1536_o0_512_S1024x512 slices_S1x1536_o0_512_S1x512)
            (secV x0 x1 x2 1024 slices_S1024x1536_o0_1024_S1024x512 slices_S1x1536_o0_1024_S1x512) 448 slices_S1024x512_o0_448_S1024x64)
          x3 x4 := by
  unfold Gen.out1_5
  rw [View.canon_unit_zero hz3,
    View.ld_unit_zero (Val := Elt Ideal) (S := S1x1024x1536) (e := .f32) hz3 inb_S1x1024x1536_S1x1024x1536_0_0_0 x0,
    View.ld_unit_zero (Val := Elt Ideal) (S := S1x1536) (e := .f32) hz2 inb_S1x1536_S1x1536_0_0 x1,
    View.ld_unit_zero (Val := Elt Ideal) (S := S1x1536) (e := .f32) hz2 inb_S1x1536_S1x1536_0_0 x2,
    View.ld_unit_zero (Val := Elt Ideal) (S := S512x512) (e := .bf16) hz2 inb_S512x512_S512x512_0_0 x3,
    View.ld_unit_zero (Val := Elt Ideal) (S := S1x512) (e := .f32) hz2 inb_S1x512_S1x512_0_0 x4]
  rw [pay1_eq, pay10_eq, pay13_eq, pay14_eq, pay17_eq, pay18_eq, pay21_eq, pay22_eq, pay9_eq, pay5_eq, pay6_eq]

/-- **The second kernel's body at an index**: the output block at (0, n, c) is one batch element's attention of
    the spiked activations spk (x · scale + shift), the projection weights and the bias row. -/
theorem out1_5_apply (x0 : Vec Ideal S1x1024x1536 .f32) (x1 x2 : Vec Ideal S1x1536 .f32) (x3 : Vec Ideal S512x512 .bf16)
    (x4 : Vec Ideal S1x512 .f32) (n : Fin 1024) (c : Fin 512) :
    Cert.KernelIdeal.Gen.out1_5 (F := Ideal) x0 x1 x2 x3 x4 (ValueIdx.ix3 (0 : Fin 1) n c)
      = Cert.Spec.attnRow
          (fun n d => Cert.Spec.spk (x0 (ValueIdx.ix3 (0 : Fin 1) n d) * x1 (ValueIdx.ix2 (0 : Fin 1) d)
            + x2 (ValueIdx.ix2 (0 : Fin 1) d)))
          (fun c j => x3 (ValueIdx.ix2 c j)) (fun c => x4 (ValueIdx.ix2 (0 : Fin 1) c)) n c := by
  rw [out1_5_eq]
  refine (tailV_apply _ _ _ _ _ _ _ _ x3 x4 (fun h n e => Cert.Spec.headRow (zf x0 x1 x2) h n e)
    (fun n e => headV_sec x0 x1 x2 0 0 rfl _ n e) (fun n e => headV_sec x0 x1 x2 1 64 rfl _ n e)
    (fun n e => headV_sec x0 x1 x2 2 128 rfl _ n e) (fun n e => headV_sec x0 x1 x2 3 192 rfl _ n e)
    (fun n e => headV_sec x0 x1 x2 4 256 rfl _ n e) (fun n e => headV_sec x0 x1 x2 5 320 rfl _ n e)
    (fun n e => headV_sec x0 x1 x2 6 384 rfl _ n e) (fun n e => headV_sec x0 x1 x2 7 448 rfl _ n e) n c).trans ?_
  rfl

end Cert.KernelIdeal.K1Value

end
-- ==== Proof.R1Value.lean ====
/-
  The second region's result array after its four grid points, on the extended reals: batch element b, token n,
  channel j is one batch element's attention (Spec.attnRow) of the spiked normalised activations of batch b — from
  the arrays the region finds —, the projection weights and the bias row. Each grid point t handles batch t.
-/
import proofs.«103527_j53025666236638_2_alg».proof.Proof.K1Value
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.R1

open Cert.KernelIdeal Cert.KernelIdeal.Gen

open Idealize.ShloMosaic.ValueIdx
open scoped BigOperators

variable (V : (c : Dev nD) → (b : Ref sig .tc) → Buf (Elt Ideal) ((c : Thread nD τ).loc b))

/-- The block index maps over the grid: batch t for the activations and the result, the whole of every other array. -/
theorem idx_facts1 : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = t.val ∧ win1_5.index t (1 : Fin 3) = 0 ∧ win1_5.index t (2 : Fin 3) = 0 :=
  (by decide +kernel : ∀ t : Fin grid1.N, _)

theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt

/-- Token n, channel d of the activation block at point t is batch t of the activation array. -/
theorem iblk1_0_apply (c : Dev nD) (t : Fin cfg1.N) (n : Fin 1024) (d : Fin 1536) (b : Fin 4) (hb : b.val = t.val) :
    (iblk1 V c 0 t : Vec Ideal S1x1024x1536 .f32) (ix3 (0 : Fin 1) n d) = V c main_v20 (ix3 b n d) := by
  unfold iblk1
  rw [View.read_apply]
  show V c main_v20 _ = V c main_v20 _
  congr 1
  funext a
  apply Fin.ext
  obtain ⟨e0, e1, e2, -⟩ := idx_facts1 t
  match a with
  | ⟨0, _⟩ => show win1_0.index t (0 : Fin 3) * 1 + 1 * 0 = b.val; rw [e0]; omega
  | ⟨1, _⟩ => show win1_0.index t (1 : Fin 3) * 1024 + 1 * n.val = n.val; rw [e1]; omega
  | ⟨2, _⟩ => show win1_0.index t (2 : Fin 3) * 1536 + 1 * d.val = d.val; rw [e2]; omega

/-- The scale row at every point is the scale array. -/
theorem iblk1_1_apply (c : Dev nD) (t : Fin cfg1.N) (d : Fin 1536) :
    (iblk1 V c 1 t : Vec Ideal S1x1536 .f32) (ix2 (0 : Fin 1) d) = V c main_v23 (ix2 (0 : Fin 1) d) := by
  unfold iblk1
  rw [View.read_apply]
  show V c main_v23 _ = V c main_v23 _
  congr 1
  funext a
  apply Fin.ext
  obtain ⟨-, -, -, e0, e1, -⟩ := idx_facts1 t
  match a with
  | ⟨0, _⟩ => show win1_1.index t (0 : Fin 2) * 1 + 1 * 0 = 0; rw [e0]
  | ⟨1, _⟩ => show win1_1.index t (1 : Fin 2) * 1536 + 1 * d.val = d.val; rw [e1]; omega

/-- The shift row at every point is the shift array. -/
theorem iblk1_2_apply (c : Dev nD) (t : Fin cfg1.N) (d : Fin 1536) :
    (iblk1 V c 2 t : Vec Ideal S1x1536 .f32) (ix2 (0 : Fin 1) d) = V c main_v24 (ix2 (0 : Fin 1) d) := by
  unfold iblk1
  rw [View.read_apply]
  show V c main_v24 _ = V c main_v24 _
  congr 1
  funext a
  apply Fin.ext
  obtain ⟨-, -, -, -, -, e0, e1, -⟩ := idx_facts1 t
  match a with
  | ⟨0, _⟩ => show win1_2.index t (0 : Fin 2) * 1 + 1 * 0 = 0; rw [e0]
  | ⟨1, _⟩ => show win1_2.index t (1 : Fin 2) * 1536 + 1 * d.val = d.val; rw [e1]; omega

/-- The projection block at every point is the projection array. -/
theorem iblk1_3_apply (c : Dev nD) (t : Fin cfg1.N) (p k : Fin 512) :
    (iblk1 V c 3 t : Vec Ideal S512x512 .bf16) (ix2 p k) = V c main_v21 (ix2 p k) := by
  unfold iblk1
  rw [View.read_apply]
  show V c main_v21 _ = V c main_v21 _
  congr 1
  funext a
  apply Fin.ext
  obtain ⟨-, -, -, -, -, -, -, e0, e1, -⟩ := idx_facts1 t
  match a with
  | ⟨0, _⟩ => show win1_3.index t (0 : Fin 2) * 512 + 1 * p.val = p.val; rw [e0]; omega
  | ⟨1, _⟩ => show win1_3.index t (1 : Fin 2) * 512 + 1 * k.val = k.val; rw [e1]; omega

/-- The bias row at every point is the bias array. -/
theorem iblk1_4_apply (c : Dev nD) (t : Fin cfg1.N) (p : Fin 512) :
    (iblk1 V c 4 t : Vec Ideal S1x512 .f32) (ix2 (0 : Fin 1) p) = V c main_v22 (ix2 (0 : Fin 1) p) := by
  unfold iblk1
  rw [View.read_apply]
  show V c main_v22 _ = V c main_v22 _
  congr 1
  funext a
  apply Fin.ext
  obtain ⟨-, -, -, -, -, -, -, -, -, e0, e1, -⟩ := idx_facts1 t
  match a with
  | ⟨0, _⟩ => show win1_4.index t (0 : Fin 2) * 1 + 1 * 0 = 0; rw [e0]
  | ⟨1, _⟩ => show win1_4.index t (1 : Fin 2) * 512 + 1 * p.val = p.val; rw [e1]; omega

/-! ## The result array after the region -/

/-- The attention depends on its three arguments only through their entries. -/
theorem attnRow_congr {z z' : Fin 1024 → Fin 1536 → EReal} {P P' : Fin 512 → Fin 512 → EReal} {bp bp' : Fin 512 → EReal}
    (hz : ∀ n d, z n d = z' n d) (hP : ∀ p k, P p k = P' p k) (hb : ∀ p, bp p = bp' p) (n : Fin 1024) (j : Fin 512) :
    Cert.Spec.attnRow z P bp n j = Cert.Spec.attnRow z' P' bp' n j := by
  have e1 : z = z' := funext fun n => funext fun d => hz n d
  have e2 : P = P' := funext fun p => funext fun k => hP p k
  have e3 : bp = bp' := funext fun p => hb p
  rw [e1, e2, e3]

/-- Batch b's spiked normalised activations, from the arrays the region finds. -/
def zb (c : Dev nD) (b : Fin 4) (n : Fin 1024) (d : Fin 1536) : EReal :=
  Cert.Spec.spk (HAdd.hAdd (α := EReal) (β := EReal) (γ := EReal)
    (HMul.hMul (α := EReal) (β := EReal) (γ := EReal) (V c main_v20 (ix3 b n d)) (V c main_v23 (ix2 (0 : Fin 1) d)))
    (V c main_v24 (ix2 (0 : Fin 1) d)))

/-- The result array: entry (b, n, j) is batch b's attention at token n, channel j. -/
def G5 (c : Dev nD) : S4x1024x512.Idx → EReal :=
  fun i => Cert.Spec.attnRow (zb V c ⟨(i 0).val, idx3_lt0 i⟩) (fun p k => V c main_v21 (ix2 p k))
    (fun p => V c main_v22 (ix2 (0 : Fin 1) p)) ⟨(i 1).val, idx3_lt1 i⟩ ⟨(i 2).val, idx3_lt2 i⟩

/-- The result block a point writes back is its block of the attention. -/
theorem flushed5_eq (c : Dev nD) (t : Fin cfg1.N) :
    (dat1 V c).flushed 5 t = ((cfg1.win 5).blk t).view.read (Elt Ideal) (G5 V c) := by
  show (cfg1.win 5).cut (grid1.coords t) ((dat1 V c).after 5 t) = _
  rw [after1_5]
  funext j
  show out1_5 (F := Ideal) (iblk1 V c 0 t) (iblk1 V c 1 t) (iblk1 V c 2 t) (iblk1 V c 3 t) (iblk1 V c 4 t) j
    = G5 V c (((cfg1.win 5).blk t).view.emb j)
  obtain ⟨u, n, p, rfl⟩ : ∃ (u : Fin 1) (n : Fin 1024) (p : Fin 512), j = ix3 u n p := ⟨j 0, j 1, j 2, eq_ix3 j⟩
  obtain rfl : u = 0 := Fin.ext (by omega)
  have hN : cfg1.N = 4 := N_1
  have ht : t.val < 4 := lt_of_lt_of_eq t.isLt hN
  obtain ⟨-, -, -, -, -, -, -, -, -, -, -, e0, e1, e2⟩ := idx_facts1 t
  refine (K1Value.out1_5_apply _ _ _ _ _ n p).trans ?_
  unfold G5
  have eb : (⟨((((cfg1.win 5).blk t).view.emb (ix3 (0 : Fin 1) n p)) 0).val, idx3_lt0 _⟩ : Fin 4) = ⟨t.val, ht⟩ := by
    apply Fin.ext
    show win1_5.index t (0 : Fin 3) * 1 + 1 * 0 = t.val
    rw [e0]; omega
  have en : (⟨((((cfg1.win 5).blk t).view.emb (ix3 (0 : Fin 1) n p)) 1).val, idx3_lt1 _⟩ : Fin 1024) = n := by
    apply Fin.ext
    show win1_5.index t (1 : Fin 3) * 1024 + 1 * n.val = n.val
    rw [e1]; omega
  have ep : (⟨((((cfg1.win 5).blk t).view.emb (ix3 (0 : Fin 1) n p)) 2).val, idx3_lt2 _⟩ : Fin 512) = p := by
    apply Fin.ext
    show win1_5.index t (2 : Fin 3) * 512 + 1 * p.val = p.val
    rw [e2]; omega
  rw [eb, en, ep]
  refine attnRow_congr (fun n d => ?_) (fun q k => ?_) (fun q => ?_) n p
  · beta_reduce
    unfold zb
    rw [iblk1_0_apply V c t n d ⟨t.val, ht⟩ rfl, iblk1_1_apply V c t d, iblk1_2_apply V c t d]
    try rfl
  · beta_reduce
    rw [iblk1_3_apply V c t q k]
  · beta_reduce
    rw [iblk1_4_apply V c t q]

/-- An index of the result array is in point t's block iff its batch is t. -/
theorem mem_blk5 (t : Fin cfg1.N) (i : S4x1024x512.Idx) :
    i ∈ ((cfg1.win 5).blk t).view.set ↔ ∀ a : Fin 3, win1_5.index t a * S1x1024x512.size a ≤ (i a).val
      ∧ (i a).val < win1_5.index t a * S1x1024x512.size a + S1x1024x512.size a := by
  show i ∈ ((View.whole main_v25).slice (win1_5.rect t)).set ↔ _
  rw [View.set_slice_whole, Rect.mem_set_unit]
  exact Iff.rfl

/-- The result array after the region. -/
theorem arr5 (c : Dev nD) : (dat1 V c).arrAt 5 cfg1.N = G5 V c :=
  (dat1 V c).arrAt_eq_of_cover 5 (G5 V c) (fun t _ => flushed5_eq V c t) fun i => by
    have hN : cfg1.N = 4 := N_1
    have hi0 : (i 0).val < 4 := (i 0).isLt
    have hi1 : (i 1).val < 1024 := (i 1).isLt
    have hi2 : (i 2).val < 512 := (i 2).isLt
    refine ⟨⟨(i 0).val, by rw [hN]; exact hi0⟩, flush1_5 _, ?_⟩
    rw [mem_blk5]
    obtain ⟨-, -, -, -, -, -, -, -, -, -, -, e0, e1, e2⟩ := idx_facts1 ⟨(i 0).val, by rw [hN]; exact hi0⟩
    intro a
    match a with
    | ⟨0, _⟩ =>
      show win1_5.index _ (0 : Fin 3) * 1 ≤ (i 0).val ∧ (i 0).val < win1_5.index _ (0 : Fin 3) * 1 + 1
      rw [e0]; dsimp only; omega
    | ⟨1, _⟩ =>
      show win1_5.index _ (1 : Fin 3) * 1024 ≤ (i 1).val ∧ (i 1).val < win1_5.index _ (1 : Fin 3) * 1024 + 1024
      rw [e1]; omega
    | ⟨2, _⟩ =>
      show win1_5.index _ (2 : Fin 3) * 512 ≤ (i 2).val ∧ (i 2).val < win1_5.index _ (2 : Fin 3) * 512 + 512
      rw [e2]; omega

/-- **The second region's result**, entry by entry. -/
theorem arr5_apply (c : Dev nD) (b : Fin 4) (n : Fin 1024) (j : Fin 512) :
    (Gen.dat1 V c).arrAt 5 cfg1.N (ValueIdx.ix3 b n j)
      = Cert.Spec.attnRow
          (fun n d => Cert.Spec.spk (HAdd.hAdd (α := EReal) (β := EReal) (γ := EReal)
            (HMul.hMul (α := EReal) (β := EReal) (γ := EReal) (V c main_v20 (ValueIdx.ix3 b n d)) (V c main_v23 (ValueIdx.ix2 (0 : Fin 1) d)))
            (V c main_v24 (ValueIdx.ix2 (0 : Fin 1) d))))
          (fun c' k => V c main_v21 (ValueIdx.ix2 c' k)) (fun c' => V c main_v22 (ValueIdx.ix2 (0 : Fin 1) c')) n j := by
  rw [arr5]
  rfl

end Cert.KernelIdeal.R1

end
-- ==== Proof.KValue.lean ====
/-
  The kernel's result array on the extended reals, as a function of its argument arrays:
  entry (b, n, j) is the attention of batch b over the spiked activations y · scale + shift, where y is the
  projection of the spiked tokens and scale, shift come from the batch statistics the first region accumulates
  tile by tile (eight tiles of 512 rows are the same 4096 rows as four batches of 1024).
-/
import proofs.«103527_j53025666236638_2_alg».proof.Proof.Gen.KernelIdeal.Frame
import Idealize.ShloMosaic.Lib.Pipeline.Value
import Idealize.ShloMosaic.Lib.Tactic
import proofs.«103527_j53025666236638_2_alg».proof.Proof.R0Value
import proofs.«103527_j53025666236638_2_alg».proof.Proof.KHost
import proofs.«103527_j53025666236638_2_alg».proof.Proof.TileSums
import proofs.«103527_j53025666236638_2_alg».proof.Proof.KHostRead
import proofs.«103527_j53025666236638_2_alg».proof.Proof.R1Value
set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen

open Idealize.ShloMosaic.ValueIdx Cert.KernelIdeal.R0 Cert.KernelIdeal.KHost
open scoped BigOperators

variable (m : (ℓ : Loc nD τ sig) → Buf (Elt Ideal) ℓ) (ρ : Dev nD → PrngReg)

/-- The argument arrays by coordinates. -/
abbrev xf (c : Dev nD) : Fin 4 → Fin 1024 → Fin 512 → EReal := fun b n k => m ((c : Thread nD τ).loc main_arg0) (ix3 b n k)
abbrev wf (c : Dev nD) : Fin 1536 → Fin 512 → EReal := fun d k => m ((c : Thread nD τ).loc main_arg1) (ix2 d k)
abbrev gf (c : Dev nD) : Fin 1536 → EReal := fun d => m ((c : Thread nD τ).loc main_arg2) (ix1 d)
abbrev bf (c : Dev nD) : Fin 1536 → EReal := fun d => m ((c : Thread nD τ).loc main_arg3) (ix1 d)
abbrev pf (c : Dev nD) : Fin 512 → Fin 512 → EReal := fun j k => m ((c : Thread nD τ).loc main_arg4) (ix2 j k)
abbrev bpf (c : Dev nD) : Fin 512 → EReal := fun j => m ((c : Thread nD τ).loc main_arg5) (ix1 j)

/-- The tokens flattened to [4096, 512]: row 1024 b + n is token (b, n). -/
theorem flat_apply {α : Type} (x : S4x1024x512.Idx → α) (b : Fin 4) (n : Fin 1024) (k : Fin 512) (r : Fin 4096)
    (hr : r.val = 1024 * b.val + n.val) :
    shapeCast S4096x512 x shapeCasts_S4x1024x512_S4096x512 (ix2 r k) = x (ix3 b n k) :=
  shapeCast_apply x _ _ _ (by
    rw [Shape.rowMajor_val_three, Shape.rowMajor_val_two]
    show (b.val * 1024 + n.val) * 512 + k.val = r.val * 512 + k.val
    omega)

/-- The product array viewed as [4, 1024, 1536]: entry (b, n, d) is row 1024 b + n. -/
theorem unflat_apply {α : Type} (x : S4096x1536.Idx → α) (b : Fin 4) (n : Fin 1024) (d : Fin 1536) (r : Fin 4096)
    (hr : r.val = 1024 * b.val + n.val) :
    shapeCast S4x1024x1536 x shapeCasts_S4096x1536_S4x1024x1536 (ix3 b n d) = x (ix2 r d) :=
  shapeCast_apply x _ _ _ (by
    rw [Shape.rowMajor_val_three, Shape.rowMajor_val_two]
    show r.val * 1536 + d.val = (b.val * 1024 + n.val) * 1536 + d.val
    omega)

/-- The projection of row 1024 b + n, from the arrays the first region finds, is Y of the arguments. -/
theorem yflat_eq (c : Dev nD) (b : Fin 4) (n : Fin 1024) (d : Fin 1536) (r : Fin 4096) (hr : r.val = 1024 * b.val + n.val) :
    yflat (V1 m ρ) c r d = Cert.Spec.Y (xf m c) (wf m c) b n d := by
  unfold yflat Cert.Spec.Y
  refine Finset.sum_congr rfl fun k _ => ?_
  rw [v1_v0, v1_arg1, flat_apply _ b n k r hr]

/-- Tile s's column sums are the sums of the projection over rows 512 s … 512 s + 511. -/
theorem colM1_eq (c : Dev nD) (s : ℕ) (hs : s < 8) (d : Fin 1536) :
    colM1 (V1 m ρ) c s d = ∑ i : Fin 512, yflat (V1 m ρ) c ⟨512 * s + i.val, by have := i.isLt; omega⟩ d := by
  have hN : cfg0.N = 8 := N_0
  unfold colM1
  rw [dif_pos (by rw [hN]; exact hs)]
  refine Finset.sum_congr rfl fun i _ => ?_
  exact tile_apply (V1 m ρ) c ⟨s, by rw [hN]; exact hs⟩ i d ⟨512 * s + i.val, by have := i.isLt; omega⟩ rfl

theorem colM2_eq (c : Dev nD) (s : ℕ) (hs : s < 8) (d : Fin 1536) :
    colM2 (V1 m ρ) c s d = ∑ i : Fin 512, yflat (V1 m ρ) c ⟨512 * s + i.val, by have := i.isLt; omega⟩ d
      * yflat (V1 m ρ) c ⟨512 * s + i.val, by have := i.isLt; omega⟩ d := by
  have hN : cfg0.N = 8 := N_0
  unfold colM2
  rw [dif_pos (by rw [hN]; exact hs)]
  refine Finset.sum_congr rfl fun i _ => ?_
  rw [tile_apply (V1 m ρ) c ⟨s, by rw [hN]; exact hs⟩ i d ⟨512 * s + i.val, by have := i.isLt; omega⟩ rfl]

/-- Row 0 of the sums array the first region leaves is the channel sum over all rows. -/
theorem s1_row0 (c : Dev nD) (d : Fin 1536) :
    (W2 m ρ c (Proc.devRef .tc main_v1_1) : S8x1536.Idx → EReal) (ix2 (0 : Fin 8) d)
      = Cert.Spec.S1 (Cert.Spec.Y (xf m c) (wf m c)) d := by
  rw [w2_v1_1, arr3 (V1 m ρ) c, (stats_eq (V1 m ρ) c 7 h7 0 d).1,
    Cert.Spec.tiles_S1 (fun r d => yflat (V1 m ρ) c r d) (colM1 (V1 m ρ) c) (colM1_eq m ρ c) d]
  congr 1
  funext b n d
  exact yflat_eq m ρ c b n d _ rfl

/-- Row 0 of the squares array is the channel sum of squares over all rows. -/
theorem s2_row0 (c : Dev nD) (d : Fin 1536) :
    (W2 m ρ c (Proc.devRef .tc main_v1_2) : S8x1536.Idx → EReal) (ix2 (0 : Fin 8) d)
      = Cert.Spec.S2 (Cert.Spec.Y (xf m c) (wf m c)) d := by
  rw [w2_v1_2, arr4 (V1 m ρ) c, (stats_eq (V1 m ρ) c 7 h7 0 d).2,
    Cert.Spec.tiles_S2 (fun r d => yflat (V1 m ρ) c r d) (colM2 (V1 m ρ) c) (colM2_eq m ρ c) d]
  congr 1
  funext b n d
  exact yflat_eq m ρ c b n d _ rfl

/-- The product array the second region finds is Y of the arguments. -/
theorem v20_apply (c : Dev nD) (b : Fin 4) (n : Fin 1024) (d : Fin 1536) :
    (V3 m ρ c main_v20 : S4x1024x1536.Idx → EReal) (ix3 b n d) = Cert.Spec.Y (xf m c) (wf m c) b n d := by
  have hb := b.isLt; have hn := n.isLt
  rw [v3_v20, unflat_apply _ b n d ⟨1024 * b.val + n.val, by omega⟩ rfl, w2_v1_0, arr2 (V1 m ρ) c]
  unfold G2
  exact yflat_eq m ρ c b n d _ rfl

/-- The scale row the second region finds is the specification's scale of the arguments. -/
theorem v23_apply (c : Dev nD) (d : Fin 1536) :
    (V3 m ρ c main_v23 : S1x1536.Idx → EReal) (ix2 (0 : Fin 1) d)
      = Cert.Spec.scaleK (Cert.Spec.Y (xf m c) (wf m c)) (gf m c) d := by
  rw [v3_v23, shapeCast_a_1a_apply, w2_arg2]
  exact scaleT_spec (Cert.Spec.Y (xf m c) (wf m c)) _ _ _ d (s1_row0 m ρ c d) (s2_row0 m ρ c d)

/-- The shift row the second region finds is the specification's shift of the arguments. -/
theorem v24_apply (c : Dev nD) (d : Fin 1536) :
    (V3 m ρ c main_v24 : S1x1536.Idx → EReal) (ix2 (0 : Fin 1) d)
      = Cert.Spec.shiftK (Cert.Spec.Y (xf m c) (wf m c)) (gf m c) (bf m c) d := by
  rw [v3_v24, shapeCast_a_1a_apply, w2_arg2, w2_arg3]
  exact shiftT_spec (Cert.Spec.Y (xf m c) (wf m c)) _ _ _ _ d (s1_row0 m ρ c d) (s2_row0 m ρ c d)

/-- The projection weight the second region finds is the argument. -/
theorem v21_apply (c : Dev nD) (j k : Fin 512) :
    (V3 m ρ c main_v21 : S512x512.Idx → EReal) (ix2 j k) = pf m c j k := by
  rw [v3_v21, w2_arg4]

/-- The bias row the second region finds is the argument. -/
theorem v22_apply (c : Dev nD) (j : Fin 512) :
    (V3 m ρ c main_v22 : S1x512.Idx → EReal) (ix2 (0 : Fin 1) j) = bpf m c j := by
  rw [v3_v22, shapeCast_a_1a_apply, w2_arg5]

/-- THE RESULT: entry (b, n, j) of the result array is the attention over the kernel's spiked activations. -/
theorem result_apply (c : Dev nD) (b : Fin 4) (n : Fin 1024) (j : Fin 512) :
    (W4 m ρ c (Proc.devRef .tc main_v25) : S4x1024x512.Idx → EReal) (ix3 b n j)
      = Cert.Spec.attn (Cert.Spec.zK (xf m c) (wf m c) (gf m c) (bf m c)) (pf m c) (bpf m c) b n j := by
  rw [show W4 m ρ c (Proc.devRef .tc main_v25) = (dat1 (V3 m ρ) c).arrAt 5 cfg1.N from W4_arr m ρ c 5,
    Cert.KernelIdeal.R1.arr5_apply (V3 m ρ) c b n j]
  unfold Cert.Spec.attn
  refine Cert.KernelIdeal.R1.attnRow_congr (fun n d => ?_) (fun p k => v21_apply m ρ c p k) (fun p => v22_apply m ρ c p) n j
  show Cert.Spec.spk (_ * _ + _) = Cert.Spec.spk (Cert.Spec.linK _ _ _ b n d)
  rw [v20_apply, v23_apply, v24_apply]
  rfl

end Cert.KernelIdeal.KValue

end
-- ==== Proof.RefTerm.lean ====
/-
  The value the reference program computes, as a pure function of its six argument arrays over the
  extended reals, written as a chain of small definitions, one per stage, each with exactly the operations
  and constants of the printed program.

  x : [4, 1024, 512], W : [1536, 512], γ β : [1536], P : [512, 512], bp : [512].
  spike v = floor (min 4 (max 0 v) + 1/2), elementwise on an array of any shape.
  qkv = spike x · Wᵀ; mean and var are the per-channel batch statistics over the 4·1024 rows
  (var divides the sum of squared deviations by 4096 − 0 and keeps it where 4096 − 0 > 0);
  normed = ((qkv − mean) · rsqrt (var + ε)) · γ + β; qT splits the 1536 channels as 3 × 8 × 64 and moves
  the split and head axes outward; qS, kS, vS are the spiked q, k, v blocks; scores = spike (qS · kSᵀ);
  heads = spike ((scores · vS) · 1/8) with the heads laid side by side; the result is heads · Pᵀ + bp.
-/
import proofs.«103527_j53025666236638_2_alg».proof.ReferenceIdeal
import Idealize.ShloMosaic.PureOps.Ideal

noncomputable section

namespace Cert.ReferenceIdeal.RefTerm

open Cert.ReferenceIdeal Idealize.ShloMosaic Idealize.SL.Sem

variable [Facts]
open Facts₀ Facts

/-- A scalar constant spread over an array of shape S. -/
def splat (S : Shape) (hb : S_.BroadcastsInDim S (![] : Fin 0 → Fin S.rank)) (w : BitVec 32) : FVec Ideal S .f32 :=
  broadcastInDim S ![] hb (constant (F := Ideal) S_ .f32 w)

/-- min 4 (max 0 v), elementwise. -/
def clip (S : Shape) (hb : S_.BroadcastsInDim S (![] : Fin 0 → Fin S.rank)) (v : FVec Ideal S .f32) : FVec Ideal S .f32 :=
  minimumf (splat S hb 0x40800000#32) (maximumf (splat S hb 0x00000000#32) v)

/-- The multi-level spike floor (min 4 (max 0 v) + 1/2), elementwise. -/
def spike (S : Shape) (hb : S_.BroadcastsInDim S (![] : Fin 0 → Fin S.rank)) (v : FVec Ideal S .f32) : FVec Ideal S .f32 :=
  Host.floor (F := Ideal) (addf (clip S hb v) (splat S hb 0x3F000000#32))

/-- A per-channel vector spread over all 4·1024 rows. -/
def rows (v : FVec Ideal S1536 .f32) : FVec Ideal S4x1024x1536 .f32 :=
  broadcastInDim S4x1024x1536 ![0, 1, 2] bcast_S1x1x1536_S4x1024x1536_0_1_2
    (broadcastInDim S1x1x1536 ![2] bcast_S1536_S1x1x1536_2 v)

/-- The spiked tokens. -/
def spkX (x : FVec Ideal S4x1024x512 .f32) : FVec Ideal S4x1024x512 .f32 :=
  spike S4x1024x512 bcast_S_S4x1024x512 x

/-- The q/k/v projection of the spiked tokens. -/
def qkv (x : FVec Ideal S4x1024x512 .f32) (W : FVec Ideal S1536x512 .f32) : FVec Ideal S4x1024x1536 .f32 :=
  Host.dotGeneral (F := Ideal) dot_S4x1024x512_S1536x512_S4x1024x1536_2_1_01_0_n_n none (spkX x) W

/-- The sum of a channel over all rows. -/
def colSum (y : FVec Ideal S4x1024x1536 .f32) : FVec Ideal S1536 .f32 :=
  Host.reduceAdd (F := Ideal) y (constant (F := Ideal) S_ .f32 0x00000000#32) reducesTo_S4x1024x1536_S1536_d0_1 h_S_

/-- The channel mean: the column sum divided by 4096. -/
def mean (y : FVec Ideal S4x1024x1536 .f32) : FVec Ideal S1536 .f32 :=
  Host.divf (F := Ideal) (colSum y) (splat S1536 bcast_S_S1536 0x45800000#32)

/-- The mean as the variance computes it (divided in shape [1, 1, 1536]) spread over all rows. -/
def varMeanRows (y : FVec Ideal S4x1024x1536 .f32) : FVec Ideal S4x1024x1536 .f32 :=
  broadcastInDim S4x1024x1536 ![0, 1, 2] bcast_S1x1x1536_S4x1024x1536_0_1_2
    (Host.divf (F := Ideal) (broadcastInDim S1x1x1536 ![2] bcast_S1536_S1x1x1536_2 (colSum y))
      (splat S1x1x1536 bcast_S_S1x1x1536 0x45800000#32))

/-- The squared deviations from the mean. -/
def sqDev (y : FVec Ideal S4x1024x1536 .f32) : FVec Ideal S4x1024x1536 .f32 :=
  mulf (subf y (varMeanRows y)) (subf y (varMeanRows y))

/-- The variance's divisor 4096 − 0, the 0 an integer converted. -/
def varDen : FVec Ideal S_ .f32 :=
  subf (constant (F := Ideal) S_ .f32 0x45800000#32) (sitofp (F := Ideal) .f32 (constantI S_ 32 0#32))

/-- The sum of squared deviations over the divisor. -/
def varQuot (y : FVec Ideal S4x1024x1536 .f32) : FVec Ideal S1536 .f32 :=
  Host.divf (F := Ideal) (colSum (sqDev y)) (broadcastInDim S1536 ![] bcast_S_S1536 varDen)

/-- The channel variance: the quotient where the divisor is positive, the not-a-number constant elsewhere. -/
def var (y : FVec Ideal S4x1024x1536 .f32) : FVec Ideal S1536 .f32 :=
  select (broadcastInDim S1536 ![] bcast_S_S1536 (cmpf .ogt varDen (constant (F := Ideal) S_ .f32 0x00000000#32)))
    (varQuot y) (splat S1536 bcast_S_S1536 0x7FC00000#32)

/-- The normalised activations ((y − mean) · rsqrt (var + ε)) · γ + β. -/
def normed (y : FVec Ideal S4x1024x1536 .f32) (γ β : FVec Ideal S1536 .f32) : FVec Ideal S4x1024x1536 .f32 :=
  addf (mulf (mulf (subf y (rows (mean y)))
      (rows (Host.rsqrt (F := Ideal) (addf (var y) (splat S1536 bcast_S_S1536 0x3727C5AC#32))))) (rows γ)) (rows β)

/-- The channels split as 3 × 8 × 64, the split and head axes moved outward: [3, 4, 8, 1024, 64]. -/
def qT (z : FVec Ideal S4x1024x1536 .f32) : FVec Ideal S3x4x8x1024x64 .f32 :=
  transpose S3x4x8x1024x64 [2, 0, 3, 1, 4] (shapeCast S4x1024x3x8x64 z shapeCasts_S4x1024x1536_S4x1024x3x8x64)
    transposes_S4x1024x3x8x64_S3x4x8x1024x64_2_0_3_1_4

/-- The spiked q block. -/
def qS (t : FVec Ideal S3x4x8x1024x64 .f32) : FVec Ideal S4x8x1024x64 .f32 :=
  spike S4x8x1024x64 bcast_S_S4x8x1024x64
    (shapeCast S4x8x1024x64 (extractStridedSlice S1x4x8x1024x64 ![0, 0, 0, 0, 0] t slices_S3x4x8x1024x64_S1x4x8x1024x64_0_0_0_0_0)
      shapeCasts_S1x4x8x1024x64_S4x8x1024x64)

/-- The spiked k block. -/
def kS (t : FVec Ideal S3x4x8x1024x64 .f32) : FVec Ideal S4x8x1024x64 .f32 :=
  spike S4x8x1024x64 bcast_S_S4x8x1024x64
    (shapeCast S4x8x1024x64 (extractStridedSlice S1x4x8x1024x64 ![1, 0, 0, 0, 0] t slices_S3x4x8x1024x64_S1x4x8x1024x64_1_0_0_0_0)
      shapeCasts_S1x4x8x1024x64_S4x8x1024x64)

/-- The spiked v block. -/
def vS (t : FVec Ideal S3x4x8x1024x64 .f32) : FVec Ideal S4x8x1024x64 .f32 :=
  spike S4x8x1024x64 bcast_S_S4x8x1024x64
    (shapeCast S4x8x1024x64 (extractStridedSlice S1x4x8x1024x64 ![2, 0, 0, 0, 0] t slices_S3x4x8x1024x64_S1x4x8x1024x64_2_0_0_0_0)
      shapeCasts_S1x4x8x1024x64_S4x8x1024x64)

/-- The spiked scores of every head: spike (q · kᵀ). -/
def scores (t : FVec Ideal S3x4x8x1024x64 .f32) : FVec Ideal S4x8x1024x1024 .f32 :=
  spike S4x8x1024x1024 bcast_S_S4x8x1024x1024
    (Host.dotGeneral (F := Ideal) dot_S4x8x1024x64_S4x8x1024x64_S4x8x1024x1024_3_3_2_2_01_01 none (qS t) (kS t))

/-- The spiked head outputs laid side by side: spike ((scores · v) · 1/8) as [4, 1024, 512]. -/
def heads (t : FVec Ideal S3x4x8x1024x64 .f32) : FVec Ideal S4x1024x512 .f32 :=
  spike S4x1024x512 bcast_S_S4x1024x512
    (shapeCast S4x1024x512
      (transpose S4x1024x8x64 [0, 2, 1, 3]
        (mulf (Host.dotGeneral (F := Ideal) dot_S4x8x1024x1024_S4x8x1024x64_S4x8x1024x64_3_2_2_3_01_01 none (scores t) (vS t))
          (splat S4x8x1024x64 bcast_S_S4x8x1024x64 0x3E000000#32))
        transposes_S4x8x1024x64_S4x1024x8x64_0_2_1_3)
      shapeCasts_S4x1024x8x64_S4x1024x512)

/-- The reference's result: the heads projected by P, plus the bias. -/
def refTerm (x : FVec Ideal S4x1024x512 .f32) (W : FVec Ideal S1536x512 .f32) (γ β : FVec Ideal S1536 .f32)
    (P : FVec Ideal S512x512 .f32) (bp : FVec Ideal S512 .f32) : FVec Ideal S4x1024x512 .f32 :=
  addf (Host.dotGeneral (F := Ideal) dot_S4x1024x512_S512x512_S4x1024x512_2_1_01_0_n_n none
      (heads (qT (normed (qkv x W) γ β))) P)
    (broadcastInDim S4x1024x512 ![0, 1, 2] bcast_S1x1x512_S4x1024x512_0_1_2
      (broadcastInDim S1x1x512 ![2] bcast_S512_S1x1x512_2 bp))

end Cert.ReferenceIdeal.RefTerm

end
-- ==== Proof.RefRun.lean ====
/-
  The reference program's run, read back. The program is a straight line of host operations: its six private
  functions are called only with literal buffers, so unfolding each call at its call site (the callee's
  operations over that call's own buffers) leaves one list of 136 operations, and the program is that list run
  in order. From any memory with zero counters every weakly fair execution then terminates, each buffer ends
  at the fold of the operations' results over the launch contents, and reading the fold at the result buffer
  gives the composed pure term of the six argument arrays, the arguments themselves being written by no
  operation.
-/
import proofs.«103527_j53025666236638_2_alg».proof.Proof.RefTerm
import proofs.«103527_j53025666236638_2_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable [Facts]
open Facts₀ Facts

variable {F : FTy → Type} [FloatOps F]

/-- The program's operations in order, each call unfolded at its call site: the clip of the tokens (six
    operations over the first call's buffers), the variance (twenty-two, the last three the select's), the three
    clips of the q, k and v blocks, the clip of the scores and the clip of the head outputs, around the
    program's own seventy-eight. -/
abbrev ops : List (HloOp τ sig (Elt F)) :=
  [
    nullary main_cst (constant S_ .f32 0x00000000#32),
    nullary main_cst_0 (constant S_ .f32 0x40800000#32),
    TRef.unary (.of main_cst) main_call0.v0 id,
    TRef.unary main_call0.v0 main_call0.v1 (broadcastInDim S4x1024x512 ![] bcast_S_S4x1024x512),
    TRef.binary main_call0.v1 (.of main_arg0) main_call0.v2 maximumf,
    TRef.unary (.of main_cst_0) main_call0.v3 id,
    TRef.unary main_call0.v3 main_call0.v4 (broadcastInDim S4x1024x512 ![] bcast_S_S4x1024x512),
    TRef.binary main_call0.v4 main_call0.v2 main_call0.v5 minimumf,
    nullary main_cst_1 (constant S_ .f32 0x3F000000#32),
    unary main_cst_1 main_v1 (broadcastInDim S4x1024x512 ![] bcast_S_S4x1024x512 : (⟨S_, .f32⟩ : BufTy).Contents (Elt F) → (⟨S4x1024x512, .f32⟩ : BufTy).Contents (Elt F)),
    binary main_v0 main_v1 main_v2 (addf : (⟨S4x1024x512, .f32⟩ : BufTy).Contents (Elt F) → (⟨S4x1024x512, .f32⟩ : BufTy).Contents (Elt F) → (⟨S4x1024x512, .f32⟩ : BufTy).Contents (Elt F)),
    unary main_v2 main_v3 (Host.floor : (⟨S4x1024x512, .f32⟩ : BufTy).Contents (Elt F) → (⟨S4x1024x512, .f32⟩ : BufTy).Contents (Elt F)),
    binary main_v3 main_arg1 main_v4 ((fun l r => Host.dotGeneral dot_S4x1024x512_S1536x512_S4x1024x1536_2_1_01_0_n_n none l r) : (⟨S4x1024x512, .f32⟩ : BufTy).Contents (Elt F) → (⟨S1536x512, .f32⟩ : BufTy).Contents (Elt F) → (⟨S4x1024x1536, .f32⟩ : BufTy).Contents (Elt F)),
    nullary main_cst_2 (constant S_ .f32 0x00000000#32),
    binary main_v4 main_cst_2 main_v5 ((fun x v => Host.reduceAdd x v reducesTo_S4x1024x1536_S1536_d0_1 h_S_) : (⟨S4x1024x1536, .f32⟩ : BufTy).Contents (Elt F) → (⟨S_, .f32⟩ : BufTy).Contents (Elt F) → (⟨S1536, .f32⟩ : BufTy).Contents (Elt F)),
    nullary main_cst_3 (constant S_ .f32 0x45800000#32),
    unary main_cst_3 main_v6 (broadcastInDim S1536 ![] bcast_S_S1536 : (⟨S_, .f32⟩ : BufTy).Contents (Elt F) → (⟨S1536, .f32⟩ : BufTy).Contents (Elt F)),
    binary main_v5 main_v6 main_v7 (Host.divf : (⟨S1536, .f32⟩ : BufTy).Contents (Elt F) → (⟨S1536, .f32⟩ : BufTy).Contents (Elt F) → (⟨S1536, .f32⟩ : BufTy).Contents (Elt F)),
    nullary main_c (constantI S_ 32 0#32),
    TRef.nullary main_call1.cst (constant S_ .f32 0x00000000#32),
    TRef.binary (.of main_v4) main_call1.cst main_call1.v0 (fun x v => Host.reduceAdd x v reducesTo_S4x1024x1536_S1536_d0_1 h_S_),
    TRef.unary main_call1.v0 main_call1.v1 (broadcastInDim S1x1x1536 ![2] bcast_S1536_S1x1x1536_2),
    TRef.nullary main_call1.cst_0 (constant S_ .f32 0x45800000#32),
    TRef.unary main_call1.cst_0 main_call1.v2 (broadcastInDim S1x1x1536 ![] bcast_S_S1x1x1536),
    TRef.binary main_call1.v1 main_call1.v2 main_call1.v3 Host.divf,
    TRef.unary main_call1.v3 main_call1.v4 (broadcastInDim S4x1024x1536 ![0, 1, 2] bcast_S1x1x1536_S4x1024x1536_0_1_2),
    TRef.binary (.of main_v4) main_call1.v4 main_call1.v5 subf,
    TRef.binary main_call1.v5 main_call1.v5 main_call1.v6 mulf,
    TRef.unary (.of main_c) main_call1.v7 (sitofp .f32),
    TRef.nullary main_call1.cst_1 (constant S_ .f32 0x45800000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S4x1024x1536_S1536_d0_1 h_S_),
    TRef.unary main_call1.v8 main_call1.v10 (broadcastInDim S1536 ![] bcast_S_S1536),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S1536 ![] bcast_S_S1536),
    TRef.ternary main_call1.v12 main_call1.v11 main_call1.call0.v1 main_call1.call0.v2 (fun p a b => select (broadcastInDim S1536 ![] bcast_S_S1536 p) a b),
    unary main_v7 main_v9 (broadcastInDim S1x1x1536 ![2] bcast_S1536_S1x1x1536_2 : (⟨S1536, .f32⟩ : BufTy).Contents (Elt F) → (⟨S1x1x1536, .f32⟩ : BufTy).Contents (Elt F)),
    unary main_v9 main_v10 (broadcastInDim S4x1024x1536 ![0, 1, 2] bcast_S1x1x1536_S4x1024x1536_0_1_2 : (⟨S1x1x1536, .f32⟩ : BufTy).Contents (Elt F) → (⟨S4x1024x1536, .f32⟩ : BufTy).Contents (Elt F)),
    binary main_v4 main_v10 main_v11 (subf : (⟨S4x1024x1536, .f32⟩ : BufTy).Contents (Elt F) → (⟨S4x1024x1536, .f32⟩ : BufTy).Contents (Elt F) → (⟨S4x1024x1536, .f32⟩ : BufTy).Contents (Elt F)),
    nullary main_cst_4 (constant S_ .f32 0x3727C5AC#32),
    unary main_cst_4 main_v12 (broadcastInDim S1536 ![] bcast_S_S1536 : (⟨S_, .f32⟩ : BufTy).Contents (Elt F) → (⟨S1536, .f32⟩ : BufTy).Contents (Elt F)),
    binary main_v8 main_v12 main_v13 (addf : (⟨S1536, .f32⟩ : BufTy).Contents (Elt F) → (⟨S1536, .f32⟩ : BufTy).Contents (Elt F) → (⟨S1536, .f32⟩ : BufTy).Contents (Elt F)),
    unary main_v13 main_v14 (Host.rsqrt : (⟨S1536, .f32⟩ : BufTy).Contents (Elt F) → (⟨S1536, .f32⟩ : BufTy).Contents (Elt F)),
    unary main_v14 main_v15 (broadcastInDim S1x1x1536 ![2] bcast_S1536_S1x1x1536_2 : (⟨S1536, .f32⟩ : BufTy).Contents (Elt F) → (⟨S1x1x1536, .f32⟩ : BufTy).Contents (Elt F)),
    unary main_v15 main_v16 (broadcastInDim S4x1024x1536 ![0, 1, 2] bcast_S1x1x1536_S4x1024x1536_0_1_2 : (⟨S1x1x1536, .f32⟩ : BufTy).Contents (Elt F) → (⟨S4x1024x1536, .f32⟩ : BufTy).Contents (Elt F)),
    binary main_v11 main_v16 main_v17 (mulf : (⟨S4x1024x1536, .f32⟩ : BufTy).Contents (Elt F) → (⟨S4x1024x1536, .f32⟩ : BufTy).Contents (Elt F) → (⟨S4x1024x1536, .f32⟩ : BufTy).Contents (Elt F)),
    unary main_arg2 main_v18 (broadcastInDim S1x1x1536 ![2] bcast_S1536_S1x1x1536_2 : (⟨S1536, .f32⟩ : BufTy).Contents (Elt F) → (⟨S1x1x1536, .f32⟩ : BufTy).Contents (Elt F)),
    unary main_v18 main_v19 (broadcastInDim S4x1024x1536 ![0, 1, 2] bcast_S1x1x1536_S4x1024x1536_0_1_2 : (⟨S1x1x1536, .f32⟩ : BufTy).Contents (Elt F) → (⟨S4x1024x1536, .f32⟩ : BufTy).Contents (Elt F)),
    binary main_v17 main_v19 main_v20 (mulf : (⟨S4x1024x1536, .f32⟩ : BufTy).Contents (Elt F) → (⟨S4x1024x1536, .f32⟩ : BufTy).Contents (Elt F) → (⟨S4x1024x1536, .f32⟩ : BufTy).Contents (Elt F)),
    unary main_arg3 main_v21 (broadcastInDim S1x1x1536 ![2] bcast_S1536_S1x1x1536_2 : (⟨S1536, .f32⟩ : BufTy).Contents (Elt F) → (⟨S1x1x1536, .f32⟩ : BufTy).Contents (Elt F)),
    unary main_v21 main_v22 (broadcastInDim S4x1024x1536 ![0, 1, 2] bcast_S1x1x1536_S4x1024x1536_0_1_2 : (⟨S1x1x1536, .f32⟩ : BufTy).Contents (Elt F) → (⟨S4x1024x1536, .f32⟩ : BufTy).Contents (Elt F)),
    binary main_v20 main_v22 main_v23 (addf : (⟨S4x1024x1536, .f32⟩ : BufTy).Contents (Elt F) → (⟨S4x1024x1536, .f32⟩ : BufTy).Contents (Elt F) → (⟨S4x1024x1536, .f32⟩ : BufTy).Contents (Elt F)),
    reshape main_v23 main_v24 rfl shapeCasts_S4x1024x1536_S4x1024x3x8x64,
    unary main_v24 main_v25 ((transpose S3x4x8x1024x64 [2, 0, 3, 1, 4] · transposes_S4x1024x3x8x64_S3x4x8x1024x64_2_0_3_1_4) : (⟨S4x1024x3x8x64, .f32⟩ : BufTy).Contents (Elt F) → (⟨S3x4x8x1024x64, .f32⟩ : BufTy).Contents (Elt F)),
    unary main_v25 main_v26 ((extractStridedSlice S1x4x8x1024x64 ![0, 0, 0, 0, 0] · slices_S3x4x8x1024x64_S1x4x8x1024x64_0_0_0_0_0) : (⟨S3x4x8x1024x64, .f32⟩ : BufTy).Contents (Elt F) → (⟨S1x4x8x1024x64, .f32⟩ : BufTy).Contents (Elt F)),
    reshape main_v26 main_v27 rfl shapeCasts_S1x4x8x1024x64_S4x8x1024x64,
    nullary main_cst_5 (constant S_ .f32 0x00000000#32),
    nullary main_cst_6 (constant S_ .f32 0x40800000#32),
    TRef.unary (.of main_cst_5) main_call2.v0 id,
    TRef.unary main_call2.v0 main_call2.v1 (broadcastInDim S4x8x1024x64 ![] bcast_S_S4x8x1024x64),
    TRef.binary main_call2.v1 (.of main_v27) main_call2.v2 maximumf,
    TRef.unary (.of main_cst_6) main_call2.v3 id,
    TRef.unary main_call2.v3 main_call2.v4 (broadcastInDim S4x8x1024x64 ![] bcast_S_S4x8x1024x64),
    TRef.binary main_call2.v4 main_call2.v2 main_call2.v5 minimumf,
    nullary main_cst_7 (constant S_ .f32 0x3F000000#32),
    unary main_cst_7 main_v29 (broadcastInDim S4x8x1024x64 ![] bcast_S_S4x8x1024x64 : (⟨S_, .f32⟩ : BufTy).Contents (Elt F) → (⟨S4x8x1024x64, .f32⟩ : BufTy).Contents (Elt F)),
    binary main_v28 main_v29 main_v30 (addf : (⟨S4x8x1024x64, .f32⟩ : BufTy).Contents (Elt F) → (⟨S4x8x1024x64, .f32⟩ : BufTy).Contents (Elt F) → (⟨S4x8x1024x64, .f32⟩ : BufTy).Contents (Elt F)),
    unary main_v30 main_v31 (Host.floor : (⟨S4x8x1024x64, .f32⟩ : BufTy).Contents (Elt F) → (⟨S4x8x1024x64, .f32⟩ : BufTy).Contents (Elt F)),
    unary main_v25 main_v32 ((extractStridedSlice S1x4x8x1024x64 ![1, 0, 0, 0, 0] · slices_S3x4x8x1024x64_S1x4x8x1024x64_1_0_0_0_0) : (⟨S3x4x8x1024x64, .f32⟩ : BufTy).Contents (Elt F) → (⟨S1x4x8x1024x64, .f32⟩ : BufTy).Contents (Elt F)),
    reshape main_v32 main_v33 rfl shapeCasts_S1x4x8x1024x64_S4x8x1024x64,
    nullary main_cst_8 (constant S_ .f32 0x00000000#32),
    nullary main_cst_9 (constant S_ .f32 0x40800000#32),
    TRef.unary (.of main_cst_8) main_call3.v0 id,
    TRef.unary main_call3.v0 main_call3.v1 (broadcastInDim S4x8x1024x64 ![] bcast_S_S4x8x1024x64),
    TRef.binary main_call3.v1 (.of main_v33) main_call3.v2 maximumf,
    TRef.unary (.of main_cst_9) main_call3.v3 id,
    TRef.unary main_call3.v3 main_call3.v4 (broadcastInDim S4x8x1024x64 ![] bcast_S_S4x8x1024x64),
    TRef.binary main_call3.v4 main_call3.v2 main_call3.v5 minimumf,
    nullary main_cst_10 (constant S_ .f32 0x3F000000#32),
    unary main_cst_10 main_v35 (broadcastInDim S4x8x1024x64 ![] bcast_S_S4x8x1024x64 : (⟨S_, .f32⟩ : BufTy).Contents (Elt F) → (⟨S4x8x1024x64, .f32⟩ : BufTy).Contents (Elt F)),
    binary main_v34 main_v35 main_v36 (addf : (⟨S4x8x1024x64, .f32⟩ : BufTy).Contents (Elt F) → (⟨S4x8x1024x64, .f32⟩ : BufTy).Contents (Elt F) → (⟨S4x8x1024x64, .f32⟩ : BufTy).Contents (Elt F)),
    unary main_v36 main_v37 (Host.floor : (⟨S4x8x1024x64, .f32⟩ : BufTy).Contents (Elt F) → (⟨S4x8x1024x64, .f32⟩ : BufTy).Contents (Elt F)),
    unary main_v25 main_v38 ((extractStridedSlice S1x4x8x1024x64 ![2, 0, 0, 0, 0] · slices_S3x4x8x1024x64_S1x4x8x1024x64_2_0_0_0_0) : (⟨S3x4x8x1024x64, .f32⟩ : BufTy).Contents (Elt F) → (⟨S1x4x8x1024x64, .f32⟩ : BufTy).Contents (Elt F)),
    reshape main_v38 main_v39 rfl shapeCasts_S1x4x8x1024x64_S4x8x1024x64,
    nullary main_cst_11 (constant S_ .f32 0x00000000#32),
    nullary main_cst_12 (constant S_ .f32 0x40800000#32),
    TRef.unary (.of main_cst_11) main_call4.v0 id,
    TRef.unary main_call4.v0 main_call4.v1 (broadcastInDim S4x8x1024x64 ![] bcast_S_S4x8x1024x64),
    TRef.binary main_call4.v1 (.of main_v39) main_call4.v2 maximumf,
    TRef.unary (.of main_cst_12) main_call4.v3 id,
    TRef.unary main_call4.v3 main_call4.v4 (broadcastInDim S4x8x1024x64 ![] bcast_S_S4x8x1024x64),
    TRef.binary main_call4.v4 main_call4.v2 main_call4.v5 minimumf,
    nullary main_cst_13 (constant S_ .f32 0x3F000000#32),
    unary main_cst_13 main_v41 (broadcastInDim S4x8x1024x64 ![] bcast_S_S4x8x1024x64 : (⟨S_, .f32⟩ : BufTy).Contents (Elt F) → (⟨S4x8x1024x64, .f32⟩ : BufTy).Contents (Elt F)),
    binary main_v40 main_v41 main_v42 (addf : (⟨S4x8x1024x64, .f32⟩ : BufTy).Contents (Elt F) → (⟨S4x8x1024x64, .f32⟩ : BufTy).Contents (Elt F) → (⟨S4x8x1024x64, .f32⟩ : BufTy).Contents (Elt F)),
    unary main_v42 main_v43 (Host.floor : (⟨S4x8x1024x64, .f32⟩ : BufTy).Contents (Elt F) → (⟨S4x8x1024x64, .f32⟩ : BufTy).Contents (Elt F)),
    binary main_v31 main_v37 main_v44 ((fun l r => Host.dotGeneral dot_S4x8x1024x64_S4x8x1024x64_S4x8x1024x1024_3_3_2_2_01_01 none l r) : (⟨S4x8x1024x64, .f32⟩ : BufTy).Contents (Elt F) → (⟨S4x8x1024x64, .f32⟩ : BufTy).Contents (Elt F) → (⟨S4x8x1024x1024, .f32⟩ : BufTy).Contents (Elt F)),
    nullary main_cst_14 (constant S_ .f32 0x00000000#32),
    nullary main_cst_15 (constant S_ .f32 0x40800000#32),
    TRef.unary (.of main_cst_14) main_call5.v0 id,
    TRef.unary main_call5.v0 main_call5.v1 (broadcastInDim S4x8x1024x1024 ![] bcast_S_S4x8x1024x1024),
    TRef.binary main_call5.v1 (.of main_v44) main_call5.v2 maximumf,
    TRef.unary (.of main_cst_15) main_call5.v3 id,
    TRef.unary main_call5.v3 main_call5.v4 (broadcastInDim S4x8x1024x1024 ![] bcast_S_S4x8x1024x1024),
    TRef.binary main_call5.v4 main_call5.v2 main_call5.v5 minimumf,
    nullary main_cst_16 (constant S_ .f32 0x3F000000#32),
    unary main_cst_16 main_v46 (broadcastInDim S4x8x1024x1024 ![] bcast_S_S4x8x1024x1024 : (⟨S_, .f32⟩ : BufTy).Contents (Elt F) → (⟨S4x8x1024x1024, .f32⟩ : BufTy).Contents (Elt F)),
    binary main_v45 main_v46 main_v47 (addf : (⟨S4x8x1024x1024, .f32⟩ : BufTy).Contents (Elt F) → (⟨S4x8x1024x1024, .f32⟩ : BufTy).Contents (Elt F) → (⟨S4x8x1024x1024, .f32⟩ : BufTy).Contents (Elt F)),
    unary main_v47 main_v48 (Host.floor : (⟨S4x8x1024x1024, .f32⟩ : BufTy).Contents (Elt F) → (⟨S4x8x1024x1024, .f32⟩ : BufTy).Contents (Elt F)),
    binary main_v48 main_v43 main_v49 ((fun l r => Host.dotGeneral dot_S4x8x1024x1024_S4x8x1024x64_S4x8x1024x64_3_2_2_3_01_01 none l r) : (⟨S4x8x1024x1024, .f32⟩ : BufTy).Contents (Elt F) → (⟨S4x8x1024x64, .f32⟩ : BufTy).Contents (Elt F) → (⟨S4x8x1024x64, .f32⟩ : BufTy).Contents (Elt F)),
    nullary main_cst_17 (constant S_ .f32 0x3E000000#32),
    unary main_cst_17 main_v50 (broadcastInDim S4x8x1024x64 ![] bcast_S_S4x8x1024x64 : (⟨S_, .f32⟩ : BufTy).Contents (Elt F) → (⟨S4x8x1024x64, .f32⟩ : BufTy).Contents (Elt F)),
    binary main_v49 main_v50 main_v51 (mulf : (⟨S4x8x1024x64, .f32⟩ : BufTy).Contents (Elt F) → (⟨S4x8x1024x64, .f32⟩ : BufTy).Contents (Elt F) → (⟨S4x8x1024x64, .f32⟩ : BufTy).Contents (Elt F)),
    unary main_v51 main_v52 ((transpose S4x1024x8x64 [0, 2, 1, 3] · transposes_S4x8x1024x64_S4x1024x8x64_0_2_1_3) : (⟨S4x8x1024x64, .f32⟩ : BufTy).Contents (Elt F) → (⟨S4x1024x8x64, .f32⟩ : BufTy).Contents (Elt F)),
    reshape main_v52 main_v53 rfl shapeCasts_S4x1024x8x64_S4x1024x512,
    nullary main_cst_18 (constant S_ .f32 0x00000000#32),
    nullary main_cst_19 (constant S_ .f32 0x40800000#32),
    TRef.unary (.of main_cst_18) main_call6.v0 id,
    TRef.unary main_call6.v0 main_call6.v1 (broadcastInDim S4x1024x512 ![] bcast_S_S4x1024x512),
    TRef.binary main_call6.v1 (.of main_v53) main_call6.v2 maximumf,
    TRef.unary (.of main_cst_19) main_call6.v3 id,
    TRef.unary main_call6.v3 main_call6.v4 (broadcastInDim S4x1024x512 ![] bcast_S_S4x1024x512),
    TRef.binary main_call6.v4 main_call6.v2 main_call6.v5 minimumf,
    nullary main_cst_20 (constant S_ .f32 0x3F000000#32),
    unary main_cst_20 main_v55 (broadcastInDim S4x1024x512 ![] bcast_S_S4x1024x512 : (⟨S_, .f32⟩ : BufTy).Contents (Elt F) → (⟨S4x1024x512, .f32⟩ : BufTy).Contents (Elt F)),
    binary main_v54 main_v55 main_v56 (addf : (⟨S4x1024x512, .f32⟩ : BufTy).Contents (Elt F) → (⟨S4x1024x512, .f32⟩ : BufTy).Contents (Elt F) → (⟨S4x1024x512, .f32⟩ : BufTy).Contents (Elt F)),
    unary main_v56 main_v57 (Host.floor : (⟨S4x1024x512, .f32⟩ : BufTy).Contents (Elt F) → (⟨S4x1024x512, .f32⟩ : BufTy).Contents (Elt F)),
    binary main_v57 main_arg4 main_v58 ((fun l r => Host.dotGeneral dot_S4x1024x512_S512x512_S4x1024x512_2_1_01_0_n_n none l r) : (⟨S4x1024x512, .f32⟩ : BufTy).Contents (Elt F) → (⟨S512x512, .f32⟩ : BufTy).Contents (Elt F) → (⟨S4x1024x512, .f32⟩ : BufTy).Contents (Elt F)),
    unary main_arg5 main_v59 (broadcastInDim S1x1x512 ![2] bcast_S512_S1x1x512_2 : (⟨S512, .f32⟩ : BufTy).Contents (Elt F) → (⟨S1x1x512, .f32⟩ : BufTy).Contents (Elt F)),
    unary main_v59 main_v60 (broadcastInDim S4x1024x512 ![0, 1, 2] bcast_S1x1x512_S4x1024x512_0_1_2 : (⟨S1x1x512, .f32⟩ : BufTy).Contents (Elt F) → (⟨S4x1024x512, .f32⟩ : BufTy).Contents (Elt F)),
    binary main_v58 main_v60 main_v61 (addf : (⟨S4x1024x512, .f32⟩ : BufTy).Contents (Elt F) → (⟨S4x1024x512, .f32⟩ : BufTy).Contents (Elt F) → (⟨S4x1024x512, .f32⟩ : BufTy).Contents (Elt F)) ]

-- one hundred and thirty-six binds re-associated: the rewrite under the chain recurses once per statement
set_option maxRecDepth 8192 in
set_option maxHeartbeats 4000000 in
/-- The program is that straight line: the two windows and the functions' definitions unfolded, both sides are
    one chain of steps once sequencing is re-associated. -/
theorem main_eq (c : Dev nD) : main (F := F) c = seq ops := by
  simp only [main, main_part0, main_part1, fn_clip.body, fn_var.body, fn_where.body, fn_clip_0.body, fn_clip_1.body,
    fn_clip_2.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨
    nullary_bufs_sub .., nullary_bufs_sub .., unary_bufs_sub .., unary_bufs_sub .., binary_bufs_sub .., unary_bufs_sub ..,
    unary_bufs_sub .., binary_bufs_sub .., nullary_bufs_sub .., unary_bufs_sub .., binary_bufs_sub .., unary_bufs_sub ..,
    binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., reshape_bufs_sub .., unary_bufs_sub .., unary_bufs_sub ..,
    reshape_bufs_sub .., nullary_bufs_sub .., nullary_bufs_sub .., unary_bufs_sub .., unary_bufs_sub .., binary_bufs_sub ..,
    unary_bufs_sub .., unary_bufs_sub .., binary_bufs_sub .., nullary_bufs_sub .., unary_bufs_sub .., binary_bufs_sub ..,
    unary_bufs_sub .., unary_bufs_sub .., reshape_bufs_sub .., nullary_bufs_sub .., nullary_bufs_sub .., unary_bufs_sub ..,
    unary_bufs_sub .., binary_bufs_sub .., unary_bufs_sub .., unary_bufs_sub .., binary_bufs_sub .., nullary_bufs_sub ..,
    unary_bufs_sub .., binary_bufs_sub .., unary_bufs_sub .., unary_bufs_sub .., reshape_bufs_sub .., nullary_bufs_sub ..,
    nullary_bufs_sub .., unary_bufs_sub .., unary_bufs_sub .., binary_bufs_sub .., unary_bufs_sub .., unary_bufs_sub ..,
    binary_bufs_sub .., nullary_bufs_sub .., unary_bufs_sub .., binary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., nullary_bufs_sub .., unary_bufs_sub .., binary_bufs_sub .., unary_bufs_sub ..,
    binary_bufs_sub .., nullary_bufs_sub .., unary_bufs_sub .., binary_bufs_sub .., unary_bufs_sub .., reshape_bufs_sub ..,
    nullary_bufs_sub .., nullary_bufs_sub .., unary_bufs_sub .., unary_bufs_sub .., binary_bufs_sub .., unary_bufs_sub ..,
    unary_bufs_sub .., binary_bufs_sub .., nullary_bufs_sub .., unary_bufs_sub .., binary_bufs_sub .., unary_bufs_sub ..,
    binary_bufs_sub .., unary_bufs_sub .., unary_bufs_sub .., binary_bufs_sub ..⟩

/-- The spiked tokens: the clip of the tokens, plus one half, floored. -/
abbrev segA : List (HloOp τ sig (Elt F)) :=
  [
    nullary main_cst (constant S_ .f32 0x00000000#32),
    nullary main_cst_0 (constant S_ .f32 0x40800000#32),
    TRef.unary (.of main_cst) main_call0.v0 id,
    TRef.unary main_call0.v0 main_call0.v1 (broadcastInDim S4x1024x512 ![] bcast_S_S4x1024x512),
    TRef.binary main_call0.v1 (.of main_arg0) main_call0.v2 maximumf,
    TRef.unary (.of main_cst_0) main_call0.v3 id,
    TRef.unary main_call0.v3 main_call0.v4 (broadcastInDim S4x1024x512 ![] bcast_S_S4x1024x512),
    TRef.binary main_call0.v4 main_call0.v2 main_call0.v5 minimumf,
    nullary main_cst_1 (constant S_ .f32 0x3F000000#32),
    unary main_cst_1 main_v1 (broadcastInDim S4x1024x512 ![] bcast_S_S4x1024x512 : (⟨S_, .f32⟩ : BufTy).Contents (Elt F) → (⟨S4x1024x512, .f32⟩ : BufTy).Contents (Elt F)),
    binary main_v0 main_v1 main_v2 (addf : (⟨S4x1024x512, .f32⟩ : BufTy).Contents (Elt F) → (⟨S4x1024x512, .f32⟩ : BufTy).Contents (Elt F) → (⟨S4x1024x512, .f32⟩ : BufTy).Contents (Elt F)),
    unary main_v2 main_v3 (Host.floor : (⟨S4x1024x512, .f32⟩ : BufTy).Contents (Elt F) → (⟨S4x1024x512, .f32⟩ : BufTy).Contents (Elt F)) ]

/-- The projection of the spiked tokens. -/
abbrev segB : List (HloOp τ sig (Elt F)) :=
  [
    binary main_v3 main_arg1 main_v4 ((fun l r => Host.dotGeneral dot_S4x1024x512_S1536x512_S4x1024x1536_2_1_01_0_n_n none l r) : (⟨S4x1024x512, .f32⟩ : BufTy).Contents (Elt F) → (⟨S1536x512, .f32⟩ : BufTy).Contents (Elt F) → (⟨S4x1024x1536, .f32⟩ : BufTy).Contents (Elt F)) ]

/-- The channel means. -/
abbrev segC : List (HloOp τ sig (Elt F)) :=
  [
    nullary main_cst_2 (constant S_ .f32 0x00000000#32),
    binary main_v4 main_cst_2 main_v5 ((fun x v => Host.reduceAdd x v reducesTo_S4x1024x1536_S1536_d0_1 h_S_) : (⟨S4x1024x1536, .f32⟩ : BufTy).Contents (Elt F) → (⟨S_, .f32⟩ : BufTy).Contents (Elt F) → (⟨S1536, .f32⟩ : BufTy).Contents (Elt F)),
    nullary main_cst_3 (constant S_ .f32 0x45800000#32),
    unary main_cst_3 main_v6 (broadcastInDim S1536 ![] bcast_S_S1536 : (⟨S_, .f32⟩ : BufTy).Contents (Elt F) → (⟨S1536, .f32⟩ : BufTy).Contents (Elt F)),
    binary main_v5 main_v6 main_v7 (Host.divf : (⟨S1536, .f32⟩ : BufTy).Contents (Elt F) → (⟨S1536, .f32⟩ : BufTy).Contents (Elt F) → (⟨S1536, .f32⟩ : BufTy).Contents (Elt F)) ]

/-- The channel variances: the variance function's operations, the select's last. -/
abbrev segD : List (HloOp τ sig (Elt F)) :=
  [
    nullary main_c (constantI S_ 32 0#32),
    TRef.nullary main_call1.cst (constant S_ .f32 0x00000000#32),
    TRef.binary (.of main_v4) main_call1.cst main_call1.v0 (fun x v => Host.reduceAdd x v reducesTo_S4x1024x1536_S1536_d0_1 h_S_),
    TRef.unary main_call1.v0 main_call1.v1 (broadcastInDim S1x1x1536 ![2] bcast_S1536_S1x1x1536_2),
    TRef.nullary main_call1.cst_0 (constant S_ .f32 0x45800000#32),
    TRef.unary main_call1.cst_0 main_call1.v2 (broadcastInDim S1x1x1536 ![] bcast_S_S1x1x1536),
    TRef.binary main_call1.v1 main_call1.v2 main_call1.v3 Host.divf,
    TRef.unary main_call1.v3 main_call1.v4 (broadcastInDim S4x1024x1536 ![0, 1, 2] bcast_S1x1x1536_S4x1024x1536_0_1_2),
    TRef.binary (.of main_v4) main_call1.v4 main_call1.v5 subf,
    TRef.binary main_call1.v5 main_call1.v5 main_call1.v6 mulf,
    TRef.unary (.of main_c) main_call1.v7 (sitofp .f32),
    TRef.nullary main_call1.cst_1 (constant S_ .f32 0x45800000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S4x1024x1536_S1536_d0_1 h_S_),
    TRef.unary main_call1.v8 main_call1.v10 (broadcastInDim S1536 ![] bcast_S_S1536),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S1536 ![] bcast_S_S1536),
    TRef.ternary main_call1.v12 main_call1.v11 main_call1.call0.v1 main_call1.call0.v2 (fun p a b => select (broadcastInDim S1536 ![] bcast_S_S1536 p) a b) ]

/-- The normalised activations. -/
abbrev segE : List (HloOp τ sig (Elt F)) :=
  [
    unary main_v7 main_v9 (broadcastInDim S1x1x1536 ![2] bcast_S1536_S1x1x1536_2 : (⟨S1536, .f32⟩ : BufTy).Contents (Elt F) → (⟨S1x1x1536, .f32⟩ : BufTy).Contents (Elt F)),
    unary main_v9 main_v10 (broadcastInDim S4x1024x1536 ![0, 1, 2] bcast_S1x1x1536_S4x1024x1536_0_1_2 : (⟨S1x1x1536, .f32⟩ : BufTy).Contents (Elt F) → (⟨S4x1024x1536, .f32⟩ : BufTy).Contents (Elt F)),
    binary main_v4 main_v10 main_v11 (subf : (⟨S4x1024x1536, .f32⟩ : BufTy).Contents (Elt F) → (⟨S4x1024x1536, .f32⟩ : BufTy).Contents (Elt F) → (⟨S4x1024x1536, .f32⟩ : BufTy).Contents (Elt F)),
    nullary main_cst_4 (constant S_ .f32 0x3727C5AC#32),
    unary main_cst_4 main_v12 (broadcastInDim S1536 ![] bcast_S_S1536 : (⟨S_, .f32⟩ : BufTy).Contents (Elt F) → (⟨S1536, .f32⟩ : BufTy).Contents (Elt F)),
    binary main_v8 main_v12 main_v13 (addf : (⟨S1536, .f32⟩ : BufTy).Contents (Elt F) → (⟨S1536, .f32⟩ : BufTy).Contents (Elt F) → (⟨S1536, .f32⟩ : BufTy).Contents (Elt F)),
    unary main_v13 main_v14 (Host.rsqrt : (⟨S1536, .f32⟩ : BufTy).Contents (Elt F) → (⟨S1536, .f32⟩ : BufTy).Contents (Elt F)),
    unary main_v14 main_v15 (broadcastInDim S1x1x1536 ![2] bcast_S1536_S1x1x1536_2 : (⟨S1536, .f32⟩ : BufTy).Contents (Elt F) → (⟨S1x1x1536, .f32⟩ : BufTy).Contents (Elt F)),
    unary main_v15 main_v16 (broadcastInDim S4x1024x1536 ![0, 1, 2] bcast_S1x1x1536_S4x1024x1536_0_1_2 : (⟨S1x1x1536, .f32⟩ : BufTy).Contents (Elt F) → (⟨S4x1024x1536, .f32⟩ : BufTy).Contents (Elt F)),
    binary main_v11 main_v16 main_v17 (mulf : (⟨S4x1024x1536, .f32⟩ : BufTy).Contents (Elt F) → (⟨S4x1024x1536, .f32⟩ : BufTy).Contents (Elt F) → (⟨S4x1024x1536, .f32⟩ : BufTy).Contents (Elt F)),
    unary main_arg2 main_v18 (broadcastInDim S1x1x1536 ![2] bcast_S1536_S1x1x1536_2 : (⟨S1536, .f32⟩ : BufTy).Contents (Elt F) → (⟨S1x1x1536, .f32⟩ : BufTy).Contents (Elt F)),
    unary main_v18 main_v19 (broadcastInDim S4x1024x1536 ![0, 1, 2] bcast_S1x1x1536_S4x1024x1536_0_1_2 : (⟨S1x1x1536, .f32⟩ : BufTy).Contents (Elt F) → (⟨S4x1024x1536, .f32⟩ : BufTy).Contents (Elt F)),
    binary main_v17 main_v19 main_v20 (mulf : (⟨S4x1024x1536, .f32⟩ : BufTy).Contents (Elt F) → (⟨S4x1024x1536, .f32⟩ : BufTy).Contents (Elt F) → (⟨S4x1024x1536, .f32⟩ : BufTy).Contents (Elt F)),
    unary main_arg3 main_v21 (broadcastInDim S1x1x1536 ![2] bcast_S1536_S1x1x1536_2 : (⟨S1536, .f32⟩ : BufTy).Contents (Elt F) → (⟨S1x1x1536, .f32⟩ : BufTy).Contents (Elt F)),
    unary main_v21 main_v22 (broadcastInDim S4x1024x1536 ![0, 1, 2] bcast_S1x1x1536_S4x1024x1536_0_1_2 : (⟨S1x1x1536, .f32⟩ : BufTy).Contents (Elt F) → (⟨S4x1024x1536, .f32⟩ : BufTy).Contents (Elt F)),
    binary main_v20 main_v22 main_v23 (addf : (⟨S4x1024x1536, .f32⟩ : BufTy).Contents (Elt F) → (⟨S4x1024x1536, .f32⟩ : BufTy).Contents (Elt F) → (⟨S4x1024x1536, .f32⟩ : BufTy).Contents (Elt F)) ]

/-- The channels split and the split and head axes moved outward. -/
abbrev segF : List (HloOp τ sig (Elt F)) :=
  [
    reshape main_v23 main_v24 rfl shapeCasts_S4x1024x1536_S4x1024x3x8x64,
    unary main_v24 main_v25 ((transpose S3x4x8x1024x64 [2, 0, 3, 1, 4] · transposes_S4x1024x3x8x64_S3x4x8x1024x64_2_0_3_1_4) : (⟨S4x1024x3x8x64, .f32⟩ : BufTy).Contents (Elt F) → (⟨S3x4x8x1024x64, .f32⟩ : BufTy).Contents (Elt F)) ]

/-- The spiked q block. -/
abbrev segG : List (HloOp τ sig (Elt F)) :=
  [
    unary main_v25 main_v26 ((extractStridedSlice S1x4x8x1024x64 ![0, 0, 0, 0, 0] · slices_S3x4x8x1024x64_S1x4x8x1024x64_0_0_0_0_0) : (⟨S3x4x8x1024x64, .f32⟩ : BufTy).Contents (Elt F) → (⟨S1x4x8x1024x64, .f32⟩ : BufTy).Contents (Elt F)),
    reshape main_v26 main_v27 rfl shapeCasts_S1x4x8x1024x64_S4x8x1024x64,
    nullary main_cst_5 (constant S_ .f32 0x00000000#32),
    nullary main_cst_6 (constant S_ .f32 0x40800000#32),
    TRef.unary (.of main_cst_5) main_call2.v0 id,
    TRef.unary main_call2.v0 main_call2.v1 (broadcastInDim S4x8x1024x64 ![] bcast_S_S4x8x1024x64),
    TRef.binary main_call2.v1 (.of main_v27) main_call2.v2 maximumf,
    TRef.unary (.of main_cst_6) main_call2.v3 id,
    TRef.unary main_call2.v3 main_call2.v4 (broadcastInDim S4x8x1024x64 ![] bcast_S_S4x8x1024x64),
    TRef.binary main_call2.v4 main_call2.v2 main_call2.v5 minimumf,
    nullary main_cst_7 (constant S_ .f32 0x3F000000#32),
    unary main_cst_7 main_v29 (broadcastInDim S4x8x1024x64 ![] bcast_S_S4x8x1024x64 : (⟨S_, .f32⟩ : BufTy).Contents (Elt F) → (⟨S4x8x1024x64, .f32⟩ : BufTy).Contents (Elt F)),
    binary main_v28 main_v29 main_v30 (addf : (⟨S4x8x1024x64, .f32⟩ : BufTy).Contents (Elt F) → (⟨S4x8x1024x64, .f32⟩ : BufTy).Contents (Elt F) → (⟨S4x8x1024x64, .f32⟩ : BufTy).Contents (Elt F)),
    unary main_v30 main_v31 (Host.floor : (⟨S4x8x1024x64, .f32⟩ : BufTy).Contents (Elt F) → (⟨S4x8x1024x64, .f32⟩ : BufTy).Contents (Elt F)) ]

/-- The spiked k block. -/
abbrev segH : List (HloOp τ sig (Elt F)) :=
  [
    unary main_v25 main_v32 ((extractStridedSlice S1x4x8x1024x64 ![1, 0, 0, 0, 0] · slices_S3x4x8x1024x64_S1x4x8x1024x64_1_0_0_0_0) : (⟨S3x4x8x1024x64, .f32⟩ : BufTy).Contents (Elt F) → (⟨S1x4x8x1024x64, .f32⟩ : BufTy).Contents (Elt F)),
    reshape main_v32 main_v33 rfl shapeCasts_S1x4x8x1024x64_S4x8x1024x64,
    nullary main_cst_8 (constant S_ .f32 0x00000000#32),
    nullary main_cst_9 (constant S_ .f32 0x40800000#32),
    TRef.unary (.of main_cst_8) main_call3.v0 id,
    TRef.unary main_call3.v0 main_call3.v1 (broadcastInDim S4x8x1024x64 ![] bcast_S_S4x8x1024x64),
    TRef.binary main_call3.v1 (.of main_v33) main_call3.v2 maximumf,
    TRef.unary (.of main_cst_9) main_call3.v3 id,
    TRef.unary main_call3.v3 main_call3.v4 (broadcastInDim S4x8x1024x64 ![] bcast_S_S4x8x1024x64),
    TRef.binary main_call3.v4 main_call3.v2 main_call3.v5 minimumf,
    nullary main_cst_10 (constant S_ .f32 0x3F000000#32),
    unary main_cst_10 main_v35 (broadcastInDim S4x8x1024x64 ![] bcast_S_S4x8x1024x64 : (⟨S_, .f32⟩ : BufTy).Contents (Elt F) → (⟨S4x8x1024x64, .f32⟩ : BufTy).Contents (Elt F)),
    binary main_v34 main_v35 main_v36 (addf : (⟨S4x8x1024x64, .f32⟩ : BufTy).Contents (Elt F) → (⟨S4x8x1024x64, .f32⟩ : BufTy).Contents (Elt F) → (⟨S4x8x1024x64, .f32⟩ : BufTy).Contents (Elt F)),
    unary main_v36 main_v37 (Host.floor : (⟨S4x8x1024x64, .f32⟩ : BufTy).Contents (Elt F) → (⟨S4x8x1024x64, .f32⟩ : BufTy).Contents (Elt F)) ]

/-- The spiked v block. -/
abbrev segI : List (HloOp τ sig (Elt F)) :=
  [
    unary main_v25 main_v38 ((extractStridedSlice S1x4x8x1024x64 ![2, 0, 0, 0, 0] · slices_S3x4x8x1024x64_S1x4x8x1024x64_2_0_0_0_0) : (⟨S3x4x8x1024x64, .f32⟩ : BufTy).Contents (Elt F) → (⟨S1x4x8x1024x64, .f32⟩ : BufTy).Contents (Elt F)),
    reshape main_v38 main_v39 rfl shapeCasts_S1x4x8x1024x64_S4x8x1024x64,
    nullary main_cst_11 (constant S_ .f32 0x00000000#32),
    nullary main_cst_12 (constant S_ .f32 0x40800000#32),
    TRef.unary (.of main_cst_11) main_call4.v0 id,
    TRef.unary main_call4.v0 main_call4.v1 (broadcastInDim S4x8x1024x64 ![] bcast_S_S4x8x1024x64),
    TRef.binary main_call4.v1 (.of main_v39) main_call4.v2 maximumf,
    TRef.unary (.of main_cst_12) main_call4.v3 id,
    TRef.unary main_call4.v3 main_call4.v4 (broadcastInDim S4x8x1024x64 ![] bcast_S_S4x8x1024x64),
    TRef.binary main_call4.v4 main_call4.v2 main_call4.v5 minimumf,
    nullary main_cst_13 (constant S_ .f32 0x3F000000#32),
    unary main_cst_13 main_v41 (broadcastInDim S4x8x1024x64 ![] bcast_S_S4x8x1024x64 : (⟨S_, .f32⟩ : BufTy).Contents (Elt F) → (⟨S4x8x1024x64, .f32⟩ : BufTy).Contents (Elt F)),
    binary main_v40 main_v41 main_v42 (addf : (⟨S4x8x1024x64, .f32⟩ : BufTy).Contents (Elt F) → (⟨S4x8x1024x64, .f32⟩ : BufTy).Contents (Elt F) → (⟨S4x8x1024x64, .f32⟩ : BufTy).Contents (Elt F)),
    unary main_v42 main_v43 (Host.floor : (⟨S4x8x1024x64, .f32⟩ : BufTy).Contents (Elt F) → (⟨S4x8x1024x64, .f32⟩ : BufTy).Contents (Elt F)) ]

/-- The spiked scores. -/
abbrev segJ : List (HloOp τ sig (Elt F)) :=
  [
    binary main_v31 main_v37 main_v44 ((fun l r => Host.dotGeneral dot_S4x8x1024x64_S4x8x1024x64_S4x8x1024x1024_3_3_2_2_01_01 none l r) : (⟨S4x8x1024x64, .f32⟩ : BufTy).Contents (Elt F) → (⟨S4x8x1024x64, .f32⟩ : BufTy).Contents (Elt F) → (⟨S4x8x1024x1024, .f32⟩ : BufTy).Contents (Elt F)),
    nullary main_cst_14 (constant S_ .f32 0x00000000#32),
    nullary main_cst_15 (constant S_ .f32 0x40800000#32),
    TRef.unary (.of main_cst_14) main_call5.v0 id,
    TRef.unary main_call5.v0 main_call5.v1 (broadcastInDim S4x8x1024x1024 ![] bcast_S_S4x8x1024x1024),
    TRef.binary main_call5.v1 (.of main_v44) main_call5.v2 maximumf,
    TRef.unary (.of main_cst_15) main_call5.v3 id,
    TRef.unary main_call5.v3 main_call5.v4 (broadcastInDim S4x8x1024x1024 ![] bcast_S_S4x8x1024x1024),
    TRef.binary main_call5.v4 main_call5.v2 main_call5.v5 minimumf,
    nullary main_cst_16 (constant S_ .f32 0x3F000000#32),
    unary main_cst_16 main_v46 (broadcastInDim S4x8x1024x1024 ![] bcast_S_S4x8x1024x1024 : (⟨S_, .f32⟩ : BufTy).Contents (Elt F) → (⟨S4x8x1024x1024, .f32⟩ : BufTy).Contents (Elt F)),
    binary main_v45 main_v46 main_v47 (addf : (⟨S4x8x1024x1024, .f32⟩ : BufTy).Contents (Elt F) → (⟨S4x8x1024x1024, .f32⟩ : BufTy).Contents (Elt F) → (⟨S4x8x1024x1024, .f32⟩ : BufTy).Contents (Elt F)),
    unary main_v47 main_v48 (Host.floor : (⟨S4x8x1024x1024, .f32⟩ : BufTy).Contents (Elt F) → (⟨S4x8x1024x1024, .f32⟩ : BufTy).Contents (Elt F)) ]

/-- The spiked head outputs laid side by side. -/
abbrev segK : List (HloOp τ sig (Elt F)) :=
  [
    binary main_v48 main_v43 main_v49 ((fun l r => Host.dotGeneral dot_S4x8x1024x1024_S4x8x1024x64_S4x8x1024x64_3_2_2_3_01_01 none l r) : (⟨S4x8x1024x1024, .f32⟩ : BufTy).Contents (Elt F) → (⟨S4x8x1024x64, .f32⟩ : BufTy).Contents (Elt F) → (⟨S4x8x1024x64, .f32⟩ : BufTy).Contents (Elt F)),
    nullary main_cst_17 (constant S_ .f32 0x3E000000#32),
    unary main_cst_17 main_v50 (broadcastInDim S4x8x1024x64 ![] bcast_S_S4x8x1024x64 : (⟨S_, .f32⟩ : BufTy).Contents (Elt F) → (⟨S4x8x1024x64, .f32⟩ : BufTy).Contents (Elt F)),
    binary main_v49 main_v50 main_v51 (mulf : (⟨S4x8x1024x64, .f32⟩ : BufTy).Contents (Elt F) → (⟨S4x8x1024x64, .f32⟩ : BufTy).Contents (Elt F) → (⟨S4x8x1024x64, .f32⟩ : BufTy).Contents (Elt F)),
    unary main_v51 main_v52 ((transpose S4x1024x8x64 [0, 2, 1, 3] · transposes_S4x8x1024x64_S4x1024x8x64_0_2_1_3) : (⟨S4x8x1024x64, .f32⟩ : BufTy).Contents (Elt F) → (⟨S4x1024x8x64, .f32⟩ : BufTy).Contents (Elt F)),
    reshape main_v52 main_v53 rfl shapeCasts_S4x1024x8x64_S4x1024x512,
    nullary main_cst_18 (constant S_ .f32 0x00000000#32),
    nullary main_cst_19 (constant S_ .f32 0x40800000#32),
    TRef.unary (.of main_cst_18) main_call6.v0 id,
    TRef.unary main_call6.v0 main_call6.v1 (broadcastInDim S4x1024x512 ![] bcast_S_S4x1024x512),
    TRef.binary main_call6.v1 (.of main_v53) main_call6.v2 maximumf,
    TRef.unary (.of main_cst_19) main_call6.v3 id,
    TRef.unary main_call6.v3 main_call6.v4 (broadcastInDim S4x1024x512 ![] bcast_S_S4x1024x512),
    TRef.binary main_call6.v4 main_call6.v2 main_call6.v5 minimumf,
    nullary main_cst_20 (constant S_ .f32 0x3F000000#32),
    unary main_cst_20 main_v55 (broadcastInDim S4x1024x512 ![] bcast_S_S4x1024x512 : (⟨S_, .f32⟩ : BufTy).Contents (Elt F) → (⟨S4x1024x512, .f32⟩ : BufTy).Contents (Elt F)),
    binary main_v54 main_v55 main_v56 (addf : (⟨S4x1024x512, .f32⟩ : BufTy).Contents (Elt F) → (⟨S4x1024x512, .f32⟩ : BufTy).Contents (Elt F) → (⟨S4x1024x512, .f32⟩ : BufTy).Contents (Elt F)),
    unary main_v56 main_v57 (Host.floor : (⟨S4x1024x512, .f32⟩ : BufTy).Contents (Elt F) → (⟨S4x1024x512, .f32⟩ : BufTy).Contents (Elt F)) ]

/-- The projection of the heads, plus the bias. -/
abbrev segL : List (HloOp τ sig (Elt F)) :=
  [
    binary main_v57 main_arg4 main_v58 ((fun l r => Host.dotGeneral dot_S4x1024x512_S512x512_S4x1024x512_2_1_01_0_n_n none l r) : (⟨S4x1024x512, .f32⟩ : BufTy).Contents (Elt F) → (⟨S512x512, .f32⟩ : BufTy).Contents (Elt F) → (⟨S4x1024x512, .f32⟩ : BufTy).Contents (Elt F)),
    unary main_arg5 main_v59 (broadcastInDim S1x1x512 ![2] bcast_S512_S1x1x512_2 : (⟨S512, .f32⟩ : BufTy).Contents (Elt F) → (⟨S1x1x512, .f32⟩ : BufTy).Contents (Elt F)),
    unary main_v59 main_v60 (broadcastInDim S4x1024x512 ![0, 1, 2] bcast_S1x1x512_S4x1024x512_0_1_2 : (⟨S1x1x512, .f32⟩ : BufTy).Contents (Elt F) → (⟨S4x1024x512, .f32⟩ : BufTy).Contents (Elt F)),
    binary main_v58 main_v60 main_v61 (addf : (⟨S4x1024x512, .f32⟩ : BufTy).Contents (Elt F) → (⟨S4x1024x512, .f32⟩ : BufTy).Contents (Elt F) → (⟨S4x1024x512, .f32⟩ : BufTy).Contents (Elt F)) ]

/-- The line is its twelve stages one after the other. -/
theorem ops_split : (ops : List (HloOp τ sig (Elt F))) = segA ++ (segB ++ (segC ++ (segD ++ (segE ++ (segF ++ (segG ++ (segH ++ (segI ++ (segJ ++ (segK ++ (segL))))))))))) := rfl

/-- The fold over two lines run one after the other is the second's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxRecDepth 8192 in
set_option maxHeartbeats 2000000 in
/-- The spiked tokens: the clip of the tokens, plus one half, floored. Over any contents: the stage's output buffer holds that term of what it reads, and the buffers
    read later and the six arguments are written by none of its operations. -/
theorem segA_facts (W : Valuation τ sig (Elt Ideal)) :
    after segA W (main_v3 : DevRef τ sig) = RefTerm.spkX (W (main_arg0 : DevRef τ sig))
    ∧ after segA W (main_arg0 : DevRef τ sig) = W (main_arg0 : DevRef τ sig)
    ∧ after segA W (main_arg1 : DevRef τ sig) = W (main_arg1 : DevRef τ sig)
    ∧ after segA W (main_arg2 : DevRef τ sig) = W (main_arg2 : DevRef τ sig)
    ∧ after segA W (main_arg3 : DevRef τ sig) = W (main_arg3 : DevRef τ sig)
    ∧ after segA W (main_arg4 : DevRef τ sig) = W (main_arg4 : DevRef τ sig)
    ∧ after segA W (main_arg5 : DevRef τ sig) = W (main_arg5 : DevRef τ sig) := by
  refine ⟨?_, ?_, ?_, ?_, ?_, ?_, ?_⟩ <;> after_results_simp <;> rfl

set_option maxRecDepth 8192 in
set_option maxHeartbeats 2000000 in
/-- The projection of the spiked tokens. Over any contents: the stage's output buffer holds that term of what it reads, and the buffers
    read later and the six arguments are written by none of its operations. -/
theorem segB_facts (W : Valuation τ sig (Elt Ideal)) :
    after segB W (main_v4 : DevRef τ sig) = Host.dotGeneral (F := Ideal) (φ₁ := .f32) (φ₂ := .f32) dot_S4x1024x512_S1536x512_S4x1024x1536_2_1_01_0_n_n none (W (main_v3 : DevRef τ sig)) (W (main_arg1 : DevRef τ sig))
    ∧ after segB W (main_arg0 : DevRef τ sig) = W (main_arg0 : DevRef τ sig)
    ∧ after segB W (main_arg1 : DevRef τ sig) = W (main_arg1 : DevRef τ sig)
    ∧ after segB W (main_arg2 : DevRef τ sig) = W (main_arg2 : DevRef τ sig)
    ∧ after segB W (main_arg3 : DevRef τ sig) = W (main_arg3 : DevRef τ sig)
    ∧ after segB W (main_arg4 : DevRef τ sig) = W (main_arg4 : DevRef τ sig)
    ∧ after segB W (main_arg5 : DevRef τ sig) = W (main_arg5 : DevRef τ sig) := by
  refine ⟨?_, ?_, ?_, ?_, ?_, ?_, ?_⟩ <;> after_results_simp <;> rfl

set_option maxRecDepth 8192 in
set_option maxHeartbeats 2000000 in
/-- The channel means. Over any contents: the stage's output buffer holds that term of what it reads, and the buffers
    read later and the six arguments are written by none of its operations. -/
theorem segC_facts (W : Valuation τ sig (Elt Ideal)) :
    after segC W (main_v7 : DevRef τ sig) = RefTerm.mean (W (main_v4 : DevRef τ sig))
    ∧ after segC W (main_v4 : DevRef τ sig) = W (main_v4 : DevRef τ sig)
    ∧ after segC W (main_arg0 : DevRef τ sig) = W (main_arg0 : DevRef τ sig)
    ∧ after segC W (main_arg1 : DevRef τ sig) = W (main_arg1 : DevRef τ sig)
    ∧ after segC W (main_arg2 : DevRef τ sig) = W (main_arg2 : DevRef τ sig)
    ∧ after segC W (main_arg3 : DevRef τ sig) = W (main_arg3 : DevRef τ sig)
    ∧ after segC W (main_arg4 : DevRef τ sig) = W (main_arg4 : DevRef τ sig)
    ∧ after segC W (main_arg5 : DevRef τ sig) = W (main_arg5 : DevRef τ sig) := by
  refine ⟨?_, ?_, ?_, ?_, ?_, ?_, ?_, ?_⟩ <;> after_results_simp <;> rfl

set_option maxRecDepth 8192 in
set_option maxHeartbeats 2000000 in
/-- The channel variances: the variance function's operations, the select's last. Over any contents: the stage's output buffer holds that term of what it reads, and the buffers
    read later and the six arguments are written by none of its operations. -/
theorem segD_facts (W : Valuation τ sig (Elt Ideal)) :
    after segD W (main_v8 : DevRef τ sig) = RefTerm.var (W (main_v4 : DevRef τ sig))
    ∧ after segD W (main_v4 : DevRef τ sig) = W (main_v4 : DevRef τ sig)
    ∧ after segD W (main_v7 : DevRef τ sig) = W (main_v7 : DevRef τ sig)
    ∧ after segD W (main_arg0 : DevRef τ sig) = W (main_arg0 : DevRef τ sig)
    ∧ after segD W (main_arg1 : DevRef τ sig) = W (main_arg1 : DevRef τ sig)
    ∧ after segD W (main_arg2 : DevRef τ sig) = W (main_arg2 : DevRef τ sig)
    ∧ after segD W (main_arg3 : DevRef τ sig) = W (main_arg3 : DevRef τ sig)
    ∧ after segD W (main_arg4 : DevRef τ sig) = W (main_arg4 : DevRef τ sig)
    ∧ after segD W (main_arg5 : DevRef τ sig) = W (main_arg5 : DevRef τ sig) := by
  refine ⟨?_, ?_, ?_, ?_, ?_, ?_, ?_, ?_, ?_⟩ <;> after_results_simp <;> rfl

set_option maxRecDepth 8192 in
set_option maxHeartbeats 2000000 in
/-- The normalised activations. Over any contents: the stage's output buffer holds that term of what it reads, and the buffers
    read later and the six arguments are written by none of its operations. -/
theorem segE_facts (W : Valuation τ sig (Elt Ideal)) :
    after segE W (main_v23 : DevRef τ sig) = addf (mulf (mulf (subf (W (main_v4 : DevRef τ sig)) (RefTerm.rows (W (main_v7 : DevRef τ sig)))) (RefTerm.rows (Host.rsqrt (F := Ideal) (addf (W (main_v8 : DevRef τ sig)) (RefTerm.splat S1536 bcast_S_S1536 0x3727C5AC#32))))) (RefTerm.rows (W (main_arg2 : DevRef τ sig)))) (RefTerm.rows (W (main_arg3 : DevRef τ sig)))
    ∧ after segE W (main_arg0 : DevRef τ sig) = W (main_arg0 : DevRef τ sig)
    ∧ after segE W (main_arg1 : DevRef τ sig) = W (main_arg1 : DevRef τ sig)
    ∧ after segE W (main_arg2 : DevRef τ sig) = W (main_arg2 : DevRef τ sig)
    ∧ after segE W (main_arg3 : DevRef τ sig) = W (main_arg3 : DevRef τ sig)
    ∧ after segE W (main_arg4 : DevRef τ sig) = W (main_arg4 : DevRef τ sig)
    ∧ after segE W (main_arg5 : DevRef τ sig) = W (main_arg5 : DevRef τ sig) := by
  refine ⟨?_, ?_, ?_, ?_, ?_, ?_, ?_⟩ <;> after_results_simp <;> rfl

set_option maxRecDepth 8192 in
set_option maxHeartbeats 2000000 in
/-- The channels split and the split and head axes moved outward. Over any contents: the stage's output buffer holds that term of what it reads, and the buffers
    read later and the six arguments are written by none of its operations. -/
theorem segF_facts (W : Valuation τ sig (Elt Ideal)) :
    after segF W (main_v25 : DevRef τ sig) = RefTerm.qT (W (main_v23 : DevRef τ sig))
    ∧ after segF W (main_arg0 : DevRef τ sig) = W (main_arg0 : DevRef τ sig)
    ∧ after segF W (main_arg1 : DevRef τ sig) = W (main_arg1 : DevRef τ sig)
    ∧ after segF W (main_arg2 : DevRef τ sig) = W (main_arg2 : DevRef τ sig)
    ∧ after segF W (main_arg3 : DevRef τ sig) = W (main_arg3 : DevRef τ sig)
    ∧ after segF W (main_arg4 : DevRef τ sig) = W (main_arg4 : DevRef τ sig)
    ∧ after segF W (main_arg5 : DevRef τ sig) = W (main_arg5 : DevRef τ sig) := by
  refine ⟨?_, ?_, ?_, ?_, ?_, ?_, ?_⟩ <;> after_results_simp <;> rfl

set_option maxRecDepth 8192 in
set_option maxHeartbeats 2000000 in
/-- The spiked q block. Over any contents: the stage's output buffer holds that term of what it reads, and the buffers
    read later and the six arguments are written by none of its operations. -/
theorem segG_facts (W : Valuation τ sig (Elt Ideal)) :
    after segG W (main_v31 : DevRef τ sig) = RefTerm.qS (W (main_v25 : DevRef τ sig))
    ∧ after segG W (main_v25 : DevRef τ sig) = W (main_v25 : DevRef τ sig)
    ∧ after segG W (main_arg0 : DevRef τ sig) = W (main_arg0 : DevRef τ sig)
    ∧ after segG W (main_arg1 : DevRef τ sig) = W (main_arg1 : DevRef τ sig)
    ∧ after segG W (main_arg2 : DevRef τ sig) = W (main_arg2 : DevRef τ sig)
    ∧ after segG W (main_arg3 : DevRef τ sig) = W (main_arg3 : DevRef τ sig)
    ∧ after segG W (main_arg4 : DevRef τ sig) = W (main_arg4 : DevRef τ sig)
    ∧ after segG W (main_arg5 : DevRef τ sig) = W (main_arg5 : DevRef τ sig) := by
  refine ⟨?_, ?_, ?_, ?_, ?_, ?_, ?_, ?_⟩ <;> after_results_simp <;> rfl

set_option maxRecDepth 8192 in
set_option maxHeartbeats 2000000 in
/-- The spiked k block. Over any contents: the stage's output buffer holds that term of what it reads, and the buffers
    read later and the six arguments are written by none of its operations. -/
theorem segH_facts (W : Valuation τ sig (Elt Ideal)) :
    after segH W (main_v37 : DevRef τ sig) = RefTerm.kS (W (main_v25 : DevRef τ sig))
    ∧ after segH W (main_v25 : DevRef τ sig) = W (main_v25 : DevRef τ sig)
    ∧ after segH W (main_v31 : DevRef τ sig) = W (main_v31 : DevRef τ sig)
    ∧ after segH W (main_arg0 : DevRef τ sig) = W (main_arg0 : DevRef τ sig)
    ∧ after segH W (main_arg1 : DevRef τ sig) = W (main_arg1 : DevRef τ sig)
    ∧ after segH W (main_arg2 : DevRef τ sig) = W (main_arg2 : DevRef τ sig)
    ∧ after segH W (main_arg3 : DevRef τ sig) = W (main_arg3 : DevRef τ sig)
    ∧ after segH W (main_arg4 : DevRef τ sig) = W (main_arg4 : DevRef τ sig)
    ∧ after segH W (main_arg5 : DevRef τ sig) = W (main_arg5 : DevRef τ sig) := by
  refine ⟨?_, ?_, ?_, ?_, ?_, ?_, ?_, ?_, ?_⟩ <;> after_results_simp <;> rfl

set_option maxRecDepth 8192 in
set_option maxHeartbeats 2000000 in
/-- The spiked v block. Over any contents: the stage's output buffer holds that term of what it reads, and the buffers
    read later and the six arguments are written by none of its operations. -/
theorem segI_facts (W : Valuation τ sig (Elt Ideal)) :
    after segI W (main_v43 : DevRef τ sig) = RefTerm.vS (W (main_v25 : DevRef τ sig))
    ∧ after segI W (main_v31 : DevRef τ sig) = W (main_v31 : DevRef τ sig)
    ∧ after segI W (main_v37 : DevRef τ sig) = W (main_v37 : DevRef τ sig)
    ∧ after segI W (main_arg0 : DevRef τ sig) = W (main_arg0 : DevRef τ sig)
    ∧ after segI W (main_arg1 : DevRef τ sig) = W (main_arg1 : DevRef τ sig)
    ∧ after segI W (main_arg2 : DevRef τ sig) = W (main_arg2 : DevRef τ sig)
    ∧ after segI W (main_arg3 : DevRef τ sig) = W (main_arg3 : DevRef τ sig)
    ∧ after segI W (main_arg4 : DevRef τ sig) = W (main_arg4 : DevRef τ sig)
    ∧ after segI W (main_arg5 : DevRef τ sig) = W (main_arg5 : DevRef τ sig) := by
  refine ⟨?_, ?_, ?_, ?_, ?_, ?_, ?_, ?_, ?_⟩ <;> after_results_simp <;> rfl

set_option maxRecDepth 8192 in
set_option maxHeartbeats 2000000 in
/-- The spiked scores. Over any contents: the stage's output buffer holds that term of what it reads, and the buffers
    read later and the six arguments are written by none of its operations. -/
theorem segJ_facts (W : Valuation τ sig (Elt Ideal)) :
    after segJ W (main_v48 : DevRef τ sig) = RefTerm.spike S4x8x1024x1024 bcast_S_S4x8x1024x1024 (Host.dotGeneral (F := Ideal) (φ₁ := .f32) (φ₂ := .f32) dot_S4x8x1024x64_S4x8x1024x64_S4x8x1024x1024_3_3_2_2_01_01 none (W (main_v31 : DevRef τ sig)) (W (main_v37 : DevRef τ sig)))
    ∧ after segJ W (main_v43 : DevRef τ sig) = W (main_v43 : DevRef τ sig)
    ∧ after segJ W (main_arg0 : DevRef τ sig) = W (main_arg0 : DevRef τ sig)
    ∧ after segJ W (main_arg1 : DevRef τ sig) = W (main_arg1 : DevRef τ sig)
    ∧ after segJ W (main_arg2 : DevRef τ sig) = W (main_arg2 : DevRef τ sig)
    ∧ after segJ W (main_arg3 : DevRef τ sig) = W (main_arg3 : DevRef τ sig)
    ∧ after segJ W (main_arg4 : DevRef τ sig) = W (main_arg4 : DevRef τ sig)
    ∧ after segJ W (main_arg5 : DevRef τ sig) = W (main_arg5 : DevRef τ sig) := by
  refine ⟨?_, ?_, ?_, ?_, ?_, ?_, ?_, ?_⟩ <;> after_results_simp <;> rfl

set_option maxRecDepth 8192 in
set_option maxHeartbeats 2000000 in
/-- The spiked head outputs laid side by side. Over any contents: the stage's output buffer holds that term of what it reads, and the buffers
    read later and the six arguments are written by none of its operations. -/
theorem segK_facts (W : Valuation τ sig (Elt Ideal)) :
    after segK W (main_v57 : DevRef τ sig) = RefTerm.spike S4x1024x512 bcast_S_S4x1024x512 (shapeCast S4x1024x512 (transpose S4x1024x8x64 [0, 2, 1, 3] (mulf (Host.dotGeneral (F := Ideal) (φ₁ := .f32) (φ₂ := .f32) dot_S4x8x1024x1024_S4x8x1024x64_S4x8x1024x64_3_2_2_3_01_01 none (W (main_v48 : DevRef τ sig)) (W (main_v43 : DevRef τ sig))) (RefTerm.splat S4x8x1024x64 bcast_S_S4x8x1024x64 0x3E000000#32)) transposes_S4x8x1024x64_S4x1024x8x64_0_2_1_3) shapeCasts_S4x1024x8x64_S4x1024x512)
    ∧ after segK W (main_arg0 : DevRef τ sig) = W (main_arg0 : DevRef τ sig)
    ∧ after segK W (main_arg1 : DevRef τ sig) = W (main_arg1 : DevRef τ sig)
    ∧ after segK W (main_arg2 : DevRef τ sig) = W (main_arg2 : DevRef τ sig)
    ∧ after segK W (main_arg3 : DevRef τ sig) = W (main_arg3 : DevRef τ sig)
    ∧ after segK W (main_arg4 : DevRef τ sig) = W (main_arg4 : DevRef τ sig)
    ∧ after segK W (main_arg5 : DevRef τ sig) = W (main_arg5 : DevRef τ sig) := by
  refine ⟨?_, ?_, ?_, ?_, ?_, ?_, ?_⟩ <;> after_results_simp <;> rfl

set_option maxRecDepth 8192 in
set_option maxHeartbeats 2000000 in
/-- The projection of the heads, plus the bias. Over any contents: the stage's output buffer holds that term of what it reads, and the buffers
    read later and the six arguments are written by none of its operations. -/
theorem segL_facts (W : Valuation τ sig (Elt Ideal)) :
    after segL W (main_v61 : DevRef τ sig) = addf (Host.dotGeneral (F := Ideal) (φ₁ := .f32) (φ₂ := .f32) dot_S4x1024x512_S512x512_S4x1024x512_2_1_01_0_n_n none (W (main_v57 : DevRef τ sig)) (W (main_arg4 : DevRef τ sig))) (broadcastInDim S4x1024x512 ![0, 1, 2] bcast_S1x1x512_S4x1024x512_0_1_2 (broadcastInDim S1x1x512 ![2] bcast_S512_S1x1x512_2 (W (main_arg5 : DevRef τ sig))))
    ∧ after segL W (main_arg0 : DevRef τ sig) = W (main_arg0 : DevRef τ sig)
    ∧ after segL W (main_arg1 : DevRef τ sig) = W (main_arg1 : DevRef τ sig)
    ∧ after segL W (main_arg2 : DevRef τ sig) = W (main_arg2 : DevRef τ sig)
    ∧ after segL W (main_arg3 : DevRef τ sig) = W (main_arg3 : DevRef τ sig)
    ∧ after segL W (main_arg4 : DevRef τ sig) = W (main_arg4 : DevRef τ sig)
    ∧ after segL W (main_arg5 : DevRef τ sig) = W (main_arg5 : DevRef τ sig) := by
  refine ⟨?_, ?_, ?_, ?_, ?_, ?_, ?_⟩ <;> after_results_simp <;> rfl

set_option maxRecDepth 8192 in
set_option maxHeartbeats 2000000 in
/-- The whole line read back over any contents: the result buffer holds the reference term of the six argument
    arrays, and the arguments are unchanged. Stage by stage: each stage's output is its term of what it reads,
    what it reads is what an earlier stage left there, and the stage definitions unfold to the composed term. -/
theorem readback (V : Valuation τ sig (Elt Ideal)) :
    after ops V (main_v61 : DevRef τ sig) = RefTerm.refTerm (V (main_arg0 : DevRef τ sig)) (V (main_arg1 : DevRef τ sig)) (V (main_arg2 : DevRef τ sig)) (V (main_arg3 : DevRef τ sig)) (V (main_arg4 : DevRef τ sig)) (V (main_arg5 : DevRef τ sig))
    ∧ after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig)
    ∧ after ops V (main_arg5 : DevRef τ sig) = V (main_arg5 : DevRef τ sig) := by
  rw [ops_split]
  simp only [after_append]
  -- stage A: The spiked tokens: the clip of the tokens, plus one half, floored.
  have hA := segA_facts V
  generalize after segA V = VA at hA ⊢
  obtain ⟨oA, rA_main_arg0, rA_main_arg1, rA_main_arg2, rA_main_arg3, rA_main_arg4, rA_main_arg5⟩ := hA
  have kA_main_v3 : VA (main_v3 : DevRef τ sig) = RefTerm.spkX (V (main_arg0 : DevRef τ sig)) := oA
  have kA_main_arg0 : VA (main_arg0 : DevRef τ sig) = V (main_arg0 : DevRef τ sig) := rA_main_arg0
  have kA_main_arg1 : VA (main_arg1 : DevRef τ sig) = V (main_arg1 : DevRef τ sig) := rA_main_arg1
  have kA_main_arg2 : VA (main_arg2 : DevRef τ sig) = V (main_arg2 : DevRef τ sig) := rA_main_arg2
  have kA_main_arg3 : VA (main_arg3 : DevRef τ sig) = V (main_arg3 : DevRef τ sig) := rA_main_arg3
  have kA_main_arg4 : VA (main_arg4 : DevRef τ sig) = V (main_arg4 : DevRef τ sig) := rA_main_arg4
  have kA_main_arg5 : VA (main_arg5 : DevRef τ sig) = V (main_arg5 : DevRef τ sig) := rA_main_arg5
  -- stage B: The projection of the spiked tokens.
  have hB := segB_facts VA
  generalize after segB VA = VB at hB ⊢
  obtain ⟨oB, rB_main_arg0, rB_main_arg1, rB_main_arg2, rB_main_arg3, rB_main_arg4, rB_main_arg5⟩ := hB
  have kB_main_v4 : VB (main_v4 : DevRef τ sig) = RefTerm.qkv (V (main_arg0 : DevRef τ sig)) (V (main_arg1 : DevRef τ sig)) := oB.trans (by rw [kA_main_v3, kA_main_arg1] <;> rfl)
  have kB_main_arg0 : VB (main_arg0 : DevRef τ sig) = V (main_arg0 : DevRef τ sig) := rB_main_arg0.trans kA_main_arg0
  have kB_main_arg1 : VB (main_arg1 : DevRef τ sig) = V (main_arg1 : DevRef τ sig) := rB_main_arg1.trans kA_main_arg1
  have kB_main_arg2 : VB (main_arg2 : DevRef τ sig) = V (main_arg2 : DevRef τ sig) := rB_main_arg2.trans kA_main_arg2
  have kB_main_arg3 : VB (main_arg3 : DevRef τ sig) = V (main_arg3 : DevRef τ sig) := rB_main_arg3.trans kA_main_arg3
  have kB_main_arg4 : VB (main_arg4 : DevRef τ sig) = V (main_arg4 : DevRef τ sig) := rB_main_arg4.trans kA_main_arg4
  have kB_main_arg5 : VB (main_arg5 : DevRef τ sig) = V (main_arg5 : DevRef τ sig) := rB_main_arg5.trans kA_main_arg5
  -- stage C: The channel means.
  have hC := segC_facts VB
  generalize after segC VB = VC at hC ⊢
  obtain ⟨oC, rC_main_v4, rC_main_arg0, rC_main_arg1, rC_main_arg2, rC_main_arg3, rC_main_arg4, rC_main_arg5⟩ := hC
  have kC_main_v7 : VC (main_v7 : DevRef τ sig) = RefTerm.mean (RefTerm.qkv (V (main_arg0 : DevRef τ sig)) (V (main_arg1 : DevRef τ sig))) := oC.trans (by rw [kB_main_v4] <;> rfl)
  have kC_main_v4 : VC (main_v4 : DevRef τ sig) = RefTerm.qkv (V (main_arg0 : DevRef τ sig)) (V (main_arg1 : DevRef τ sig)) := rC_main_v4.trans kB_main_v4
  have kC_main_arg0 : VC (main_arg0 : DevRef τ sig) = V (main_arg0 : DevRef τ sig) := rC_main_arg0.trans kB_main_arg0
  have kC_main_arg1 : VC (main_arg1 : DevRef τ sig) = V (main_arg1 : DevRef τ sig) := rC_main_arg1.trans kB_main_arg1
  have kC_main_arg2 : VC (main_arg2 : DevRef τ sig) = V (main_arg2 : DevRef τ sig) := rC_main_arg2.trans kB_main_arg2
  have kC_main_arg3 : VC (main_arg3 : DevRef τ sig) = V (main_arg3 : DevRef τ sig) := rC_main_arg3.trans kB_main_arg3
  have kC_main_arg4 : VC (main_arg4 : DevRef τ sig) = V (main_arg4 : DevRef τ sig) := rC_main_arg4.trans kB_main_arg4
  have kC_main_arg5 : VC (main_arg5 : DevRef τ sig) = V (main_arg5 : DevRef τ sig) := rC_main_arg5.trans kB_main_arg5
  -- stage D: The channel variances: the variance function's operations, the select's last.
  have hD := segD_facts VC
  generalize after segD VC = VD at hD ⊢
  obtain ⟨oD, rD_main_v4, rD_main_v7, rD_main_arg0, rD_main_arg1, rD_main_arg2, rD_main_arg3, rD_main_arg4, rD_main_arg5⟩ := hD
  have kD_main_v8 : VD (main_v8 : DevRef τ sig) = RefTerm.var (RefTerm.qkv (V (main_arg0 : DevRef τ sig)) (V (main_arg1 : DevRef τ sig))) := oD.trans (by rw [kC_main_v4] <;> rfl)
  have kD_main_v4 : VD (main_v4 : DevRef τ sig) = RefTerm.qkv (V (main_arg0 : DevRef τ sig)) (V (main_arg1 : DevRef τ sig)) := rD_main_v4.trans kC_main_v4
  have kD_main_v7 : VD (main_v7 : DevRef τ sig) = RefTerm.mean (RefTerm.qkv (V (main_arg0 : DevRef τ sig)) (V (main_arg1 : DevRef τ sig))) := rD_main_v7.trans kC_main_v7
  have kD_main_arg0 : VD (main_arg0 : DevRef τ sig) = V (main_arg0 : DevRef τ sig) := rD_main_arg0.trans kC_main_arg0
  have kD_main_arg1 : VD (main_arg1 : DevRef τ sig) = V (main_arg1 : DevRef τ sig) := rD_main_arg1.trans kC_main_arg1
  have kD_main_arg2 : VD (main_arg2 : DevRef τ sig) = V (main_arg2 : DevRef τ sig) := rD_main_arg2.trans kC_main_arg2
  have kD_main_arg3 : VD (main_arg3 : DevRef τ sig) = V (main_arg3 : DevRef τ sig) := rD_main_arg3.trans kC_main_arg3
  have kD_main_arg4 : VD (main_arg4 : DevRef τ sig) = V (main_arg4 : DevRef τ sig) := rD_main_arg4.trans kC_main_arg4
  have kD_main_arg5 : VD (main_arg5 : DevRef τ sig) = V (main_arg5 : DevRef τ sig) := rD_main_arg5.trans kC_main_arg5
  -- stage E: The normalised activations.
  have hE := segE_facts VD
  generalize after segE VD = VE at hE ⊢
  obtain ⟨oE, rE_main_arg0, rE_main_arg1, rE_main_arg2, rE_main_arg3, rE_main_arg4, rE_main_arg5⟩ := hE
  have kE_main_v23 : VE (main_v23 : DevRef τ sig) = RefTerm.normed (RefTerm.qkv (V (main_arg0 : DevRef τ sig)) (V (main_arg1 : DevRef τ sig))) (V (main_arg2 : DevRef τ sig)) (V (main_arg3 : DevRef τ sig)) := oE.trans (by rw [kD_main_v4, kD_main_v7, kD_main_v8, kD_main_arg2, kD_main_arg3] <;> rfl)
  have kE_main_arg0 : VE (main_arg0 : DevRef τ sig) = V (main_arg0 : DevRef τ sig) := rE_main_arg0.trans kD_main_arg0
  have kE_main_arg1 : VE (main_arg1 : DevRef τ sig) = V (main_arg1 : DevRef τ sig) := rE_main_arg1.trans kD_main_arg1
  have kE_main_arg2 : VE (main_arg2 : DevRef τ sig) = V (main_arg2 : DevRef τ sig) := rE_main_arg2.trans kD_main_arg2
  have kE_main_arg3 : VE (main_arg3 : DevRef τ sig) = V (main_arg3 : DevRef τ sig) := rE_main_arg3.trans kD_main_arg3
  have kE_main_arg4 : VE (main_arg4 : DevRef τ sig) = V (main_arg4 : DevRef τ sig) := rE_main_arg4.trans kD_main_arg4
  have kE_main_arg5 : VE (main_arg5 : DevRef τ sig) = V (main_arg5 : DevRef τ sig) := rE_main_arg5.trans kD_main_arg5
  -- stage F: The channels split and the split and head axes moved outward.
  have hF := segF_facts VE
  generalize after segF VE = VF at hF ⊢
  obtain ⟨oF, rF_main_arg0, rF_main_arg1, rF_main_arg2, rF_main_arg3, rF_main_arg4, rF_main_arg5⟩ := hF
  have kF_main_v25 : VF (main_v25 : DevRef τ sig) = RefTerm.qT (RefTerm.normed (RefTerm.qkv (V (main_arg0 : DevRef τ sig)) (V (main_arg1 : DevRef τ sig))) (V (main_arg2 : DevRef τ sig)) (V (main_arg3 : DevRef τ sig))) := oF.trans (by rw [kE_main_v23] <;> rfl)
  have kF_main_arg0 : VF (main_arg0 : DevRef τ sig) = V (main_arg0 : DevRef τ sig) := rF_main_arg0.trans kE_main_arg0
  have kF_main_arg1 : VF (main_arg1 : DevRef τ sig) = V (main_arg1 : DevRef τ sig) := rF_main_arg1.trans kE_main_arg1
  have kF_main_arg2 : VF (main_arg2 : DevRef τ sig) = V (main_arg2 : DevRef τ sig) := rF_main_arg2.trans kE_main_arg2
  have kF_main_arg3 : VF (main_arg3 : DevRef τ sig) = V (main_arg3 : DevRef τ sig) := rF_main_arg3.trans kE_main_arg3
  have kF_main_arg4 : VF (main_arg4 : DevRef τ sig) = V (main_arg4 : DevRef τ sig) := rF_main_arg4.trans kE_main_arg4
  have kF_main_arg5 : VF (main_arg5 : DevRef τ sig) = V (main_arg5 : DevRef τ sig) := rF_main_arg5.trans kE_main_arg5
  -- stage G: The spiked q block.
  have hG := segG_facts VF
  generalize after segG VF = VG at hG ⊢
  obtain ⟨oG, rG_main_v25, rG_main_arg0, rG_main_arg1, rG_main_arg2, rG_main_arg3, rG_main_arg4, rG_main_arg5⟩ := hG
  have kG_main_v31 : VG (main_v31 : DevRef τ sig) = RefTerm.qS (RefTerm.qT (RefTerm.normed (RefTerm.qkv (V (main_arg0 : DevRef τ sig)) (V (main_arg1 : DevRef τ sig))) (V (main_arg2 : DevRef τ sig)) (V (main_arg3 : DevRef τ sig)))) := oG.trans (by rw [kF_main_v25] <;> rfl)
  have kG_main_v25 : VG (main_v25 : DevRef τ sig) = RefTerm.qT (RefTerm.normed (RefTerm.qkv (V (main_arg0 : DevRef τ sig)) (V (main_arg1 : DevRef τ sig))) (V (main_arg2 : DevRef τ sig)) (V (main_arg3 : DevRef τ sig))) := rG_main_v25.trans kF_main_v25
  have kG_main_arg0 : VG (main_arg0 : DevRef τ sig) = V (main_arg0 : DevRef τ sig) := rG_main_arg0.trans kF_main_arg0
  have kG_main_arg1 : VG (main_arg1 : DevRef τ sig) = V (main_arg1 : DevRef τ sig) := rG_main_arg1.trans kF_main_arg1
  have kG_main_arg2 : VG (main_arg2 : DevRef τ sig) = V (main_arg2 : DevRef τ sig) := rG_main_arg2.trans kF_main_arg2
  have kG_main_arg3 : VG (main_arg3 : DevRef τ sig) = V (main_arg3 : DevRef τ sig) := rG_main_arg3.trans kF_main_arg3
  have kG_main_arg4 : VG (main_arg4 : DevRef τ sig) = V (main_arg4 : DevRef τ sig) := rG_main_arg4.trans kF_main_arg4
  have kG_main_arg5 : VG (main_arg5 : DevRef τ sig) = V (main_arg5 : DevRef τ sig) := rG_main_arg5.trans kF_main_arg5
  -- stage H: The spiked k block.
  have hH := segH_facts VG
  generalize after segH VG = VH at hH ⊢
  obtain ⟨oH, rH_main_v25, rH_main_v31, rH_main_arg0, rH_main_arg1, rH_main_arg2, rH_main_arg3, rH_main_arg4, rH_main_arg5⟩ := hH
  have kH_main_v37 : VH (main_v37 : DevRef τ sig) = RefTerm.kS (RefTerm.qT (RefTerm.normed (RefTerm.qkv (V (main_arg0 : DevRef τ sig)) (V (main_arg1 : DevRef τ sig))) (V (main_arg2 : DevRef τ sig)) (V (main_arg3 : DevRef τ sig)))) := oH.trans (by rw [kG_main_v25] <;> rfl)
  have kH_main_v25 : VH (main_v25 : DevRef τ sig) = RefTerm.qT (RefTerm.normed (RefTerm.qkv (V (main_arg0 : DevRef τ sig)) (V (main_arg1 : DevRef τ sig))) (V (main_arg2 : DevRef τ sig)) (V (main_arg3 : DevRef τ sig))) := rH_main_v25.trans kG_main_v25
  have kH_main_v31 : VH (main_v31 : DevRef τ sig) = RefTerm.qS (RefTerm.qT (RefTerm.normed (RefTerm.qkv (V (main_arg0 : DevRef τ sig)) (V (main_arg1 : DevRef τ sig))) (V (main_arg2 : DevRef τ sig)) (V (main_arg3 : DevRef τ sig)))) := rH_main_v31.trans kG_main_v31
  have kH_main_arg0 : VH (main_arg0 : DevRef τ sig) = V (main_arg0 : DevRef τ sig) := rH_main_arg0.trans kG_main_arg0
  have kH_main_arg1 : VH (main_arg1 : DevRef τ sig) = V (main_arg1 : DevRef τ sig) := rH_main_arg1.trans kG_main_arg1
  have kH_main_arg2 : VH (main_arg2 : DevRef τ sig) = V (main_arg2 : DevRef τ sig) := rH_main_arg2.trans kG_main_arg2
  have kH_main_arg3 : VH (main_arg3 : DevRef τ sig) = V (main_arg3 : DevRef τ sig) := rH_main_arg3.trans kG_main_arg3
  have kH_main_arg4 : VH (main_arg4 : DevRef τ sig) = V (main_arg4 : DevRef τ sig) := rH_main_arg4.trans kG_main_arg4
  have kH_main_arg5 : VH (main_arg5 : DevRef τ sig) = V (main_arg5 : DevRef τ sig) := rH_main_arg5.trans kG_main_arg5
  -- stage I: The spiked v block.
  have hI := segI_facts VH
  generalize after segI VH = VI at hI ⊢
  obtain ⟨oI, rI_main_v31, rI_main_v37, rI_main_arg0, rI_main_arg1, rI_main_arg2, rI_main_arg3, rI_main_arg4, rI_main_arg5⟩ := hI
  have kI_main_v43 : VI (main_v43 : DevRef τ sig) = RefTerm.vS (RefTerm.qT (RefTerm.normed (RefTerm.qkv (V (main_arg0 : DevRef τ sig)) (V (main_arg1 : DevRef τ sig))) (V (main_arg2 : DevRef τ sig)) (V (main_arg3 : DevRef τ sig)))) := oI.trans (by rw [kH_main_v25] <;> rfl)
  have kI_main_v31 : VI (main_v31 : DevRef τ sig) = RefTerm.qS (RefTerm.qT (RefTerm.normed (RefTerm.qkv (V (main_arg0 : DevRef τ sig)) (V (main_arg1 : DevRef τ sig))) (V (main_arg2 : DevRef τ sig)) (V (main_arg3 : DevRef τ sig)))) := rI_main_v31.trans kH_main_v31
  have kI_main_v37 : VI (main_v37 : DevRef τ sig) = RefTerm.kS (RefTerm.qT (RefTerm.normed (RefTerm.qkv (V (main_arg0 : DevRef τ sig)) (V (main_arg1 : DevRef τ sig))) (V (main_arg2 : DevRef τ sig)) (V (main_arg3 : DevRef τ sig)))) := rI_main_v37.trans kH_main_v37
  have kI_main_arg0 : VI (main_arg0 : DevRef τ sig) = V (main_arg0 : DevRef τ sig) := rI_main_arg0.trans kH_main_arg0
  have kI_main_arg1 : VI (main_arg1 : DevRef τ sig) = V (main_arg1 : DevRef τ sig) := rI_main_arg1.trans kH_main_arg1
  have kI_main_arg2 : VI (main_arg2 : DevRef τ sig) = V (main_arg2 : DevRef τ sig) := rI_main_arg2.trans kH_main_arg2
  have kI_main_arg3 : VI (main_arg3 : DevRef τ sig) = V (main_arg3 : DevRef τ sig) := rI_main_arg3.trans kH_main_arg3
  have kI_main_arg4 : VI (main_arg4 : DevRef τ sig) = V (main_arg4 : DevRef τ sig) := rI_main_arg4.trans kH_main_arg4
  have kI_main_arg5 : VI (main_arg5 : DevRef τ sig) = V (main_arg5 : DevRef τ sig) := rI_main_arg5.trans kH_main_arg5
  -- stage J: The spiked scores.
  have hJ := segJ_facts VI
  generalize after segJ VI = VJ at hJ ⊢
  obtain ⟨oJ, rJ_main_v43, rJ_main_arg0, rJ_main_arg1, rJ_main_arg2, rJ_main_arg3, rJ_main_arg4, rJ_main_arg5⟩ := hJ
  have kJ_main_v48 : VJ (main_v48 : DevRef τ sig) = RefTerm.scores (RefTerm.qT (RefTerm.normed (RefTerm.qkv (V (main_arg0 : DevRef τ sig)) (V (main_arg1 : DevRef τ sig))) (V (main_arg2 : DevRef τ sig)) (V (main_arg3 : DevRef τ sig)))) := oJ.trans (by rw [kI_main_v31, kI_main_v37] <;> rfl)
  have kJ_main_v43 : VJ (main_v43 : DevRef τ sig) = RefTerm.vS (RefTerm.qT (RefTerm.normed (RefTerm.qkv (V (main_arg0 : DevRef τ sig)) (V (main_arg1 : DevRef τ sig))) (V (main_arg2 : DevRef τ sig)) (V (main_arg3 : DevRef τ sig)))) := rJ_main_v43.trans kI_main_v43
  have kJ_main_arg0 : VJ (main_arg0 : DevRef τ sig) = V (main_arg0 : DevRef τ sig) := rJ_main_arg0.trans kI_main_arg0
  have kJ_main_arg1 : VJ (main_arg1 : DevRef τ sig) = V (main_arg1 : DevRef τ sig) := rJ_main_arg1.trans kI_main_arg1
  have kJ_main_arg2 : VJ (main_arg2 : DevRef τ sig) = V (main_arg2 : DevRef τ sig) := rJ_main_arg2.trans kI_main_arg2
  have kJ_main_arg3 : VJ (main_arg3 : DevRef τ sig) = V (main_arg3 : DevRef τ sig) := rJ_main_arg3.trans kI_main_arg3
  have kJ_main_arg4 : VJ (main_arg4 : DevRef τ sig) = V (main_arg4 : DevRef τ sig) := rJ_main_arg4.trans kI_main_arg4
  have kJ_main_arg5 : VJ (main_arg5 : DevRef τ sig) = V (main_arg5 : DevRef τ sig) := rJ_main_arg5.trans kI_main_arg5
  -- stage K: The spiked head outputs laid side by side.
  have hK := segK_facts VJ
  generalize after segK VJ = VK at hK ⊢
  obtain ⟨oK, rK_main_arg0, rK_main_arg1, rK_main_arg2, rK_main_arg3, rK_main_arg4, rK_main_arg5⟩ := hK
  have kK_main_v57 : VK (main_v57 : DevRef τ sig) = RefTerm.heads (RefTerm.qT (RefTerm.normed (RefTerm.qkv (V (main_arg0 : DevRef τ sig)) (V (main_arg1 : DevRef τ sig))) (V (main_arg2 : DevRef τ sig)) (V (main_arg3 : DevRef τ sig)))) := oK.trans (by rw [kJ_main_v48, kJ_main_v43] <;> rfl)
  have kK_main_arg0 : VK (main_arg0 : DevRef τ sig) = V (main_arg0 : DevRef τ sig) := rK_main_arg0.trans kJ_main_arg0
  have kK_main_arg1 : VK (main_arg1 : DevRef τ sig) = V (main_arg1 : DevRef τ sig) := rK_main_arg1.trans kJ_main_arg1
  have kK_main_arg2 : VK (main_arg2 : DevRef τ sig) = V (main_arg2 : DevRef τ sig) := rK_main_arg2.trans kJ_main_arg2
  have kK_main_arg3 : VK (main_arg3 : DevRef τ sig) = V (main_arg3 : DevRef τ sig) := rK_main_arg3.trans kJ_main_arg3
  have kK_main_arg4 : VK (main_arg4 : DevRef τ sig) = V (main_arg4 : DevRef τ sig) := rK_main_arg4.trans kJ_main_arg4
  have kK_main_arg5 : VK (main_arg5 : DevRef τ sig) = V (main_arg5 : DevRef τ sig) := rK_main_arg5.trans kJ_main_arg5
  -- stage L: The projection of the heads, plus the bias.
  have hL := segL_facts VK
  generalize after segL VK = VL at hL ⊢
  obtain ⟨oL, rL_main_arg0, rL_main_arg1, rL_main_arg2, rL_main_arg3, rL_main_arg4, rL_main_arg5⟩ := hL
  have kL_main_v61 : VL (main_v61 : DevRef τ sig) = RefTerm.refTerm (V (main_arg0 : DevRef τ sig)) (V (main_arg1 : DevRef τ sig)) (V (main_arg2 : DevRef τ sig)) (V (main_arg3 : DevRef τ sig)) (V (main_arg4 : DevRef τ sig)) (V (main_arg5 : DevRef τ sig)) := oL.trans (by rw [kK_main_v57, kK_main_arg4, kK_main_arg5] <;> rfl)
  have kL_main_arg0 : VL (main_arg0 : DevRef τ sig) = V (main_arg0 : DevRef τ sig) := rL_main_arg0.trans kK_main_arg0
  have kL_main_arg1 : VL (main_arg1 : DevRef τ sig) = V (main_arg1 : DevRef τ sig) := rL_main_arg1.trans kK_main_arg1
  have kL_main_arg2 : VL (main_arg2 : DevRef τ sig) = V (main_arg2 : DevRef τ sig) := rL_main_arg2.trans kK_main_arg2
  have kL_main_arg3 : VL (main_arg3 : DevRef τ sig) = V (main_arg3 : DevRef τ sig) := rL_main_arg3.trans kK_main_arg3
  have kL_main_arg4 : VL (main_arg4 : DevRef τ sig) = V (main_arg4 : DevRef τ sig) := rL_main_arg4.trans kK_main_arg4
  have kL_main_arg5 : VL (main_arg5 : DevRef τ sig) = V (main_arg5 : DevRef τ sig) := rL_main_arg5.trans kK_main_arg5
  exact ⟨kL_main_v61, kL_main_arg0, kL_main_arg1, kL_main_arg2, kL_main_arg3, kL_main_arg4, kL_main_arg5⟩

/-- On every device, from any memory with zero counters: every weakly fair execution of the reference program
    terminates with the result buffer at the reference term of the six argument arrays and the arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v61) = RefTerm.refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => by
      obtain ⟨e, e0, e1, e2, e3, e4, e5⟩ := readback (launchContents m c)
      exact ⟨(h c main_v61).trans e, (h c main_arg0).trans e0, (h c main_arg1).trans e1, (h c main_arg2).trans e2,
        (h c main_arg3).trans e3, (h c main_arg4).trans e4, (h c main_arg5).trans e5⟩)
    (run_seq scopedRefs_eq scopedSems_eq defs main (fun _ => ops) main_eq (fun _ => ops_sub) m ρ)

/-- The run alone: the reference program terminates from any such memory with its six arguments unchanged. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run m ρ)

end Cert.ReferenceIdeal.RefRun

end
-- ==== Proof.RefOps.lean ====
/-
  The non-pointwise operations of the reference program, each read at one index of its result, at the exact values:
  the three contractions as finite sums of products, the two-axis add-reduction as the initial value plus a double
  sum, and the broadcasts, reshapes, transposes and slices as the operand at the corresponding index.
  Channel d of the 1536 channels is 512·s + 64·h + e (block s of q/k/v, head h, lane e).
-/
import proofs.«103527_j53025666236638_2_alg».proof.ReferenceIdeal
import proofs.«103527_j53025666236638_2_alg».proof.Proof.LibIdxSums
import Idealize.ShloMosaic.Lib.ValueIdx
import Idealize.ShloMosaic.Lib.Pipeline.Value
import Idealize.ShloMosaic.PureOps.Ideal.Laws

noncomputable section

open scoped BigOperators

namespace Cert.ReferenceIdeal.RefOps

open Idealize.ShloMosaic Idealize.ShloMosaic.ValueIdx
open Cert.ReferenceIdeal

variable [Facts₀]
open Facts₀

/-- The projection contraction: [4,1024,512] against [1536,512] over the last axes, at (b, n, d). -/
theorem dot_proj_apply (l : FVec Ideal S4x1024x512 .f32) (r : FVec Ideal S1536x512 .f32)
    (b : Fin 4) (n : Fin 1024) (d : Fin 1536) :
    Host.dotGeneral dot_S4x1024x512_S1536x512_S4x1024x1536_2_1_01_0_n_n none l r (ix3 b n d)
      = ∑ k : Fin 512, l (ix3 b n k) * r (ix2 d k) := by
  show FloatOps.dotGeneral _ none _ l r (ix3 b n d) = _
  rw [Ideal.dotGeneral_apply,
    ← Equiv.sum_comp (contrEquiv1 dot_S4x1024x512_S1536x512_S4x1024x1536_2_1_01_0_n_n 512 rfl rfl).symm]
  refine Finset.sum_congr rfl fun c _ => ?_
  have c3 := contrEquiv1_symm_val dot_S4x1024x512_S1536x512_S4x1024x1536_2_1_01_0_n_n 512 rfl rfl c
  have l3 : dot_S4x1024x512_S1536x512_S4x1024x1536_2_1_01_0_n_n.lhsIdx (ix3 b n d)
      ((contrEquiv1 _ 512 rfl rfl).symm c) = ix3 b n c := by
    funext ax; apply Fin.ext
    match ax with
    | ⟨0, _⟩ => simp [DotDims.lhsIdx, dot_S4x1024x512_S1536x512_S4x1024x1536_2_1_01_0_n_n]; rfl
    | ⟨1, _⟩ => simp [DotDims.lhsIdx, dot_S4x1024x512_S1536x512_S4x1024x1536_2_1_01_0_n_n]; rfl
    | ⟨2, _⟩ => simp [DotDims.lhsIdx, dot_S4x1024x512_S1536x512_S4x1024x1536_2_1_01_0_n_n]; exact c3
  have r3 : dot_S4x1024x512_S1536x512_S4x1024x1536_2_1_01_0_n_n.rhsIdx (ix3 b n d)
      ((contrEquiv1 _ 512 rfl rfl).symm c) = ix2 d c := by
    funext ax; apply Fin.ext
    match ax with
    | ⟨0, _⟩ => simp [DotDims.rhsIdx, dot_S4x1024x512_S1536x512_S4x1024x1536_2_1_01_0_n_n]; rfl
    | ⟨1, _⟩ => simp [DotDims.rhsIdx, dot_S4x1024x512_S1536x512_S4x1024x1536_2_1_01_0_n_n]; exact c3
  rw [l3, r3]

/-- The scores contraction: q and k of one head over the 64 lanes, at (b, h, n, m). -/
theorem dot_scores_apply (l : FVec Ideal S4x8x1024x64 .f32) (r : FVec Ideal S4x8x1024x64 .f32)
    (b : Fin 4) (h : Fin 8) (n m : Fin 1024) :
    Host.dotGeneral dot_S4x8x1024x64_S4x8x1024x64_S4x8x1024x1024_3_3_2_2_01_01 none l r (ix4 b h n m)
      = ∑ k : Fin 64, l (ix4 b h n k) * r (ix4 b h m k) := by
  show FloatOps.dotGeneral _ none _ l r (ix4 b h n m) = _
  rw [Ideal.dotGeneral_apply,
    ← Equiv.sum_comp (contrEquiv1 dot_S4x8x1024x64_S4x8x1024x64_S4x8x1024x1024_3_3_2_2_01_01 64 rfl rfl).symm]
  refine Finset.sum_congr rfl fun c _ => ?_
  have c3 := contrEquiv1_symm_val dot_S4x8x1024x64_S4x8x1024x64_S4x8x1024x1024_3_3_2_2_01_01 64 rfl rfl c
  have l3 : dot_S4x8x1024x64_S4x8x1024x64_S4x8x1024x1024_3_3_2_2_01_01.lhsIdx (ix4 b h n m)
      ((contrEquiv1 _ 64 rfl rfl).symm c) = ix4 b h n c := by
    funext ax; apply Fin.ext
    match ax with
    | ⟨0, _⟩ => simp [DotDims.lhsIdx, dot_S4x8x1024x64_S4x8x1024x64_S4x8x1024x1024_3_3_2_2_01_01]; rfl
    | ⟨1, _⟩ => simp [DotDims.lhsIdx, dot_S4x8x1024x64_S4x8x1024x64_S4x8x1024x1024_3_3_2_2_01_01]; rfl
    | ⟨2, _⟩ => simp [DotDims.lhsIdx, dot_S4x8x1024x64_S4x8x1024x64_S4x8x1024x1024_3_3_2_2_01_01]; rfl
    | ⟨3, _⟩ => simp [DotDims.lhsIdx, dot_S4x8x1024x64_S4x8x1024x64_S4x8x1024x1024_3_3_2_2_01_01]; exact c3
  have r3 : dot_S4x8x1024x64_S4x8x1024x64_S4x8x1024x1024_3_3_2_2_01_01.rhsIdx (ix4 b h n m)
      ((contrEquiv1 _ 64 rfl rfl).symm c) = ix4 b h m c := by
    funext ax; apply Fin.ext
    match ax with
    | ⟨0, _⟩ => simp [DotDims.rhsIdx, dot_S4x8x1024x64_S4x8x1024x64_S4x8x1024x1024_3_3_2_2_01_01]; rfl
    | ⟨1, _⟩ => simp [DotDims.rhsIdx, dot_S4x8x1024x64_S4x8x1024x64_S4x8x1024x1024_3_3_2_2_01_01]; rfl
    | ⟨2, _⟩ => simp [DotDims.rhsIdx, dot_S4x8x1024x64_S4x8x1024x64_S4x8x1024x1024_3_3_2_2_01_01]; rfl
    | ⟨3, _⟩ => simp [DotDims.rhsIdx, dot_S4x8x1024x64_S4x8x1024x64_S4x8x1024x1024_3_3_2_2_01_01]; exact c3
  rw [l3, r3]

/-- The weighted sum of v by the scores over the 1024 rows, at (b, h, n, e). -/
theorem dot_av_apply (l : FVec Ideal S4x8x1024x1024 .f32) (r : FVec Ideal S4x8x1024x64 .f32)
    (b : Fin 4) (h : Fin 8) (n : Fin 1024) (e : Fin 64) :
    Host.dotGeneral dot_S4x8x1024x1024_S4x8x1024x64_S4x8x1024x64_3_2_2_3_01_01 none l r (ix4 b h n e)
      = ∑ k : Fin 1024, l (ix4 b h n k) * r (ix4 b h k e) := by
  show FloatOps.dotGeneral _ none _ l r (ix4 b h n e) = _
  rw [Ideal.dotGeneral_apply,
    ← Equiv.sum_comp (contrEquiv1 dot_S4x8x1024x1024_S4x8x1024x64_S4x8x1024x64_3_2_2_3_01_01 1024 rfl rfl).symm]
  refine Finset.sum_congr rfl fun c _ => ?_
  have c3 := contrEquiv1_symm_val dot_S4x8x1024x1024_S4x8x1024x64_S4x8x1024x64_3_2_2_3_01_01 1024 rfl rfl c
  have l3 : dot_S4x8x1024x1024_S4x8x1024x64_S4x8x1024x64_3_2_2_3_01_01.lhsIdx (ix4 b h n e)
      ((contrEquiv1 _ 1024 rfl rfl).symm c) = ix4 b h n c := by
    funext ax; apply Fin.ext
    match ax with
    | ⟨0, _⟩ => simp [DotDims.lhsIdx, dot_S4x8x1024x1024_S4x8x1024x64_S4x8x1024x64_3_2_2_3_01_01]; rfl
    | ⟨1, _⟩ => simp [DotDims.lhsIdx, dot_S4x8x1024x1024_S4x8x1024x64_S4x8x1024x64_3_2_2_3_01_01]; rfl
    | ⟨2, _⟩ => simp [DotDims.lhsIdx, dot_S4x8x1024x1024_S4x8x1024x64_S4x8x1024x64_3_2_2_3_01_01]; rfl
    | ⟨3, _⟩ => simp [DotDims.lhsIdx, dot_S4x8x1024x1024_S4x8x1024x64_S4x8x1024x64_3_2_2_3_01_01]; exact c3
  have r3 : dot_S4x8x1024x1024_S4x8x1024x64_S4x8x1024x64_3_2_2_3_01_01.rhsIdx (ix4 b h n e)
      ((contrEquiv1 _ 1024 rfl rfl).symm c) = ix4 b h c e := by
    funext ax; apply Fin.ext
    match ax with
    | ⟨0, _⟩ => simp [DotDims.rhsIdx, dot_S4x8x1024x1024_S4x8x1024x64_S4x8x1024x64_3_2_2_3_01_01]; rfl
    | ⟨1, _⟩ => simp [DotDims.rhsIdx, dot_S4x8x1024x1024_S4x8x1024x64_S4x8x1024x64_3_2_2_3_01_01]; rfl
    | ⟨2, _⟩ => simp [DotDims.rhsIdx, dot_S4x8x1024x1024_S4x8x1024x64_S4x8x1024x64_3_2_2_3_01_01]; exact c3
    | ⟨3, _⟩ => simp [DotDims.rhsIdx, dot_S4x8x1024x1024_S4x8x1024x64_S4x8x1024x64_3_2_2_3_01_01]; rfl
  rw [l3, r3]

/-- The output projection: [4,1024,512] against [512,512] over the last axes, at (b, n, c). -/
theorem dot_out_apply (l : FVec Ideal S4x1024x512 .f32) (r : FVec Ideal S512x512 .f32)
    (b : Fin 4) (n : Fin 1024) (d : Fin 512) :
    Host.dotGeneral dot_S4x1024x512_S512x512_S4x1024x512_2_1_01_0_n_n none l r (ix3 b n d)
      = ∑ k : Fin 512, l (ix3 b n k) * r (ix2 d k) := by
  show FloatOps.dotGeneral _ none _ l r (ix3 b n d) = _
  rw [Ideal.dotGeneral_apply,
    ← Equiv.sum_comp (contrEquiv1 dot_S4x1024x512_S512x512_S4x1024x512_2_1_01_0_n_n 512 rfl rfl).symm]
  refine Finset.sum_congr rfl fun c _ => ?_
  have c3 := contrEquiv1_symm_val dot_S4x1024x512_S512x512_S4x1024x512_2_1_01_0_n_n 512 rfl rfl c
  have l3 : dot_S4x1024x512_S512x512_S4x1024x512_2_1_01_0_n_n.lhsIdx (ix3 b n d)
      ((contrEquiv1 _ 512 rfl rfl).symm c) = ix3 b n c := by
    funext ax; apply Fin.ext
    match ax with
    | ⟨0, _⟩ => simp [DotDims.lhsIdx, dot_S4x1024x512_S512x512_S4x1024x512_2_1_01_0_n_n]; rfl
    | ⟨1, _⟩ => simp [DotDims.lhsIdx, dot_S4x1024x512_S512x512_S4x1024x512_2_1_01_0_n_n]; rfl
    | ⟨2, _⟩ => simp [DotDims.lhsIdx, dot_S4x1024x512_S512x512_S4x1024x512_2_1_01_0_n_n]; exact c3
  have r3 : dot_S4x1024x512_S512x512_S4x1024x512_2_1_01_0_n_n.rhsIdx (ix3 b n d)
      ((contrEquiv1 _ 512 rfl rfl).symm c) = ix2 d c := by
    funext ax; apply Fin.ext
    match ax with
    | ⟨0, _⟩ => simp [DotDims.rhsIdx, dot_S4x1024x512_S512x512_S4x1024x512_2_1_01_0_n_n]; rfl
    | ⟨1, _⟩ => simp [DotDims.rhsIdx, dot_S4x1024x512_S512x512_S4x1024x512_2_1_01_0_n_n]; exact c3
  rw [l3, r3]

/-- The sum over the rank-3 indices whose last coordinate is `k`: the double sum over the other two coordinates. -/
theorem sum_filter_axis2 {M : Type*} [AddCommMonoid M] {n0 n1 n2 : Nat} (x : (⟨3, ![n0, n1, n2]⟩ : Shape).Idx → M)
    (k : Fin n2) (p : (⟨3, ![n0, n1, n2]⟩ : Shape).Idx → Prop) [DecidablePred p] (hp : ∀ i, p i ↔ i 2 = k) :
    ∑ i ∈ Finset.univ.filter p, x i = ∑ a : Fin n0, ∑ b : Fin n1, x (ix3 a b k) := by
  rw [Finset.sum_filter, Cert.Lib.IdxSums.sum_idx3]
  refine Finset.sum_congr rfl fun a _ => Finset.sum_congr rfl fun b _ => ?_
  rw [Finset.sum_eq_single k]
  · rw [if_pos ((hp _).mpr rfl)]
  · intro c _ hc
    rw [if_neg (fun h => hc ((hp _).mp h))]
  · intro h
    exact absurd (Finset.mem_univ k) h

/-- Dropping the axes 0, 1 of a rank-3 index leaves its last coordinate. -/
theorem drop_01_iff {n0 n1 n2 : Nat} (h : (⟨3, ![n0, n1, n2]⟩ : Shape).ReducesTo [0, 1] ⟨1, ![n2]⟩)
    (i : (⟨3, ![n0, n1, n2]⟩ : Shape).Idx) (k : Fin n2) : h.drop i = ix1 k ↔ i 2 = k := by
  constructor
  · intro e
    have := congrArg (fun j : (⟨1, ![n2]⟩ : Shape).Idx => (j 0).val) e
    exact Fin.ext this
  · intro e
    funext b
    match b with
    | ⟨0, _⟩ => exact Fin.ext (congrArg Fin.val e)

/-- The add-reduction over the batch and row axes, at channel d: the initial value plus the double sum. -/
theorem reduce01_apply (x : FVec Ideal S4x1024x1536 .f32) (v : FVec Ideal S_ .f32) (d : Fin 1536) :
    Host.reduceAdd x v reducesTo_S4x1024x1536_S1536_d0_1 h_S_ (ix1 d)
      = v ix0 + ∑ b : Fin 4, ∑ n : Fin 1024, x (ix3 b n d) := by
  show Ideal.hostReduceAdd reducesTo_S4x1024x1536_S1536_d0_1 x (v (Shape.Idx.first h_S_)) (ix1 d) = _
  unfold Ideal.hostReduceAdd
  rw [sum_filter_axis2 x d _ (fun i => drop_01_iff reducesTo_S4x1024x1536_S1536_d0_1 i d),
    eq_ix0 (Shape.Idx.first h_S_)]

/-! ## Broadcasts -/

section Layout
variable {α : Type}

/-- A scalar broadcast to any shape reads the scalar. -/
theorem bcast_scalar_apply {t : Shape} (h : S_.BroadcastsInDim t (![] : Fin 0 → Fin t.rank)) (x : S_.Idx → α) (j : t.Idx) :
    broadcastInDim t ![] h x j = x ix0 :=
  broadcastInDim_apply _ h x j ix0 (fun a => a.elim0)

/-- A channel vector placed on the last axis of [1,1,1536]. -/
theorem bcast_1536_apply (x : S1536.Idx → α) (a b : Fin 1) (d : Fin 1536) :
    broadcastInDim S1x1x1536 ![2] bcast_S1536_S1x1x1536_2 x (ix3 a b d) = x (ix1 d) := by
  refine broadcastInDim_apply _ _ x _ (ix1 d) fun ax => ?_
  match ax with
  | ⟨0, _⟩ => rfl

/-- [1,1,1536] repeated over the batch and the rows. -/
theorem bcast_rows_apply (x : S1x1x1536.Idx → α) (b : Fin 4) (n : Fin 1024) (d : Fin 1536) :
    broadcastInDim S4x1024x1536 ![0, 1, 2] bcast_S1x1x1536_S4x1024x1536_0_1_2 x (ix3 b n d)
      = x (ix3 (0 : Fin 1) (0 : Fin 1) d) := by
  refine broadcastInDim_apply _ _ x _ (ix3 (0 : Fin 1) (0 : Fin 1) d) fun ax => ?_
  match ax with
  | ⟨0, _⟩ => rfl
  | ⟨1, _⟩ => rfl
  | ⟨2, _⟩ => rfl

/-- The bias vector placed on the last axis of [1,1,512]. -/
theorem bcast_512_apply (x : S512.Idx → α) (a b : Fin 1) (c : Fin 512) :
    broadcastInDim S1x1x512 ![2] bcast_S512_S1x1x512_2 x (ix3 a b c) = x (ix1 c) := by
  refine broadcastInDim_apply _ _ x _ (ix1 c) fun ax => ?_
  match ax with
  | ⟨0, _⟩ => rfl

/-- [1,1,512] repeated over the batch and the rows. -/
theorem bcast_rows512_apply (x : S1x1x512.Idx → α) (b : Fin 4) (n : Fin 1024) (c : Fin 512) :
    broadcastInDim S4x1024x512 ![0, 1, 2] bcast_S1x1x512_S4x1024x512_0_1_2 x (ix3 b n c)
      = x (ix3 (0 : Fin 1) (0 : Fin 1) c) := by
  refine broadcastInDim_apply _ _ x _ (ix3 (0 : Fin 1) (0 : Fin 1) c) fun ax => ?_
  match ax with
  | ⟨0, _⟩ => rfl
  | ⟨1, _⟩ => rfl
  | ⟨2, _⟩ => rfl

/-! ## Transposes and slices -/

/-- The transpose [2,0,3,1,4]: result (s, b, h, n, e) reads the operand at (b, n, s, h, e). -/
theorem transpose_qkv_apply (x : S4x1024x3x8x64.Idx → α) (s : Fin 3) (b : Fin 4) (h : Fin 8) (n : Fin 1024) (e : Fin 64) :
    transpose S3x4x8x1024x64 [2, 0, 3, 1, 4] x transposes_S4x1024x3x8x64_S3x4x8x1024x64_2_0_3_1_4 (ix5 s b h n e)
      = x (ix5 b n s h e) := by
  refine transpose_apply _ x _ _ (ix5 b n s h e) fun ax => ?_
  match ax with
  | ⟨0, _⟩ => rfl
  | ⟨1, _⟩ => rfl
  | ⟨2, _⟩ => rfl
  | ⟨3, _⟩ => rfl
  | ⟨4, _⟩ => rfl

/-- The transpose [0,2,1,3]: result (b, n, h, e) reads the operand at (b, h, n, e). -/
theorem transpose_heads_apply (x : S4x8x1024x64.Idx → α) (b : Fin 4) (n : Fin 1024) (h : Fin 8) (e : Fin 64) :
    transpose S4x1024x8x64 [0, 2, 1, 3] x transposes_S4x8x1024x64_S4x1024x8x64_0_2_1_3 (ix4 b n h e)
      = x (ix4 b h n e) := by
  refine transpose_apply _ x _ _ (ix4 b h n e) fun ax => ?_
  match ax with
  | ⟨0, _⟩ => rfl
  | ⟨1, _⟩ => rfl
  | ⟨2, _⟩ => rfl
  | ⟨3, _⟩ => rfl

/-- The slice of block 0 along the leading axis. -/
theorem slice0_apply (x : S3x4x8x1024x64.Idx → α) (z : Fin 1) (b : Fin 4) (h : Fin 8) (n : Fin 1024) (e : Fin 64) :
    extractStridedSlice S1x4x8x1024x64 ![0, 0, 0, 0, 0] x slices_S3x4x8x1024x64_S1x4x8x1024x64_0_0_0_0_0 (ix5 z b h n e)
      = x (ix5 (0 : Fin 3) b h n e) := by
  refine extractStridedSlice_apply _ x _ _ (ix5 (0 : Fin 3) b h n e) fun ax => ?_
  match ax with
  | ⟨0, _⟩ => show (0 : Nat) = 0 + z.val; omega
  | ⟨1, _⟩ => show b.val = 0 + b.val; omega
  | ⟨2, _⟩ => show h.val = 0 + h.val; omega
  | ⟨3, _⟩ => show n.val = 0 + n.val; omega
  | ⟨4, _⟩ => show e.val = 0 + e.val; omega

/-- The slice of block 1 along the leading axis. -/
theorem slice1_apply (x : S3x4x8x1024x64.Idx → α) (z : Fin 1) (b : Fin 4) (h : Fin 8) (n : Fin 1024) (e : Fin 64) :
    extractStridedSlice S1x4x8x1024x64 ![1, 0, 0, 0, 0] x slices_S3x4x8x1024x64_S1x4x8x1024x64_1_0_0_0_0 (ix5 z b h n e)
      = x (ix5 (1 : Fin 3) b h n e) := by
  refine extractStridedSlice_apply _ x _ _ (ix5 (1 : Fin 3) b h n e) fun ax => ?_
  match ax with
  | ⟨0, _⟩ => show (1 : Nat) = 1 + z.val; omega
  | ⟨1, _⟩ => show b.val = 0 + b.val; omega
  | ⟨2, _⟩ => show h.val = 0 + h.val; omega
  | ⟨3, _⟩ => show n.val = 0 + n.val; omega
  | ⟨4, _⟩ => show e.val = 0 + e.val; omega

/-- The slice of block 2 along the leading axis. -/
theorem slice2_apply (x : S3x4x8x1024x64.Idx → α) (z : Fin 1) (b : Fin 4) (h : Fin 8) (n : Fin 1024) (e : Fin 64) :
    extractStridedSlice S1x4x8x1024x64 ![2, 0, 0, 0, 0] x slices_S3x4x8x1024x64_S1x4x8x1024x64_2_0_0_0_0 (ix5 z b h n e)
      = x (ix5 (2 : Fin 3) b h n e) := by
  refine extractStridedSlice_apply _ x _ _ (ix5 (2 : Fin 3) b h n e) fun ax => ?_
  match ax with
  | ⟨0, _⟩ => show (2 : Nat) = 2 + z.val; omega
  | ⟨1, _⟩ => show b.val = 0 + b.val; omega
  | ⟨2, _⟩ => show h.val = 0 + h.val; omega
  | ⟨3, _⟩ => show n.val = 0 + n.val; omega
  | ⟨4, _⟩ => show e.val = 0 + e.val; omega

end Layout

/-! ## Reshapes -/

section Reshape
variable {α : Type}

/-- [4,1024,1536] → [4,1024,3,8,64]: entry (b, n, s, h, e) is channel 512·s + 64·h + e of row (b, n). -/
theorem reshape_split_apply (x : S4x1024x1536.Idx → α) (b : Fin 4) (n : Fin 1024) (s : Fin 3) (h : Fin 8) (e : Fin 64) :
    shapeCast S4x1024x3x8x64 x shapeCasts_S4x1024x1536_S4x1024x3x8x64 (ix5 b n s h e)
      = x (ix3 b n (⟨512 * s.val + 64 * h.val + e.val, by omega⟩ : Fin 1536)) := by
  refine shapeCast_apply x _ _ (ix3 b n (⟨512 * s.val + 64 * h.val + e.val, by omega⟩ : Fin 1536)) ?_
  rw [Shape.rowMajor_val_three, Shape.rowMajor_val_five]
  show (b.val * 1024 + n.val) * 1536 + (512 * s.val + 64 * h.val + e.val)
    = (((b.val * 1024 + n.val) * 3 + s.val) * 8 + h.val) * 64 + e.val
  omega

/-- [1,4,8,1024,64] → [4,8,1024,64]: the unit axis dropped. -/
theorem reshape_drop_apply (x : S1x4x8x1024x64.Idx → α) (b : Fin 4) (h : Fin 8) (n : Fin 1024) (e : Fin 64) :
    shapeCast S4x8x1024x64 x shapeCasts_S1x4x8x1024x64_S4x8x1024x64 (ix4 b h n e)
      = x (ix5 (0 : Fin 1) b h n e) := by
  refine shapeCast_apply x _ _ (ix5 (0 : Fin 1) b h n e) ?_
  rw [Shape.rowMajor_val_five, Shape.rowMajor_val_four]
  show ((((0 : Nat) * 4 + b.val) * 8 + h.val) * 1024 + n.val) * 64 + e.val
    = ((b.val * 8 + h.val) * 1024 + n.val) * 64 + e.val
  omega

/-- [4,1024,8,64] → [4,1024,512]: channel j of the result is lane j mod 64 of head j / 64. -/
theorem reshape_merge_apply (x : S4x1024x8x64.Idx → α) (b : Fin 4) (n : Fin 1024) (j : Fin 512) :
    shapeCast S4x1024x512 x shapeCasts_S4x1024x8x64_S4x1024x512 (ix3 b n j)
      = x (ix4 b n (⟨j.val / 64, by omega⟩ : Fin 8) (⟨j.val % 64, by omega⟩ : Fin 64)) := by
  refine shapeCast_apply x _ _ (ix4 b n (⟨j.val / 64, by omega⟩ : Fin 8) (⟨j.val % 64, by omega⟩ : Fin 64)) ?_
  rw [Shape.rowMajor_val_four, Shape.rowMajor_val_three]
  show ((b.val * 1024 + n.val) * 8 + j.val / 64) * 64 + j.val % 64 = (b.val * 1024 + n.val) * 512 + j.val
  omega

end Reshape

end Cert.ReferenceIdeal.RefOps

end
-- ==== Proof.RefRead.lean ====
/-
  The reference's value read index by index: each stage of the chain of definitions of the reference's value is read
  at one index as the corresponding quantity of the shared specification, ending in
  refTerm x W γ β P bp (b, n, c) = attn (zR x W γ β) P bp b n c.
  The column sums start from the constant 0; the variance's divisor 4096 − 0 is 4096 and is positive, so the
  variance is the quotient; channel 512·s + 64·h + e of the normalised activations is q, k, v (s = 0, 1, 2) of head
  h at lane e.
-/
import proofs.«103527_j53025666236638_2_alg».proof.Proof.RefOps
import proofs.«103527_j53025666236638_2_alg».proof.Proof.RefTerm
import proofs.«103527_j53025666236638_2_alg».proof.Proof.Spec

noncomputable section

open scoped BigOperators

namespace Cert.ReferenceIdeal.RefRead

open Idealize.ShloMosaic Idealize.ShloMosaic.ValueIdx
open Cert.ReferenceIdeal Cert.ReferenceIdeal.RefTerm Cert.ReferenceIdeal.RefOps

variable [Facts]
open Facts₀ Facts

/-! ## The pointwise pieces -/

/-- A spread constant reads the extended real of its word. -/
theorem splat_apply (S : Shape) (hb : S_.BroadcastsInDim S (![] : Fin 0 → Fin S.rank)) (w : BitVec 32) (j : S.Idx) :
    splat S hb w j = Ideal.ofBits .f32 w := rfl

/-- The spike of an array at an index is the specification's spike of the entry. -/
theorem spike_apply (S : Shape) (hb : S_.BroadcastsInDim S (![] : Fin 0 → Fin S.rank)) (v : FVec Ideal S .f32) (j : S.Idx) :
    spike S hb v j = Cert.Spec.spk (v j) := rfl

/-- A per-channel vector spread over the rows reads the channel's entry. -/
theorem rows_apply (v : FVec Ideal S1536 .f32) (b : Fin 4) (n : Fin 1024) (d : Fin 1536) :
    rows v (ix3 b n d) = v (ix1 d) := by
  unfold rows
  rw [bcast_rows_apply, bcast_1536_apply]

/-! ## The projection and the batch statistics -/

/-- The projection of the spiked tokens is the specification's Y. -/
theorem qkv_apply (x : FVec Ideal S4x1024x512 .f32) (W : FVec Ideal S1536x512 .f32) (b : Fin 4) (n : Fin 1024) (d : Fin 1536) :
    qkv x W (ix3 b n d) = Cert.Spec.Y (fun b n k => x (ix3 b n k)) (fun d k => W (ix2 d k)) b n d := by
  unfold qkv Cert.Spec.Y
  rw [dot_proj_apply]
  rfl

/-- The column sum: the constant 0 plus the double sum, that is the double sum. -/
theorem colSum_apply (y : FVec Ideal S4x1024x1536 .f32) (d : Fin 1536) :
    colSum y (ix1 d) = ∑ b : Fin 4, ∑ n : Fin 1024, y (ix3 b n d) := by
  unfold colSum
  rw [reduce01_apply]
  show Ideal.ofBits .f32 0x00000000#32 + _ = _
  rw [Ideal.ofBits_zero_f32, zero_add]

/-- The channel mean is the specification's μ. -/
theorem mean_apply (y : FVec Ideal S4x1024x1536 .f32) (d : Fin 1536) :
    mean y (ix1 d) = Cert.Spec.mu (fun b n d => y (ix3 b n d)) d := by
  unfold mean Cert.Spec.mu Cert.Spec.S1
  show Ideal.div (colSum y (ix1 d)) (Ideal.ofBits .f32 0x45800000#32) = _
  rw [colSum_apply]

/-- The mean as the variance computes it is the same μ. -/
theorem varMeanRows_apply (y : FVec Ideal S4x1024x1536 .f32) (b : Fin 4) (n : Fin 1024) (d : Fin 1536) :
    varMeanRows y (ix3 b n d) = Cert.Spec.mu (fun b n d => y (ix3 b n d)) d := by
  unfold varMeanRows
  rw [bcast_rows_apply]
  show Ideal.div (broadcastInDim S1x1x1536 ![2] bcast_S1536_S1x1x1536_2 (colSum y) (ix3 (0 : Fin 1) (0 : Fin 1) d))
    (Ideal.ofBits .f32 0x45800000#32) = _
  rw [bcast_1536_apply, colSum_apply]
  rfl

/-- The squared deviation from μ. -/
theorem sqDev_apply (y : FVec Ideal S4x1024x1536 .f32) (b : Fin 4) (n : Fin 1024) (d : Fin 1536) :
    sqDev y (ix3 b n d)
      = (y (ix3 b n d) - Cert.Spec.mu (fun b n d => y (ix3 b n d)) d)
        * (y (ix3 b n d) - Cert.Spec.mu (fun b n d => y (ix3 b n d)) d) := by
  unfold sqDev
  show (y (ix3 b n d) - varMeanRows y (ix3 b n d)) * (y (ix3 b n d) - varMeanRows y (ix3 b n d)) = _
  rw [varMeanRows_apply]

/-- The variance's divisor 4096 − 0 is 4096. -/
theorem varDen_apply (j : S_.Idx) : varDen j = Cert.Spec.c4096 := by
  unfold varDen
  show Ideal.ofBits .f32 0x45800000#32 - (((0 : Int) : ℝ) : EReal) = _
  simp

/-- 4096 is positive. -/
theorem c4096_pos : (0 : EReal) < Cert.Spec.c4096 := by
  have h : Cert.Spec.c4096 = ((4096 : ℝ) : EReal) := by
    simp [Cert.Spec.c4096, Ideal.ofBits, Ideal.ieee, -EReal.coe_mul]; norm_num
  rw [h]
  exact EReal.coe_pos.mpr (by norm_num)

/-- The channel variance is the specification's centred variance: the divisor is positive, so the quotient is kept. -/
theorem var_apply (y : FVec Ideal S4x1024x1536 .f32) (d : Fin 1536) :
    var y (ix1 d) = Cert.Spec.varR (fun b n d => y (ix3 b n d)) d := by
  unfold var
  rw [select_apply, bcast_scalar_apply]
  have hc : cmpf .ogt varDen (constant (F := Ideal) S_ .f32 0x00000000#32) ix0 = 1#1 := by
    show Ideal.cmp .ogt (varDen ix0) (Ideal.ofBits .f32 0x00000000#32) = 1#1
    rw [varDen_apply, Ideal.ofBits_zero_f32]
    unfold Ideal.cmp
    simp [c4096_pos]
  rw [hc, select_one]
  unfold varQuot Cert.Spec.varR
  show Ideal.div (colSum (sqDev y) (ix1 d)) (broadcastInDim S1536 ![] bcast_S_S1536 varDen (ix1 d)) = _
  rw [bcast_scalar_apply, varDen_apply, colSum_apply]
  simp only [sqDev_apply]

/-- The normalised activations are the specification's affine form of the reference. -/
theorem normed_apply (y : FVec Ideal S4x1024x1536 .f32) (γ β : FVec Ideal S1536 .f32) (b : Fin 4) (n : Fin 1024) (d : Fin 1536) :
    normed y γ β (ix3 b n d)
      = Cert.Spec.linR (fun b n d => y (ix3 b n d)) (fun d => γ (ix1 d)) (fun d => β (ix1 d)) b n d := by
  unfold normed Cert.Spec.linR
  show ((y (ix3 b n d) - rows (mean y) (ix3 b n d))
      * rows (Host.rsqrt (F := Ideal) (addf (var y) (splat S1536 bcast_S_S1536 0x3727C5AC#32))) (ix3 b n d))
      * rows γ (ix3 b n d) + rows β (ix3 b n d) = _
  rw [rows_apply, rows_apply, rows_apply, rows_apply, mean_apply]
  show ((y (ix3 b n d) - Cert.Spec.mu (fun b n d => y (ix3 b n d)) d)
      * Ideal.rsqrt (var y (ix1 d) + Ideal.ofBits .f32 0x3727C5AC#32)) * γ (ix1 d) + β (ix1 d) = _
  rw [var_apply]

/-! ## The attention stages -/

/-- The split-and-transposed activations: entry (s, b, h, n, e) is channel 512·s + 64·h + e of row (b, n). -/
theorem qT_apply (z : FVec Ideal S4x1024x1536 .f32) (s : Fin 3) (b : Fin 4) (h : Fin 8) (n : Fin 1024) (e : Fin 64) :
    qT z (ix5 s b h n e) = z (ix3 b n (⟨512 * s.val + 64 * h.val + e.val, by omega⟩ : Fin 1536)) := by
  unfold qT
  rw [transpose_qkv_apply, reshape_split_apply]

/-- Block 0 is q: channel 64h + e. -/
theorem qT_q (z : FVec Ideal S4x1024x1536 .f32) (b : Fin 4) (h : Fin 8) (n : Fin 1024) (e : Fin 64) :
    qT z (ix5 (0 : Fin 3) b h n e) = z (ix3 b n (Cert.Spec.chQ h e)) := by
  rw [qT_apply]
  congr 2
  exact Fin.ext (by show 512 * 0 + 64 * h.val + e.val = 64 * h.val + e.val; omega)

/-- Block 1 is k: channel 512 + 64h + e. -/
theorem qT_k (z : FVec Ideal S4x1024x1536 .f32) (b : Fin 4) (h : Fin 8) (n : Fin 1024) (e : Fin 64) :
    qT z (ix5 (1 : Fin 3) b h n e) = z (ix3 b n (Cert.Spec.chK h e)) := by
  rw [qT_apply]
  congr 2
  exact Fin.ext (by show 512 * 1 + 64 * h.val + e.val = 512 + (64 * h.val + e.val); omega)

/-- Block 2 is v: channel 1024 + 64h + e. -/
theorem qT_v (z : FVec Ideal S4x1024x1536 .f32) (b : Fin 4) (h : Fin 8) (n : Fin 1024) (e : Fin 64) :
    qT z (ix5 (2 : Fin 3) b h n e) = z (ix3 b n (Cert.Spec.chV h e)) := by
  rw [qT_apply]
  congr 2
  exact Fin.ext (by show 512 * 2 + 64 * h.val + e.val = 1024 + (64 * h.val + e.val); omega)

/-- The spiked q block. -/
theorem qS_apply (t : FVec Ideal S3x4x8x1024x64 .f32) (b : Fin 4) (h : Fin 8) (n : Fin 1024) (e : Fin 64) :
    qS t (ix4 b h n e) = Cert.Spec.spk (t (ix5 (0 : Fin 3) b h n e)) := by
  unfold qS
  rw [spike_apply, reshape_drop_apply, slice0_apply]

/-- The spiked k block. -/
theorem kS_apply (t : FVec Ideal S3x4x8x1024x64 .f32) (b : Fin 4) (h : Fin 8) (n : Fin 1024) (e : Fin 64) :
    kS t (ix4 b h n e) = Cert.Spec.spk (t (ix5 (1 : Fin 3) b h n e)) := by
  unfold kS
  rw [spike_apply, reshape_drop_apply, slice1_apply]

/-- The spiked v block. -/
theorem vS_apply (t : FVec Ideal S3x4x8x1024x64 .f32) (b : Fin 4) (h : Fin 8) (n : Fin 1024) (e : Fin 64) :
    vS t (ix4 b h n e) = Cert.Spec.spk (t (ix5 (2 : Fin 3) b h n e)) := by
  unfold vS
  rw [spike_apply, reshape_drop_apply, slice2_apply]

/-- The spiked scores. -/
theorem scores_apply (t : FVec Ideal S3x4x8x1024x64 .f32) (b : Fin 4) (h : Fin 8) (n m : Fin 1024) :
    scores t (ix4 b h n m) = Cert.Spec.spk (∑ e : Fin 64, qS t (ix4 b h n e) * kS t (ix4 b h m e)) := by
  unfold scores
  rw [spike_apply, dot_scores_apply]

/-- The spiked head outputs side by side: channel j is lane j mod 64 of head j / 64. -/
theorem heads_apply (t : FVec Ideal S3x4x8x1024x64 .f32) (b : Fin 4) (n : Fin 1024) (j : Fin 512) :
    heads t (ix3 b n j)
      = Cert.Spec.spk ((∑ m : Fin 1024, scores t (ix4 b (Cert.Spec.hOf j) n m) * vS t (ix4 b (Cert.Spec.hOf j) m (Cert.Spec.eOf j)))
          * Cert.Spec.ceighth) := by
  unfold heads
  rw [spike_apply, reshape_merge_apply, transpose_heads_apply, mulf_apply, dot_av_apply]
  rfl

/-! ## The stages over the normalised activations, as the specification's rows -/

section Rows
variable (y : FVec Ideal S4x1024x1536 .f32) (γ β : FVec Ideal S1536 .f32)

/-- The spiked normalised activations of the reference, as a function of coordinates. -/
def zOf : Fin 4 → Fin 1024 → Fin 1536 → EReal :=
  fun b n d => Cert.Spec.spk (Cert.Spec.linR (fun b n d => y (ix3 b n d)) (fun d => γ (ix1 d)) (fun d => β (ix1 d)) b n d)

theorem qS_z (b : Fin 4) (h : Fin 8) (n : Fin 1024) (e : Fin 64) :
    qS (qT (normed y γ β)) (ix4 b h n e) = zOf y γ β b n (Cert.Spec.chQ h e) := by
  rw [qS_apply, qT_q, normed_apply]; rfl

theorem kS_z (b : Fin 4) (h : Fin 8) (n : Fin 1024) (e : Fin 64) :
    kS (qT (normed y γ β)) (ix4 b h n e) = zOf y γ β b n (Cert.Spec.chK h e) := by
  rw [kS_apply, qT_k, normed_apply]; rfl

theorem vS_z (b : Fin 4) (h : Fin 8) (n : Fin 1024) (e : Fin 64) :
    vS (qT (normed y γ β)) (ix4 b h n e) = zOf y γ β b n (Cert.Spec.chV h e) := by
  rw [vS_apply, qT_v, normed_apply]; rfl

theorem scores_z (b : Fin 4) (h : Fin 8) (n m : Fin 1024) :
    scores (qT (normed y γ β)) (ix4 b h n m) = Cert.Spec.scoreRow (zOf y γ β b) h n m := by
  rw [scores_apply]
  unfold Cert.Spec.scoreRow
  simp only [qS_z, kS_z]

theorem heads_z (b : Fin 4) (n : Fin 1024) (j : Fin 512) :
    heads (qT (normed y γ β)) (ix3 b n j) = Cert.Spec.headRow (zOf y γ β b) (Cert.Spec.hOf j) n (Cert.Spec.eOf j) := by
  rw [heads_apply]
  unfold Cert.Spec.headRow
  simp only [scores_z, vS_z]

end Rows

/-! ## The whole value -/

/-- The reference's value at (b, n, c) is the specification's attention over the reference's spiked activations. -/
theorem refTerm_apply (x : FVec Ideal S4x1024x512 .f32) (W : FVec Ideal S1536x512 .f32) (γ β : FVec Ideal S1536 .f32)
    (P : FVec Ideal S512x512 .f32) (bp : FVec Ideal S512 .f32) (b : Fin 4) (n : Fin 1024) (c : Fin 512) :
    RefTerm.refTerm x W γ β P bp (ix3 b n c)
      = Cert.Spec.attn (Cert.Spec.zR (fun b n k => x (ix3 b n k)) (fun d k => W (ix2 d k)) (fun d => γ (ix1 d)) (fun d => β (ix1 d)))
          (fun c j => P (ix2 c j)) (fun c => bp (ix1 c)) b n c := by
  have hY : (fun b n d => qkv x W (ix3 b n d)) = Cert.Spec.Y (fun b n k => x (ix3 b n k)) (fun d k => W (ix2 d k)) := by
    funext b n d; exact qkv_apply x W b n d
  have hz : zOf (qkv x W) γ β
      = Cert.Spec.zR (fun b n k => x (ix3 b n k)) (fun d k => W (ix2 d k)) (fun d => γ (ix1 d)) (fun d => β (ix1 d)) := by
    unfold zOf Cert.Spec.zR
    rw [hY]
  unfold RefTerm.refTerm
  rw [addf_apply, dot_out_apply, bcast_rows512_apply, bcast_512_apply]
  unfold Cert.Spec.attn Cert.Spec.attnRow
  rw [← hz]
  simp only [heads_z]

end Cert.ReferenceIdeal.RefRead

end
-- ==== Proof.PreFinite.lean ====
/-
  From the finiteness precondition to real-valued inputs.

  The precondition is the conjunction, over the six float inputs a, of "every entry of |a| is below +∞".
  On the extended reals |x| = max x (−x), and max x (−x) < ⊤ excludes x = ⊤ (then |x| = ⊤) and x = ⊥
  (then −x = ⊤), so x is a real.  A conjunction that is 1 has both conjuncts 1, and an all-reduction by
  "and" that is 1 has a 1 at every index.
-/
import proofs.«103527_j53025666236638_2_alg».proof.Pre_finite_inputs
import proofs.«103527_j53025666236638_2_alg».proof.Proof.Gen.Pre_finite_inputs
import Idealize.ShloMosaic.Lib.ReduceAll
import Idealize.ShloMosaic.Lib.ValueIdx
import Idealize.ShloMosaic.PureOps.Ideal

noncomputable section

namespace Cert.PreFinite

open Idealize.ShloMosaic Cert.Pre_finite_inputs

/-- The shape of a scalar has one index. -/
instance : Subsingleton S_.Idx := ⟨fun a b => funext fun d => d.elim0⟩

/-- An extended real whose absolute value max x (−x) is below +∞ is a real. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- One conjunct of the precondition: if "all |x| < +∞" is 1, every entry of x is a real. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant S_ .f32 0x7F800000#32)))
          (constantI S_ 1 1#1) hr hu ValueIdx.ix0 = 1#1) (i : s.Idx) : ∃ r : ℝ, x i = (r : EReal) :=
  real_of_abs_lt (x i) (Host.reduce_andi_all _ _ hr hu _ e i)

/-- Under the precondition every entry of every input is a real. -/
theorem reals_of_pre_all [Cert.Pre_finite_inputs.Facts] (a0 : FVec Ideal S4x1024x512 .f32)
    (a1 : FVec Ideal S1536x512 .f32) (a2 a3 : FVec Ideal S1536 .f32) (a4 : FVec Ideal S512x512 .f32)
    (a5 : FVec Ideal S512 .f32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal))
      ∧ (∀ i, ∃ r : ℝ, a5 i = (r : EReal)) := by
  have h0 := congrFun h ValueIdx.ix0
  dsimp only [fn, fn_part1] at h0
  obtain ⟨h01234, e5⟩ := IntOp.andi_eq_one.1 h0
  obtain ⟨h0123, e4⟩ := IntOp.andi_eq_one.1 h01234
  obtain ⟨h012, e3⟩ := IntOp.andi_eq_one.1 h0123
  obtain ⟨h01, e2⟩ := IntOp.andi_eq_one.1 h012
  obtain ⟨e0, e1⟩ := IntOp.andi_eq_one.1 h01
  exact ⟨all_real a0 _ _ _ e0, all_real a1 _ _ _ e1, all_real a2 _ _ _ e2, all_real a3 _ _ _ e3,
    all_real a4 _ _ _ e4, all_real a5 _ _ _ e5⟩

/-- Under the precondition the weight matrix, the scale and the shift hold real numbers. -/
theorem reals_of_pre [Cert.Pre_finite_inputs.Facts] (a0 : FVec Ideal S4x1024x512 .f32)
    (a1 : FVec Ideal S1536x512 .f32) (a2 a3 : FVec Ideal S1536 .f32) (a4 : FVec Ideal S512x512 .f32)
    (a5 : FVec Ideal S512 .f32)
    (h : Cert.Pre_finite_inputs.fn (F := Ideal) a0 a1 a2 a3 a4 a5 = fun _ => 1#1) :
    (∀ i, ∃ r : ℝ, a1 i = (r : EReal)) ∧ (∀ i, ∃ r : ℝ, a2 i = (r : EReal)) ∧ (∀ i, ∃ r : ℝ, a3 i = (r : EReal)) :=
  let ⟨_, h1, h2, h3, _, _⟩ := reals_of_pre_all a0 a1 a2 a3 a4 a5 h
  ⟨h1, h2, h3⟩

end Cert.PreFinite

end
-- ==== Proof.lean ====
/-
  The certificate. Both idealized programs compute, on the extended reals, one function of the six argument arrays:
  entry (b, n, j) of the result is the softmax-free attention of batch element b over the spiked, batch-normalised
  q/k/v projection of the spiked tokens, projected by the output weight and shifted by its bias.

  The kernel takes the projection tile by tile (eight tiles of 512 rows), accumulates per channel the sum and the sum
  of squares, and between its two regions folds mean, variance S2/4096 − μ² (clamped at 0), γ and β into one scale
  and one shift per channel; the reference centres first, Σ (y − μ)² / 4096, and normalises (y − μ) · rsqrt (var + ε)
  · γ + β. For real entries the two variances are one number and the two affine forms one function — the only place
  the finiteness of the inputs is used (the weight, γ and β must be real; the spiked tokens always are) —, and the
  order in which rows are summed does not matter on the extended reals. The attention itself is the same arithmetic
  on both sides: per head the scores Σ_e q·k, spiked; Σ_m A·v scaled by 1/8, spiked; the heads side by side times
  the weight's rows plus the bias — the kernel's static 64-lane slices of one batch element are the reference's
  [3, 4, 8, 1024, 64] transposition read at the same channels.

  The three frames are the generated frame runs of the two kernel programs and the reference's run with its result
  dropped; the ideal pass rewrote nothing, so the preservation claim is trivial.
-/
import proofs.«103527_j53025666236638_2_alg».proof.Defs
import proofs.«103527_j53025666236638_2_alg».proof.Proof.Gen.Kernel
import proofs.«103527_j53025666236638_2_alg».proof.Proof.Gen.Kernel.Frame
import proofs.«103527_j53025666236638_2_alg».proof.Proof.Gen.KernelIdeal
import proofs.«103527_j53025666236638_2_alg».proof.Proof.Gen.KernelIdeal.Frame
import proofs.«103527_j53025666236638_2_alg».proof.Proof.Gen.ReferenceIdeal
import proofs.«103527_j53025666236638_2_alg».proof.Proof.Gen.Pre_finite_inputs
import proofs.«103527_j53025666236638_2_alg».proof.Proof.KRun
import proofs.«103527_j53025666236638_2_alg».proof.Proof.KValue
import proofs.«103527_j53025666236638_2_alg».proof.Proof.RefRun
import proofs.«103527_j53025666236638_2_alg».proof.Proof.RefRead
import proofs.«103527_j53025666236638_2_alg».proof.Proof.SpecLaws
import proofs.«103527_j53025666236638_2_alg».proof.Proof.PreFinite
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ => Cert.ReferenceIdeal.RefRun.frame m ρ

theorem preserves : Cert.preserves_Kernel_KernelIdeal := trivial

/-- From memories agreeing on the arguments both programs end with the same result array: index by index both are
    the attention over the spiked activations, and the kernel's and the reference's activations agree because the
    weight, γ and β are real. -/
theorem algebraic : Cert.algebraic_KernelIdeal_ReferenceIdeal := by
  intro m ρ m' ρ' hpre hagree
  refine ⟨fun c => Cert.KernelIdeal.Gen.W4 m ρ c (Proc.devRef .tc Cert.KernelIdeal.main_v25),
    Cert.KernelIdeal.KRun.run_named m ρ, ?_⟩
  refine (θ_run Cert.ReferenceIdeal.defs _ _).mono (fun _ h c => ⟨(h c).1.trans ?_, (h c).2⟩)
    (Cert.ReferenceIdeal.RefRun.run m' ρ')
  obtain ⟨a0, a1, a2, a3, a4, a5⟩ := hagree c
  rw [a0, a1, a2, a3, a4, a5]
  obtain ⟨h1, h2, h3⟩ := Cert.PreFinite.reals_of_pre _ _ _ _ _ _ (hpre c)
  funext i
  obtain ⟨b, n, j, rfl⟩ : ∃ (b : Fin 4) (n : Fin 1024) (j : Fin 512), i = ix3 b n j := ⟨i 0, i 1, i 2, eq_ix3 i⟩
  beta_reduce
  rw [Cert.ReferenceIdeal.RefRead.refTerm_apply, Cert.KernelIdeal.KValue.result_apply m ρ c b n j,
    Cert.Spec.zK_eq_zR _ _ _ _ (fun d k => h1 (ix2 d k)) (fun d => h2 (ix1 d)) (fun d => h3 (ix1 d))]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
